-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_2)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v6_0)) (v3 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_2) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v6_0) = v2 c
          ∧ r.2.mem ((c.tc : Thread Cert.KernelIdeal.nD Cert.KernelIdeal.τ).loc Cert.KernelIdeal.main_v6_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S1x16 : Shape := ⟨2, ![1, 16]⟩
abbrev S10000x16 : Shape := ⟨2, ![10000, 16]⟩
abbrev S800x10000 : Shape := ⟨2, ![800, 10000]⟩
abbrev S800x64 : Shape := ⟨2, ![800, 64]⟩
abbrev S800x16 : Shape := ⟨2, ![800, 16]⟩
abbrev S10400x16 : Shape := ⟨2, ![10400, 16]⟩
abbrev S800 : Shape := ⟨1, ![800]⟩
abbrev S800x1 : Shape := ⟨2, ![800, 1]⟩

abbrev nBuf : Space → Nat
  | .hbm => 19
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S1x64, .f32⟩
  | .hbm, ⟨9, _⟩ => ⟨S64x64, .bf16⟩
  | .hbm, ⟨10, _⟩ => ⟨S10000x64, .f32⟩
  | .hbm, ⟨11, _⟩ => ⟨S10000x10000, .bf16⟩
  | .hbm, ⟨12, _⟩ => ⟨S10000x64, .bf16⟩
  | .hbm, ⟨13, _⟩ => ⟨S1x64, .f32⟩
  | .hbm, ⟨14, _⟩ => ⟨S1x16, .f32⟩
  | .hbm, ⟨15, _⟩ => ⟨S64x16, .bf16⟩
  | .hbm, ⟨16, _⟩ => ⟨S10000x64, .f32⟩
  | .hbm, ⟨17, _⟩ => ⟨S10000x16, .f32⟩
  | .hbm, ⟨18, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S400x10000, .f32⟩
  | .local _ .vmem, ⟨3, _⟩ => ⟨S400x10000, .f32⟩
  | .local _ .vmem, ⟨4, _⟩ => ⟨S1x64, .f32⟩
  | .local _ .vmem, ⟨5, _⟩ => ⟨S64x64, .bf16⟩
  | .local _ .vmem, ⟨6, _⟩ => ⟨S400x64, .f32⟩
  | .local _ .vmem, ⟨7, _⟩ => ⟨S400x64, .f32⟩
  | .local _ .vmem, ⟨8, _⟩ => ⟨S400x10000, .bf16⟩
  | .local _ .vmem, ⟨9, _⟩ => ⟨S400x10000, .bf16⟩
  | .local _ .vmem, ⟨10, _⟩ => ⟨S400x64, .bf16⟩
  | .local _ .vmem, ⟨11, _⟩ => ⟨S400x64, .bf16⟩
  | .local _ .vmem, ⟨12, _⟩ => ⟨S10000x64, .bf16⟩
  | .local _ .vmem, ⟨13, _⟩ => ⟨S800x10000, .bf16⟩
  | .local _ .vmem, ⟨14, _⟩ => ⟨S800x10000, .bf16⟩
  | .local _ .vmem, ⟨15, _⟩ => ⟨S10000x64, .bf16⟩
  | .local _ .vmem, ⟨16, _⟩ => ⟨S1x64, .f32⟩
  | .local _ .vmem, ⟨17, _⟩ => ⟨S1x16, .f32⟩
  | .local _ .vmem, ⟨18, _⟩ => ⟨S64x16, .bf16⟩
  | .local _ .vmem, ⟨19, _⟩ => ⟨S800x64, .f32⟩
  | .local _ .vmem, ⟨20, _⟩ => ⟨S800x64, .f32⟩
  | .local _ .vmem, ⟨21, _⟩ => ⟨S800x16, .f32⟩
  | .local _ .vmem, ⟨22, _⟩ => ⟨S800x16, .f32⟩
  | .local _ .vmem, ⟨23, _⟩ => ⟨S800x16, .f32⟩
  | .local _ .vmem, ⟨24, _⟩ => ⟨S800x16, .f32⟩
  | .local _ .vmem, ⟨25, _⟩ => ⟨S10400x16, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 13], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c800_i32 : BitVec 32 := 800#32
  let v23 : BitVec 32 := Scalar.muli arg1 c800_i32
  let v24 : Index := Scalar.indexCast v23
  let c0_13 : Index := 0#32
  ![v24.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c12_i32 : BitVec 32 := 12#32
  let v1 : BitVec 32 := Scalar.select v0 arg1 c12_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S800x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x16 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S800x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S800x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S800x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S64_S1x64 : S64.ShapeCasts S1x64
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S400x64_S400x64_0_0 : (Rect.unit (s := S400x64) ![0, 0] S400x64.size inb_S400x64_S400x64_0_0).PackedRows (EltTy.packing .bf16)
  shapeCasts_S16_S1x16 : S16.ShapeCasts S1x16
  inb_S800x10000_S800x10000_0_0 : ∀ a, (![0, 0] : Fin 2 → Nat) a + S800x10000.size a ≤ S800x10000.size a
  h_S800x10000 : 0 < S800x10000.numel
  shapeCasts_S800x10000_S800x10000 : S800x10000.ShapeCasts S800x10000
  broadcasts_S1x64_S800x64 : S1x64.Broadcasts S800x64
  inb_S800x64_S800x64_0_0 : ∀ a, (![0, 0] : Fin 2 → Nat) a + S800x64.size a ≤ S800x64.size a
  h_S800x64 : 0 < S800x64.numel
  inb_S64x16_S64x16_0_0 : ∀ a, (![0, 0] : Fin 2 → Nat) a + S64x16.size a ≤ S64x16.size a
  h_S64x16 : 0 < S64x16.numel
  shapeCasts_S64x16_S64x16 : S64x16.ShapeCasts S64x16
  h_S800x16 : 0 < S800x16.numel
  shapeCasts_S800x16_S800x16 : S800x16.ShapeCasts S800x16
  inb_S10400x16_S10000x16_0_0 : ∀ a, (![0, 0] : Fin 2 → Nat) a + S10000x16.size a ≤ S10400x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S800x16 : S1x16.Broadcasts S800x16
  inb_S800x16_S800x16_0_0 : ∀ a, (![0, 0] : Fin 2 → Nat) a + S800x16.size a ≤ S800x16.size a
  reduces_S800x16_S800 : S800x16.Reduces [1] S800
  shapeCasts_S800_S800x1 : S800.ShapeCasts S800x1
  broadcasts_S800x1_S800x16 : S800x1.Broadcasts S800x16
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S800x10000_S10000x64_S800x64_1_0_0_1_n_n_wf : DotDims.WF S800x10000 S10000x64 S800x64 [1] [0] [0] [1] [] []
  dot_S800x64_S64x16_S800x16_1_0_0_1_n_n_wf : DotDims.WF S800x64 S64x16 S800x16 [1] [0] [0] [1] [] []
  dot_S800x10000_S10000x16_S800x16_1_0_0_1_n_n_wf : DotDims.WF S800x10000 S10000x16 S800x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .bf16 = 32 ∨ (Rect.block (s := S10000x64) S400x64.size (cc0_transform_7 i) (hinb0_7 i)).WholeWords (EltTy.packing .bf16)
  hrank1 : 0 < grid1.rank
  k1_off1_inb : ∀ i : grid1.Coords, ∀ (k1_h1 : k1_cond1 i = 1#1), ∀ a, (k1_off1 i) a + S800x16.size a ≤ S10400x16.size a
  k1_off1_packedbf16 : ∀ i : grid1.Coords, ∀ (k1_h1 : k1_cond1 i = 1#1), (Rect.unit (s := S10400x16) (k1_off1 i) S800x16.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S800x10000.size a < S10000x10000.size a
  hwx1_0 : ∀ i : grid1.Coords, EltTy.bits .bf16 = 32 ∨ (Rect.unit (s := S10000x10000) (fun a => cc1_transform_0 i a * S800x10000.size a) (fun a => (Pipeline.Clip.of (cc1_transform_0 i a) (S800x10000.size a) (S10000x10000.size a)).extent (S800x10000.size a)) fun a => Pipeline.Clip.inb (Pipeline.Clip.ok_of (hstart1_0 i a))).WholeWords (EltTy.packing .bf16)
  hwxs1_0 : ∀ i : grid1.Coords, EltTy.bits .bf16 = 32 ∨ (Rect.unit (s := S800x10000) (fun _ => 0) (fun a => (Pipeline.Clip.of (cc1_transform_0 i a) (S800x10000.size a) (S10000x10000.size a)).extent (S800x10000.size a)) fun a => (Nat.zero_add _).trans_le (Pipeline.Clip.extent_le (Pipeline.Clip.ok_of (hstart1_0 i a)))).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S64x16.size a
  hwx1_4 : ∀ i : grid1.Coords, EltTy.bits .bf16 = 32 ∨ (Rect.block (s := S64x16) S64x16.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S800x64.size a < S10000x64.size a
  hwx1_5 : ∀ i : grid1.Coords, EltTy.bits .f32 = 32 ∨ (Rect.unit (s := S10000x64) (fun a => cc1_transform_5 i a * S800x64.size a) (fun a => (Pipeline.Clip.of (cc1_transform_5 i a) (S800x64.size a) (S10000x64.size a)).extent (S800x64.size a)) fun a => Pipeline.Clip.inb (Pipeline.Clip.ok_of (hstart1_5 i a))).WholeWords (EltTy.packing .f32)
  hwxs1_5 : ∀ i : grid1.Coords, EltTy.bits .f32 = 32 ∨ (Rect.unit (s := S800x64) (fun _ => 0) (fun a => (Pipeline.Clip.of (cc1_transform_5 i a) (S800x64.size a) (S10000x64.size a)).extent (S800x64.size a)) fun a => (Nat.zero_add _).trans_le (Pipeline.Clip.extent_le (Pipeline.Clip.ok_of (hstart1_5 i a)))).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S800x16.size a < S10000x16.size a
  hwx1_6 : ∀ i : grid1.Coords, EltTy.bits .f32 = 32 ∨ (Rect.unit (s := S10000x16) (fun a => cc1_transform_6 i a * S800x16.size a) (fun a => (Pipeline.Clip.of (cc1_transform_6 i a) (S800x16.size a) (S10000x16.size a)).extent (S800x16.size a)) fun a => Pipeline.Clip.inb (Pipeline.Clip.ok_of (hstart1_6 i a))).WholeWords (EltTy.packing .f32)
  hwxs1_6 : ∀ i : grid1.Coords, EltTy.bits .f32 = 32 ∨ (Rect.unit (s := S800x16) (fun _ => 0) (fun a => (Pipeline.Clip.of (cc1_transform_6 i a) (S800x16.size a) (S10000x16.size a)).extent (S800x16.size a)) fun a => (Nat.zero_add _).trans_le (Pipeline.Clip.extent_le (Pipeline.Clip.ok_of (hstart1_6 i a)))).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S800x16.size a < S10000x16.size a
  hwx1_7 : ∀ i : grid1.Coords, EltTy.bits .f32 = 32 ∨ (Rect.unit (s := S10000x16) (fun a => cc1_transform_7 i a * S800x16.size a) (fun a => (Pipeline.Clip.of (cc1_transform_7 i a) (S800x16.size a) (S10000x16.size a)).extent (S800x16.size a)) fun a => Pipeline.Clip.inb (Pipeline.Clip.ok_of (hstart1_7 i a))).WholeWords (EltTy.packing .f32)
  hwxs1_7 : ∀ i : grid1.Coords, EltTy.bits .f32 = 32 ∨ (Rect.unit (s := S800x16) (fun _ => 0) (fun a => (Pipeline.Clip.of (cc1_transform_7 i a) (S800x16.size a) (S10000x16.size a)).extent (S800x16.size a)) fun a => (Nat.zero_add _).trans_le (Pipeline.Clip.extent_le (Pipeline.Clip.ok_of (hstart1_7 i a)))).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S800x10000_S10000x64_S800x64_1_0_0_1_n_n : DotDims S800x10000 S10000x64 S800x64 where
  lhsContracting := [1]
  rhsContracting := [0]
  lhsNonContracting := [0]
  rhsNonContracting := [1]
  lhsBatch := []
  rhsBatch := []
  wf := dot_S800x10000_S10000x64_S800x64_1_0_0_1_n_n_wf
def dot_S800x64_S64x16_S800x16_1_0_0_1_n_n : DotDims S800x64 S64x16 S800x16 where
  lhsContracting := [1]
  rhsContracting := [0]
  lhsNonContracting := [0]
  rhsNonContracting := [1]
  lhsBatch := []
  rhsBatch := []
  wf := dot_S800x64_S64x16_S800x16_1_0_0_1_n_n_wf
def dot_S800x10000_S10000x16_S800x16_1_0_0_1_n_n : DotDims S800x10000 S10000x16 S800x16 where
  lhsContracting := [1]
  rhsContracting := [0]
  lhsNonContracting := [0]
  rhsNonContracting := [1]
  lhsBatch := []
  rhsBatch := []
  wf := dot_S800x10000_S10000x16_S800x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S400x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S400x10000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpecClip (Memref.whole main_v2_1) S800x10000.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v2_2) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S64x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpecClip (Memref.whole main_v6_0) S800x64.size cc1_transform_5 reads1_5 true false 2 stage1_5 sem1_5
    hrank1 hreads1_5 hstart1_5 nbuf1_5 (Memref.isWhole_whole _) hwx1_5 hwxs1_5 hstage1_5

abbrev win1_6 : Pipeline.Window sig grid1 :=
  Pipeline.Window.ofSpecClip (Memref.whole main_v6_1) S800x16.size cc1_transform_6 reads1_6 true false 2 stage1_6 sem1_6
    hrank1 hreads1_6 hstart1_6 nbuf1_6 (Memref.isWhole_whole _) hwx1_6 hwxs1_6 hstage1_6

abbrev win1_7 : Pipeline.Window sig grid1 :=
  Pipeline.Window.ofSpecClip (Memref.whole main_v6_2) S800x16.size cc1_transform_7 reads1_7 true false 2 stage1_7 sem1_7
    hrank1 hreads1_7 hstart1_7 nbuf1_7 (Memref.isWhole_whole _) hwx1_7 hwxs1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun i => !(k1_cond1 i == 1#1) | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x16, .f32⟩
  | .hbm, ⟨43, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.LayerOne.Shared.lean ====
/-
  The first pallas_call: one row block of the adjacency per grid point (25 blocks of 400 rows). At the first block
  the body also forms the projection x·W1 and keeps it in a scratch buffer, which every later block reads.
  This module names what the two cases of the body are stated over: the branch condition as a function of the
  grid coordinates, decided over the grid; the staging memrefs the pipeline passes at a point; the scratch memref.
-/
import proofs.«182206_g44306882625589_cont_8to1_c_1074_19_alg».proof.Proof.Gen.KernelIdeal.Launch
import proofs.«182206_g44306882625589_cont_8to1_c_1074_19_alg».proof.Proof.Gen.KernelIdeal.Skeleton
import proofs.«182206_g44306882625589_cont_8to1_c_1074_19_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's one branch: "this is row block 0", as the printed scalar chain over the grid coordinate. -/
abbrev atFirst (i : grid0.Coords) : Prop :=
  (Scalar.cmpi .ne (Scalar.extui (Scalar.cmpi .eq (BitVec.ofNat 32 (i 0).val) 0#32)) 0#32) = 1#1

/-- It holds at point 0 and at no other of the 25 points. -/
theorem atFirst_iff : ∀ t : Fin cfg0.N, atFirst (grid0.coords t) ↔ t.val = 0 :=
  (by decide +kernel : ∀ t : Fin grid0.N, atFirst (grid0.coords t) ↔ t.val = 0)

/-- The scratch buffer that carries x·W1 from the first block to the later ones. -/
abbrev projM : Memref sig .tc .vmem S10000x64 .bf16 := Memref.whole cc0_scratch0

end Cert.KernelIdeal.LayerOne

end
-- ==== Proof.LayerOne.RunFirst.lean ====
/-
  The body at row block 0, run once on symbolic staging memrefs: it forms x·W1 and stores it whole into the scratch,
  converts the adjacency block and stores it, then stores the layer's rows and the next layer's projection of them.
  The run's witness is, per written buffer, the list of pieces its stores left.
-/
import proofs.«182206_g44306882625589_cont_8to1_c_1074_19_alg».proof.Proof.LayerOne.Shared

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first row block (the branch taken), from the five input buffers at their contents and the three output
    buffers and the scratch at anything: the body runs to its return with the inputs as they were and each written
    buffer at its pieces. -/
noncomputable def runFirst (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i)
    (x0 : Vec F S10000x128 .f32) (x1 : Vec F S128x64 .f32) (x2 : Vec F S400x10000 .f32) (x3 : Vec F S1x64 .f32) (x4 : Vec F S64x64 .bf16) :
    Σ' (L6 : List (View.Piece (Elt F) S400x64 .f32)) (L7 : List (View.Piece (Elt F) S400x10000 .bf16)) (L8 : List (View.Piece (Elt F) S400x64 .bf16)), { L9 : List (View.Piece (Elt F) S10000x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0__a_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__a_body_eq_skeleton]; unfold cc0__a_body_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [H8]; · iexists _; iexact H8
    iexists _; iexact H9

end Cert.KernelIdeal.LayerOne

end
-- ==== Proof.LayerOne.RunLater.lean ====
/-
  The body at a row block after the first, run once on symbolic staging memrefs: the projection x·W1 is read from the
  scratch, where the first block left it, and the scratch is not written.
-/
import proofs.«182206_g44306882625589_cont_8to1_c_1074_19_alg».proof.Proof.LayerOne.Shared

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later row block (the branch not taken), from the five input buffers and the scratch at their contents and the
    three output buffers at anything: the body runs to its return with the inputs and the scratch as they were and each
    output buffer at its pieces. -/
noncomputable def runLater (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬atFirst i)
    (x0 : Vec F S10000x128 .f32) (x1 : Vec F S128x64 .f32) (x2 : Vec F S400x10000 .f32) (x3 : Vec F S1x64 .f32) (x4 : Vec F S64x64 .bf16) (xs : Vec F S10000x64 .bf16) :
    Σ' (L6 : List (View.Piece (Elt F) S400x64 .f32)) (L7 : List (View.Piece (Elt F) S400x10000 .bf16)), { L8 : List (View.Piece (Elt F) S400x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare xs
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare xs
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0__a_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__a_body_eq_skeleton]; unfold cc0__a_body_skel
    unfold owns
    iintro ⟨⟨%f0, %hf0, H0⟩, ⟨%f1, %hf1, H1⟩, ⟨%f2, %hf2, H2⟩, ⟨%f3, %hf3, H3⟩, ⟨%f4, %hf4, H4⟩, ⟨%f9, %hf9, H9⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg9.eq_unread hf9
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H9]
    · iexists _; isplitr; · ipureintro; exact harg9.read_unread _
      iexact H9
    isplitl [H6]; · iexists _; iexact H6
    isplitl [H7]; · iexists _; iexact H7
    iexists _; iexact H8

end Cert.KernelIdeal.LayerOne

end
-- ==== Proof.LayerOne.Data.lean ====
/-
  The first pallas_call's proof data, at the contents `V` of the TensorCore's buffers when the region is entered.
  Every input window's staging buffer holds its block of the array at every point (the adjacency's row block moves with
  the point; the other four are whole arrays fetched once). The scratch holds x·W1 from the first point on: one fixed
  array, since only the first point stores it. Each output window's staging buffer holds, after the body at a point,
  that point's case run at the point's blocks (and, after the first point, at that fixed projection).
-/
import proofs.«182206_g44306882625589_cont_8to1_c_1074_19_alg».proof.Proof.LayerOne.RunFirst
import proofs.«182206_g44306882625589_cont_8to1_c_1074_19_alg».proof.Proof.LayerOne.RunLater

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point. -/
abbrev t₀ : Fin cfg0.N := ⟨0, by decide⟩

theorem atFirst_t₀ : atFirst (grid0.coords t₀) := (atFirst_iff t₀).mpr rfl

/-- One staging buffer per output window, and the scratch, as views through which contents are stated (which buffer is
    chosen does not matter for pieces that cover the shape). -/
abbrev VO5 : View sig .tc .vmem S400x64 .f32 := (Memref.whole cc0_stg5_0 : Memref sig .tc .vmem S400x64 .f32).view
abbrev VO6 : View sig .tc .vmem S400x10000 .bf16 := (Memref.whole cc0_stg6_0 : Memref sig .tc .vmem S400x10000 .bf16).view
abbrev VO7 : View sig .tc .vmem S400x64 .bf16 := (Memref.whole cc0_stg7_0 : Memref sig .tc .vmem S400x64 .bf16).view
abbrev VS : View sig .tc .vmem S10000x64 .bf16 := (projM : Memref sig .tc .vmem S10000x64 .bf16).view

/-- The first point's run at its staging memrefs and blocks. -/
abbrev firstRun (c : Dev nD) :=
  runFirst (F := F) c (grid0.coords t₀) (win0_0.stage (cfg0.slots t₀ 0)) (hstage0_0 ((cfg0.slots t₀ 0).cast nbuf0_0)) (win0_1.stage (cfg0.slots t₀ 1)) (hstage0_1 ((cfg0.slots t₀ 1).cast nbuf0_1)) (win0_2.stage (cfg0.slots t₀ 2)) (hstage0_2 ((cfg0.slots t₀ 2).cast nbuf0_2)) (win0_3.stage (cfg0.slots t₀ 3)) (hstage0_3 ((cfg0.slots t₀ 3).cast nbuf0_3)) (win0_4.stage (cfg0.slots t₀ 4)) (hstage0_4 ((cfg0.slots t₀ 4).cast nbuf0_4)) (win0_5.stage (cfg0.slots t₀ 5)) (hstage0_5 ((cfg0.slots t₀ 5).cast nbuf0_5)) (win0_6.stage (cfg0.slots t₀ 6)) (hstage0_6 ((cfg0.slots t₀ 6).cast nbuf0_6)) (win0_7.stage (cfg0.slots t₀ 7)) (hstage0_7 ((cfg0.slots t₀ 7).cast nbuf0_7)) projM (Memref.isWhole_whole _) atFirst_t₀ (iblk V c 0 t₀) (iblk V c 1 t₀) (iblk V c 2 t₀) (iblk V c 3 t₀) (iblk V c 4 t₀)

/-- What the scratch carries after the first point: the first run's scratch pieces read back. -/
def proj (c : Dev nD) : Vec F S10000x64 .bf16 := VS.read (Elt F) (VS.writes (Elt F) VS.junk (firstRun V c).2.2.2.1)

/-- A later point's run at its staging memrefs and blocks, over the carried projection. -/
abbrev laterRun (c : Dev nD) (t : Fin cfg0.N) (h : ¬t.val = 0) :=
  runLater (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) projM (Memref.isWhole_whole _) (fun hc => h ((atFirst_iff t).mp hc)) (iblk V c 0 t) (iblk V c 1 t) (iblk V c 2 t) (iblk V c 3 t) (iblk V c 4 t) (proj V c)

/-- The first run at a point known to be the first (the same run, the point named `t`). -/
abbrev firstRunAt (c : Dev nD) (t : Fin cfg0.N) (h : t.val = 0) :=
  runFirst (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) projM (Memref.isWhole_whole _) ((atFirst_iff t).mpr h) (iblk V c 0 t) (iblk V c 1 t) (iblk V c 2 t) (iblk V c 3 t) (iblk V c 4 t)

/-- What the body leaves in the first layer's output buffer (its 400 rows of adj·(x·W1) + b1) at point `t`. -/
def rowsOut (c : Dev nD) (t : Fin cfg0.N) : Vec F S400x64 .f32 :=
  if h : t.val = 0 then VO5.read (Elt F) (VO5.writes (Elt F) VO5.junk (firstRunAt V c t h).1)
  else VO5.read (Elt F) (VO5.writes (Elt F) VO5.junk (laterRun V c t h).1)
/-- What it leaves in the converted adjacency's output buffer. -/
def adjOut (c : Dev nD) (t : Fin cfg0.N) : Vec F S400x10000 .bf16 :=
  if h : t.val = 0 then VO6.read (Elt F) (VO6.writes (Elt F) VO6.junk (firstRunAt V c t h).2.1)
  else VO6.read (Elt F) (VO6.writes (Elt F) VO6.junk (laterRun V c t h).2.1)
/-- What it leaves in the next layer's projection's output buffer. -/
def nextOut (c : Dev nD) (t : Fin cfg0.N) : Vec F S400x64 .bf16 :=
  if h : t.val = 0 then VO7.read (Elt F) (VO7.writes (Elt F) VO7.junk (firstRunAt V c t h).2.2.1)
  else VO7.read (Elt F) (VO7.writes (Elt F) VO7.junk (laterRun V c t h).2.2.1)

/-- The scoped buffers of the other pallas_call, each at anything: they ride through this region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The class's invariant (every scoped buffer that is no staging buffer here at anything, the generator register at some
    state) with the scratch named. -/
theorem PhiA_eq (c : Dev nD) :
    (Pipeline.ΦA spec0 c : sProp 𝕄)
      = iprop(((∃ d, owns (c : Thread nD τ) projM fullShare d) ∗ otherScoped (F := F) c) ∗ (∃ r, prngReg c r)) := by
  unfold Pipeline.ΦA otherScoped; rw [scopedRest0_eq]; simp only [projM, owns_whole]; rfl

/-- The region's invariant before position `n`: before the first point the class's; afterwards the same with the scratch at
    the carried projection. -/
def PhiS (c : Dev nD) : ℕ → sProp 𝕄
  | 0 => Pipeline.ΦA spec0 c
  | _ + 1 => iprop((owns (c : Thread nD τ) projM fullShare (proj V c) ∗ otherScoped (F := F) c) ∗ (∃ r, prngReg c r))

theorem PhiS_pos (c : Dev nD) (n : ℕ) (hn : n ≠ 0) :
    PhiS V c n = iprop((owns (c : Thread nD τ) projM fullShare (proj V c) ∗ otherScoped (F := F) c) ∗ (∃ r, prngReg c r)) := by
  cases n with
  | zero => exact absurd rfl hn
  | succ n => rfl

/-- The proof data of the first pallas_call on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => rowsOut V c t
    | ⟨6, _⟩ => adjOut V c t
    | ⟨7, _⟩ => nextOut V c t
  Φ t := PhiS V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = rowsOut V c t := by dsimp only [dat]
theorem after_6 (c : Dev nD) (t : Fin cfg0.N) : (dat V c).after 6 t = adjOut V c t := by dsimp only [dat]
theorem after_7 (c : Dev nD) (t : Fin cfg0.N) : (dat V c).after 7 t = nextOut V c t := by dsimp only [dat]

/-- Input window 0's current staging buffer holds its block at every point, fetched there or not: the body leaves it in
    place, and where the pipeline does not fetch the block index has not moved. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's current staging buffer holds its block at every point, fetched there or not: the body leaves it in
    place, and where the pipeline does not fetch the block index has not moved. -/
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's current staging buffer holds its block at every point, fetched there or not: the body leaves it in
    place, and where the pipeline does not fetch the block index has not moved. -/
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's current staging buffer holds its block at every point, fetched there or not: the body leaves it in
    place, and where the pipeline does not fetch the block index has not moved. -/
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's current staging buffer holds its block at every point, fetched there or not: the body leaves it in
    place, and where the pipeline does not fetch the block index has not moved. -/
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

end Cert.KernelIdeal.LayerOne

end
-- ==== Proof.LayerOne.Body.lean ====
/-
  The first pallas_call's body obligation: at every point the body, called on the point's staging buffers with the
  invariant and the core's dues, runs to the next point's invariant with every staging buffer at what the proof data
  names. The point is either the first (the projection is formed and the scratch takes it) or a later one (the scratch
  is read at the projection the first point left); each case is that case's run, its pieces covering what they fill.
-/
import proofs.«182206_g44306882625589_cont_8to1_c_1074_19_alg».proof.Proof.LayerOne.Data

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they fill -/

theorem coverFirst_5 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i) (x0 : Vec F S10000x128 .f32) (x1 : Vec F S128x64 .f32) (x2 : Vec F S400x10000 .f32) (x3 : Vec F S1x64 .f32) (x4 : Vec F S64x64 .bf16) (y : S400x64.Idx) :
    ∃ pc ∈ (runFirst (F := F) c i arg1 harg1 arg2 harg2 arg3 harg3 arg4 harg4 arg5 harg5 arg6 harg6 arg7 harg7 arg8 harg8 arg9 harg9 hc x0 x1 x2 x3 x4).1, y ∈ pc.1.set :=
  View.cover_of_tiledL (runFirst (F := F) c i arg1 harg1 arg2 harg2 arg3 harg3 arg4 harg4 arg5 harg5 arg6 harg6 arg7 harg7 arg8 harg8 arg9 harg9 hc x0 x1 x2 x3 x4).1 S400x64.size (by sl_kernel_rfl) y
theorem coverFirst_6 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i) (x0 : Vec F S10000x128 .f32) (x1 : Vec F S128x64 .f32) (x2 : Vec F S400x10000 .f32) (x3 : Vec F S1x64 .f32) (x4 : Vec F S64x64 .bf16) (y : S400x10000.Idx) :
    ∃ pc ∈ (runFirst (F := F) c i arg1 harg1 arg2 harg2 arg3 harg3 arg4 harg4 arg5 harg5 arg6 harg6 arg7 harg7 arg8 harg8 arg9 harg9 hc x0 x1 x2 x3 x4).2.1, y ∈ pc.1.set :=
  View.cover_of_tiledL (runFirst (F := F) c i arg1 harg1 arg2 harg2 arg3 harg3 arg4 harg4 arg5 harg5 arg6 harg6 arg7 harg7 arg8 harg8 arg9 harg9 hc x0 x1 x2 x3 x4).2.1 S400x10000.size (by sl_kernel_rfl) y
theorem coverFirst_7 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i) (x0 : Vec F S10000x128 .f32) (x1 : Vec F S128x64 .f32) (x2 : Vec F S400x10000 .f32) (x3 : Vec F S1x64 .f32) (x4 : Vec F S64x64 .bf16) (y : S400x64.Idx) :
    ∃ pc ∈ (runFirst (F := F) c i arg1 harg1 arg2 harg2 arg3 harg3 arg4 harg4 arg5 harg5 arg6 harg6 arg7 harg7 arg8 harg8 arg9 harg9 hc x0 x1 x2 x3 x4).2.2.1, y ∈ pc.1.set :=
  View.cover_of_tiledL (runFirst (F := F) c i arg1 harg1 arg2 harg2 arg3 harg3 arg4 harg4 arg5 harg5 arg6 harg6 arg7 harg7 arg8 harg8 arg9 harg9 hc x0 x1 x2 x3 x4).2.2.1 S400x64.size (by sl_kernel_rfl) y
theorem coverFirst_S (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i) (x0 : Vec F S10000x128 .f32) (x1 : Vec F S128x64 .f32) (x2 : Vec F S400x10000 .f32) (x3 : Vec F S1x64 .f32) (x4 : Vec F S64x64 .bf16) (y : S10000x64.Idx) :
    ∃ pc ∈ (runFirst (F := F) c i arg1 harg1 arg2 harg2 arg3 harg3 arg4 harg4 arg5 harg5 arg6 harg6 arg7 harg7 arg8 harg8 arg9 harg9 hc x0 x1 x2 x3 x4).2.2.2.1, y ∈ pc.1.set :=
  View.cover_of_tiledL (runFirst (F := F) c i arg1 harg1 arg2 harg2 arg3 harg3 arg4 harg4 arg5 harg5 arg6 harg6 arg7 harg7 arg8 harg8 arg9 harg9 hc x0 x1 x2 x3 x4).2.2.2.1 S10000x64.size (by sl_kernel_rfl) y

theorem coverLater_5 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬atFirst i) (x0 : Vec F S10000x128 .f32) (x1 : Vec F S128x64 .f32) (x2 : Vec F S400x10000 .f32) (x3 : Vec F S1x64 .f32) (x4 : Vec F S64x64 .bf16) (xs : Vec F S10000x64 .bf16) (y : S400x64.Idx) :
    ∃ pc ∈ (runLater (F := F) c i arg1 harg1 arg2 harg2 arg3 harg3 arg4 harg4 arg5 harg5 arg6 harg6 arg7 harg7 arg8 harg8 arg9 harg9 hc x0 x1 x2 x3 x4 xs).1, y ∈ pc.1.set :=
  View.cover_of_tiledL (runLater (F := F) c i arg1 harg1 arg2 harg2 arg3 harg3 arg4 harg4 arg5 harg5 arg6 harg6 arg7 harg7 arg8 harg8 arg9 harg9 hc x0 x1 x2 x3 x4 xs).1 S400x64.size (by sl_kernel_rfl) y
theorem coverLater_6 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬atFirst i) (x0 : Vec F S10000x128 .f32) (x1 : Vec F S128x64 .f32) (x2 : Vec F S400x10000 .f32) (x3 : Vec F S1x64 .f32) (x4 : Vec F S64x64 .bf16) (xs : Vec F S10000x64 .bf16) (y : S400x10000.Idx) :
    ∃ pc ∈ (runLater (F := F) c i arg1 harg1 arg2 harg2 arg3 harg3 arg4 harg4 arg5 harg5 arg6 harg6 arg7 harg7 arg8 harg8 arg9 harg9 hc x0 x1 x2 x3 x4 xs).2.1, y ∈ pc.1.set :=
  View.cover_of_tiledL (runLater (F := F) c i arg1 harg1 arg2 harg2 arg3 harg3 arg4 harg4 arg5 harg5 arg6 harg6 arg7 harg7 arg8 harg8 arg9 harg9 hc x0 x1 x2 x3 x4 xs).2.1 S400x10000.size (by sl_kernel_rfl) y
theorem coverLater_7 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬atFirst i) (x0 : Vec F S10000x128 .f32) (x1 : Vec F S128x64 .f32) (x2 : Vec F S400x10000 .f32) (x3 : Vec F S1x64 .f32) (x4 : Vec F S64x64 .bf16) (xs : Vec F S10000x64 .bf16) (y : S400x64.Idx) :
    ∃ pc ∈ (runLater (F := F) c i arg1 harg1 arg2 harg2 arg3 harg3 arg4 harg4 arg5 harg5 arg6 harg6 arg7 harg7 arg8 harg8 arg9 harg9 hc x0 x1 x2 x3 x4 xs).2.2.1, y ∈ pc.1.set :=
  View.cover_of_tiledL (runLater (F := F) c i arg1 harg1 arg2 harg2 arg3 harg3 arg4 harg4 arg5 harg5 arg6 harg6 arg7 harg7 arg8 harg8 arg9 harg9 hc x0 x1 x2 x3 x4 xs).2.2.1 S400x64.size (by sl_kernel_rfl) y

variable (V : (c : Dev nD) → (b : Ref sig .tc) → Buf (Elt F) ((c : Thread nD τ).loc b))

/-! ## The obligation at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

theorem Phi_castSucc (c : Dev nD) (t : Fin cfg0.N) : (dat V c).Φ t.castSucc = PhiS V c t.val := by
  dsimp only [dat]; simp only [Fin.coe_castSucc]

theorem Phi_succ (c : Dev nD) (t : Fin cfg0.N) :
    (dat V c).Φ t.succ = iprop((owns (c : Thread nD τ) projM fullShare (proj V c) ∗ otherScoped (F := F) c) ∗ (∃ r, prngReg c r)) := by
  dsimp only [dat]; exact PhiS_pos V c _ (by simp)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [after_0, after_1, after_2, after_3, after_4, after_5, after_6, after_7]
  rw [Phi_castSucc, Phi_succ]
  by_cases h : t.val = 0
  · -- the first point: the scratch is at anything, and takes the projection
    unfold rowsOut adjOut nextOut
    rw [dif_pos h, dif_pos h, dif_pos h]
    obtain rfl : t = t₀ := Fin.ext h
    rw [show PhiS V c (t₀ : Fin cfg0.N).val = Pipeline.ΦA spec0 c from rfl, PhiA_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstRunAt V c t₀ h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, ⟨%e5, H5⟩, ⟨%e6, H6⟩, ⟨%e7, H7⟩, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst_S c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverFirst_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (coverFirst_6 c _ _ _ _ _ _ _ _ _ _ _ _ _ _ _ _ _ _ _ _ _ _ _ _ _)
    unfold owns; iexists _; isplitr
    swap; · iexact H7
    ipureintro; exact View.read_writes_of_cover _ _ _ _ _ (coverFirst_7 c _ _ _ _ _ _ _ _ _ _ _ _ _ _ _ _ _ _ _ _ _ _ _ _ _)
  · -- a later point: the scratch is at the carried projection, and stays there
    unfold rowsOut adjOut nextOut
    rw [dif_neg h, dif_neg h, dif_neg h]
    rw [PhiS_pos V c _ h]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterRun V c t h).2.2.2 Set.univ _)
    isplitl [H0]; · iexact H0
    isplitl [H1]; · iexact H1
    isplitl [H2]; · iexact H2
    isplitl [H3]; · iexact H3
    isplitl [H4]; · iexact H4
    isplitl [HS]; · iexact HS
    isplitl [H5]; · iexists _; iexact H5
    isplitl [H6]; · iexists _; iexact H6
    isplitl [H7]; · iexists _; iexact H7
    iintro ⟨H0, H1, H2, H3, H4, HS, ⟨%e5, H5⟩, ⟨%e6, H6⟩, ⟨%e7, H7⟩⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverLater_5 c _ _ _ _ _ _ _ _ _ _ _ _ _ _ _ _ _ _ _ _ _ _ _ _ _ _)
    isplitl [H6]
    · unfold owns; iexists _; isplitr
      swap; · iexact H6
      ipureintro; exact View.read_writes_of_cover _ _ _ _ _ (coverLater_6 c _ _ _ _ _ _ _ _ _ _ _ _ _ _ _ _ _ _ _ _ _ _ _ _ _ _)
    unfold owns; iexists _; isplitr
    swap; · iexact H7
    ipureintro; exact View.read_writes_of_cover _ _ _ _ _ (coverLater_7 c _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Pipeline.ΦA spec0 c from rfl]

/-- After the last point the invariant gives the class's back: what the scratch holds is forgotten. -/
theorem hout (c : Dev nD) : (dat V c).Φ (Fin.last cfg0.N) ⊢ Pipeline.ΦA spec0 c := by
  rw [show (dat V c).Φ (Fin.last cfg0.N) = PhiS V c (Fin.last cfg0.N).val from rfl,
    PhiS_pos V c _ (by rw [Fin.val_last]; have : cfg0.N = 25 := N_0; omega), PhiA_eq]
  iintro ⟨⟨HS, Hrest⟩, Hg⟩
  isplitl [HS Hrest]
  · isplitl [HS]; · iexists _; iexact HS
    iexact Hrest
  iexact Hg

end Cert.KernelIdeal.LayerOne

end
-- ==== Proof.LayerTwoThree.Shared.lean ====
/-
  The second pallas_call: a grid of two phases by 13 row blocks of 800 rows (the last block overhangs the 10000 rows by
  400). In phase 0 a point forms its rows of the second layer and stores the third layer's projection of them as one
  800-row slice of a scratch buffer; in phase 1 a point reads the first 10000 rows of that scratch, forms its rows of the
  third layer and their log-softmax. This module names what the two cases of the body are stated over.
-/
import proofs.«182206_g44306882625589_cont_8to1_c_1074_19_alg».proof.Proof.Gen.KernelIdeal.Launch
import proofs.«182206_g44306882625589_cont_8to1_c_1074_19_alg».proof.Proof.Gen.KernelIdeal.Skeleton
import proofs.«182206_g44306882625589_cont_8to1_c_1074_19_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.LayerTwoThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- "Phase 0" as the body computes it from the grid coordinates. -/
abbrev inPhase0 (i : grid1.Coords) : Prop := k1_cond1 i = 1#1
/-- "Phase 1" likewise. -/
abbrev inPhase1 (i : grid1.Coords) : Prop := k1_cond2 i = 1#1

/-- Of the 26 points in row-major order, the first 13 are phase 0 -/
theorem inPhase0_iff : ∀ t : Fin cfg1.N, inPhase0 (grid1.coords t) ↔ t.val < 13 :=
  (by decide +kernel : ∀ t : Fin grid1.N, inPhase0 (grid1.coords t) ↔ t.val < 13)
/-- and the last 13 are phase 1. -/
theorem inPhase1_iff : ∀ t : Fin cfg1.N, inPhase1 (grid1.coords t) ↔ 13 ≤ t.val :=
  (by decide +kernel : ∀ t : Fin grid1.N, inPhase1 (grid1.coords t) ↔ 13 ≤ t.val)

/-- The scratch buffer that carries the third layer's projection from phase 0 to phase 1. -/
abbrev projM : Memref sig .tc .vmem S10400x16 .bf16 := Memref.whole cc1_scratch0

end Cert.KernelIdeal.LayerTwoThree

end
-- ==== Proof.LayerTwoThree.RunSecond.lean ====
/-
  The body at a point of phase 0, run once on symbolic staging memrefs: the rows of the second layer are stored whole into
  their output buffer, and the third layer's projection of them is stored into the scratch as the 800-row slice at the
  point's row offset, over what the scratch held.
-/
import proofs.«182206_g44306882625589_cont_8to1_c_1074_19_alg».proof.Proof.LayerTwoThree.Shared

set_option maxRecDepth 16384

noncomputable section

namespace Cert.KernelIdeal.LayerTwoThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- In phase 0, from the four input buffers it reads at their contents, the second layer's output buffer at anything and the
    scratch at contents `xs`: the body runs to its return with the inputs as they were, the output buffer at its pieces,
    and the scratch at its pieces over `xs`. (The buffers of the third layer are not touched and ride outside.) -/
noncomputable def runSecond (c : Dev nD) (i : grid1.Coords) (arg2 : Memref sig .tc .vmem S800x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S800x64 .f32) (harg7 : arg7.IsWhole) (arg8 : Memref sig .tc .vmem S800x16 .f32) (harg8 : arg8.IsWhole) (arg9 : Memref sig .tc .vmem S800x16 .f32) (harg9 : arg9.IsWhole) (arg10 : Memref sig .tc .vmem S10400x16 .bf16) (harg10 : arg10.IsWhole) (hc1 : inPhase0 i) (hc2 : ¬inPhase1 i)
    (x0 : Vec F S800x10000 .bf16) (x1 : Vec F S10000x64 .bf16) (x2 : Vec F S1x64 .f32) (x4 : Vec F S64x16 .bf16) (xs : Vec F S10400x16 .bf16) :
    Σ' (L7 : List (View.Piece (Elt F) S800x64 .f32)), { L10 : List (View.Piece (Elt F) S10400x16 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x4
            ∗ (∃ d, owns (c : Thread nD τ) arg7 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg6 fullShare x4
                ∗ (∃ f, arg7.view.loc (c : Thread nD τ) ↦[arg7.view.set]{fullShare} arg7.view.writes (Elt F) f L7) ∗ (arg10.view.loc (c : Thread nD τ) ↦[arg10.view.set]{fullShare} arg10.view.writes (Elt F) (harg10.unread xs) L10)) -∗ K ⟨⟩))
          ⊢ wp frame (wpE (defs₀ (F := F)) Variants.none c none) E (cc1__b_body i arg2 harg2 arg3 harg3 arg4 harg4 arg5 harg5 arg6 harg6 arg7 harg7 arg8 harg8 arg9 harg9 arg10 harg10) K } := by
  refine ⟨?_, ?_, fun E K => ?run⟩
  case run =>
    simp only [cc1__b_body_eq_skeleton]; unfold cc1__b_body_skel
    unfold owns
    iintro ⟨⟨%f0, %hf0, H0⟩, ⟨%f1, %hf1, H1⟩, ⟨%f2, %hf2, H2⟩, ⟨%f4, %hf4, H4⟩, ⟨%d7, %f7, -, H7⟩, ⟨%f10, %hf10, H10⟩, Hk⟩
    obtain rfl := harg2.eq_unread hf0; obtain rfl := harg3.eq_unread hf1; obtain rfl := harg4.eq_unread hf2
    obtain rfl := harg6.eq_unread hf4; obtain rfl := harg10.eq_unread hf10
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]
    · iexists _; isplitr; · ipureintro; exact harg6.read_unread _
      iexact H4
    isplitl [H7]; · iexists _; iexact H7
    iexact H10

end Cert.KernelIdeal.LayerTwoThree

end
-- ==== Proof.LayerTwoThree.RunThird.lean ====
/-
  The body at a point of phase 1, run once on symbolic staging memrefs: the first 10000 rows of the scratch are read, the
  rows of the third layer are stored whole into their output buffer and their log-softmax into its own.
-/
import proofs.«182206_g44306882625589_cont_8to1_c_1074_19_alg».proof.Proof.LayerTwoThree.Shared

set_option maxRecDepth 16384

noncomputable section

namespace Cert.KernelIdeal.LayerTwoThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- In phase 1, from the adjacency block, the bias row and the scratch at their contents and the two output buffers at
    anything: the body runs to its return with those three as they were and each output buffer at its pieces. (The
    buffers of the second layer are not touched and ride outside.) -/
noncomputable def runThird (c : Dev nD) (i : grid1.Coords) (arg2 : Memref sig .tc .vmem S800x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S800x64 .f32) (harg7 : arg7.IsWhole) (arg8 : Memref sig .tc .vmem S800x16 .f32) (harg8 : arg8.IsWhole) (arg9 : Memref sig .tc .vmem S800x16 .f32) (harg9 : arg9.IsWhole) (arg10 : Memref sig .tc .vmem S10400x16 .bf16) (harg10 : arg10.IsWhole) (hc1 : ¬inPhase0 i) (hc2 : inPhase1 i)
    (x0 : Vec F S800x10000 .bf16) (x3 : Vec F S1x16 .f32) (xs : Vec F S10400x16 .bf16) :
    Σ' (L8 : List (View.Piece (Elt F) S800x16 .f32)), { L9 : List (View.Piece (Elt F) S800x16 .f32) //
      ∀ (E : Set ℕ) (K : PUnit → sProp 𝕄),
        iprop(owns (c : Thread nD τ) arg2 fullShare x0 ∗ owns (c : Thread nD τ) arg5 fullShare x3 ∗ owns (c : Thread nD τ) arg10 fullShare xs
            ∗ (∃ d, owns (c : Thread nD τ) arg8 fullShare d) ∗ (∃ d, owns (c : Thread nD τ) arg9 fullShare d)
            ∗ (iprop(owns (c : Thread nD τ) arg2 fullShare x0 ∗ owns (c : Thread nD τ) arg5 fullShare x3 ∗ owns (c : Thread nD τ) arg10 fullShare xs
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc1__b_body i arg2 harg2 arg3 harg3 arg4 harg4 arg5 harg5 arg6 harg6 arg7 harg7 arg8 harg8 arg9 harg9 arg10 harg10) K } := by
  refine ⟨?_, ?_, fun E K => ?run⟩
  case run =>
    simp only [cc1__b_body_eq_skeleton]; unfold cc1__b_body_skel
    unfold owns
    iintro ⟨⟨%f0, %hf0, H0⟩, ⟨%f3, %hf3, H3⟩, ⟨%f10, %hf10, H10⟩, ⟨%d8, %f8, -, H8⟩, ⟨%d9, %f9, -, H9⟩, Hk⟩
    obtain rfl := harg2.eq_unread hf0; obtain rfl := harg5.eq_unread hf3; obtain rfl := harg10.eq_unread hf10
    sl_exec (disch := first | exact hc1 | exact hc2)
    sl_step
    iapply Hk
    isplitl [H0]
    · iexists _; isplitr; · ipureintro; exact harg2.read_unread _
      iexact H0
    isplitl [H3]
    · iexists _; isplitr; · ipureintro; exact harg5.read_unread _
      iexact H3
    isplitl [H10]
    · iexists _; isplitr; · ipureintro; exact harg10.read_unread _
      iexact H10
    isplitl [H8]; · iexists _; iexact H8
    iexists _; iexact H9

end Cert.KernelIdeal.LayerTwoThree

end
-- ==== Proof.LayerTwoThree.FrameBody.lean ====
/-
  The second pallas_call's body obligation for the FRAME: nothing is said of what the body leaves in the three output
  windows' staging buffers (they are handed over and taken back at anything) nor in the scratch (held whole at anything
  between points). What is said: the adjacency window's buffer is handed back as found — its block on the rows inside the
  array, whatever it held past the array's end — and the four whole-array inputs stay at their blocks.
  Phase 0 is the run that forms the second layer; phase 1 the run that forms the third and its log-softmax.
-/
import proofs.«182206_g44306882625589_cont_8to1_c_1074_19_alg».proof.Proof.LayerTwoThree.RunSecond
import proofs.«182206_g44306882625589_cont_8to1_c_1074_19_alg».proof.Proof.LayerTwoThree.RunThird

set_option maxRecDepth 16384

noncomputable section

namespace Cert.KernelIdeal.LayerTwoThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's buffer after the body, as far as the frame names it: its block on the rows inside the array,
    the zero word past the array's end (nothing reads that filler: the window's post is stated on the moved rows only). -/
def adjKept (c : Dev nD) (t : Fin cfg1.N) : S800x10000.Idx → Elt F .bf16 :=
  win1_0.fill (grid1.coords t) (fun _ => Scalar.ofBits .bf16 0#16) (iblk V c 0 t)

/-- Which windows the frame forgets: the three outputs. -/
abbrev outs : Fin cfg1.W → Bool := fun | 5 => true | 6 => true | 7 => true | _ => false

/-- The frame's proof data of the second pallas_call on core `c`. -/
def fdat (c : Dev nD) : Dat τ (Elt F) Unit ℕ (UR sig nD τ) ℕ cfg1 c where
  A w := V c (Pipeline.arrRef spec1 w)
  after w t := match w with
    | ⟨0, _⟩ => adjKept V c t
    | ⟨1, _⟩ => iblk V c 1 t
    | ⟨2, _⟩ => iblk V c 2 t
    | ⟨3, _⟩ => iblk V c 3 t
    | ⟨4, _⟩ => iblk V c 4 t
    | ⟨5, _⟩ => fun _ => Scalar.ofBits .f32 0#32
    | ⟨6, _⟩ => fun _ => Scalar.ofBits .f32 0#32
    | ⟨7, _⟩ => fun _ => Scalar.ofBits .f32 0#32
  Φ _ := Pipeline.ΦA spec1 c
  q _ := fullShare
  owed _ := 0

theorem fA_eq (c : Dev nD) (w : Fin cfg1.W) : (fdat V c).A w = V c (Pipeline.arrRef spec1 w) := by
  dsimp only [fdat]

theorem fafter_0 (c : Dev nD) (t : Fin cfg1.N) : (fdat V c).after 0 t = adjKept V c t := by dsimp only [fdat]
theorem fafter_1 (c : Dev nD) (t : Fin cfg1.N) : (fdat V c).after 1 t = iblk V c 1 t := by dsimp only [fdat]
theorem fafter_2 (c : Dev nD) (t : Fin cfg1.N) : (fdat V c).after 2 t = iblk V c 2 t := by dsimp only [fdat]
theorem fafter_3 (c : Dev nD) (t : Fin cfg1.N) : (fdat V c).after 3 t = iblk V c 3 t := by dsimp only [fdat]
theorem fafter_4 (c : Dev nD) (t : Fin cfg1.N) : (fdat V c).after 4 t = iblk V c 4 t := by dsimp only [fdat]

/-- The adjacency window is fetched at every point: its buffer holds the block on the rows inside the array and, past the
    array's end, whatever the overwrite before the fetch left. -/
theorem fbefore_0 (c : Dev nD) (t : Fin cfg1.N) (d) :
    (fdat V c).before 0 t d = win1_0.fill (grid1.coords t) d (iblk V c 0 t) := by
  unfold Dat.before; rw [if_pos (fetch1_0 t)]; unfold Dat.fetched Dat.blockOf iblk; rw [fA_eq]

/-- Input window 1 (a whole array, fetched once) holds its block at every point. -/
theorem fbefore_1 (c : Dev nD) (t : Fin cfg1.N) (d) : (fdat V c).before 1 t d = iblk V c 1 t :=
  ((fdat V c).before_in_eq_fetched 1 rfl (fun _ => rfl) (fun _ _ _ => rfl) (fun t => by rw [fafter_1]; unfold Dat.blockOf iblk; rw [fA_eq]; try rfl) t d).trans
    (by unfold Dat.fetched Dat.blockOf iblk; rw [fA_eq]; try rfl)
/-- Input window 2 (a whole array, fetched once) holds its block at every point. -/
theorem fbefore_2 (c : Dev nD) (t : Fin cfg1.N) (d) : (fdat V c).before 2 t d = iblk V c 2 t :=
  ((fdat V c).before_in_eq_fetched 2 rfl (fun _ => rfl) (fun _ _ _ => rfl) (fun t => by rw [fafter_2]; unfold Dat.blockOf iblk; rw [fA_eq]; try rfl) t d).trans
    (by unfold Dat.fetched Dat.blockOf iblk; rw [fA_eq]; try rfl)
/-- Input window 3 (a whole array, fetched once) holds its block at every point. -/
theorem fbefore_3 (c : Dev nD) (t : Fin cfg1.N) (d) : (fdat V c).before 3 t d = iblk V c 3 t :=
  ((fdat V c).before_in_eq_fetched 3 rfl (fun _ => rfl) (fun _ _ _ => rfl) (fun t => by rw [fafter_3]; unfold Dat.blockOf iblk; rw [fA_eq]; try rfl) t d).trans
    (by unfold Dat.fetched Dat.blockOf iblk; rw [fA_eq]; try rfl)
/-- Input window 4 (a whole array, fetched once) holds its block at every point. -/
theorem fbefore_4 (c : Dev nD) (t : Fin cfg1.N) (d) : (fdat V c).before 4 t d = iblk V c 4 t :=
  ((fdat V c).before_in_eq_fetched 4 rfl (fun _ => rfl) (fun _ _ _ => rfl) (fun t => by rw [fafter_4]; unfold Dat.blockOf iblk; rw [fA_eq]; try rfl) t d).trans
    (by unfold Dat.fetched Dat.blockOf iblk; rw [fA_eq]; try rfl)

/-- The class's invariant, link by link: the other pallas_call's scoped buffers at anything, then this region's scratch
    (the last scoped buffer listed) at anything, and the generator register at some state. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ d, owns (c : Thread nD τ) projM fullShare d)) ∗ (∃ r, prngReg c r)) := by
  unfold Pipeline.ΦA; rw [scopedRest1_eq]; simp only [projM, owns_whole]; rfl

/-- What the body is called with at point `t`, the windows one by one (the outputs at anything), -/
def fbodyPre (c : Dev nD) (t : Fin cfg1.N) : sProp 𝕄 :=
  iprop((fdat V c).Φ t.castSucc ∗ (fdat V c).owesAt () t.castSucc
    ∗ (∃ d, owns (c : Thread nD τ) (st1_0 t) fullShare ((fdat V c).before 0 t d))
    ∗ (∃ d, owns (c : Thread nD τ) (st1_1 t) fullShare ((fdat V c).before 1 t d))
    ∗ (∃ d, owns (c : Thread nD τ) (st1_2 t) fullShare ((fdat V c).before 2 t d))
    ∗ (∃ d, owns (c : Thread nD τ) (st1_3 t) fullShare ((fdat V c).before 3 t d))
    ∗ (∃ d, owns (c : Thread nD τ) (st1_4 t) fullShare ((fdat V c).before 4 t d))
    ∗ (∃ X, owns (c : Thread nD τ) (st1_5 t) fullShare X)
    ∗ (∃ X, owns (c : Thread nD τ) (st1_6 t) fullShare X)
    ∗ (∃ X, owns (c : Thread nD τ) (st1_7 t) fullShare X))

/-- and what it returns: the adjacency window's buffer at its kept block on the moved rows, the other inputs at their
    blocks, the outputs at anything. -/
def fbodyPost (c : Dev nD) (t : Fin cfg1.N) : sProp 𝕄 :=
  iprop((fdat V c).Φ t.succ ∗ (fdat V c).owesAt () t.succ
    ∗ (∃ d, owns (c : Thread nD τ) (st1_0 t) fullShare (win1_0.fill (grid1.coords t) d (win1_0.cut (grid1.coords t) ((fdat V c).after 0 t))))
    ∗ owns (c : Thread nD τ) (st1_1 t) fullShare ((fdat V c).after 1 t)
    ∗ owns (c : Thread nD τ) (st1_2 t) fullShare ((fdat V c).after 2 t)
    ∗ owns (c : Thread nD τ) (st1_3 t) fullShare ((fdat V c).after 3 t)
    ∗ owns (c : Thread nD τ) (st1_4 t) fullShare ((fdat V c).after 4 t)
    ∗ (∃ X, owns (c : Thread nD τ) (st1_5 t) fullShare X)
    ∗ (∃ X, owns (c : Thread nD τ) (st1_6 t) fullShare X)
    ∗ (∃ X, owns (c : Thread nD τ) (st1_7 t) fullShare X))

set_option maxHeartbeats 4800000 in
theorem fsound_body (c : Dev nD) (t : Fin cfg1.N) :
    fbodyPre V c t ⊢ wp frame (wpE (defs₀ (F := F)) Variants.none c none) Set.univ (bodyAt1 t) (fun _ => fbodyPost V c t) := by
  unfold fbodyPre fbodyPost bodyAt1
  simp only [fbefore_0, fbefore_1, fbefore_2, fbefore_3, fbefore_4]
  rw [show (fdat V c).owesAt () t.succ = (fdat V c).owesAt () t.castSucc from rfl]
  rw [fafter_0, fafter_1, fafter_2, fafter_3, fafter_4]
  rw [show (fdat V c).Φ t.succ = Pipeline.ΦA spec1 c from rfl, show (fdat V c).Φ t.castSucc = Pipeline.ΦA spec1 c from rfl, PhiA_eq]
  unfold adjKept
  rw [win1_0.cut_fill]
  by_cases h : t.val < 13
  · -- phase 0
    have hc1 : inPhase0 (grid1.coords t) := (inPhase0_iff t).mpr h
    have hc2 : ¬inPhase1 (grid1.coords t) := fun hh => by have := (inPhase1_iff t).mp hh; omega
    iintro ⟨⟨⟨R1, R2, R3, R4, R5, R6, R7, R8, R9, R10, R11, R12, R13, ⟨%xs, HS⟩⟩, Hg⟩, Ho, ⟨%d0, H0⟩, ⟨%d1, H1⟩, ⟨%d2, H2⟩, ⟨%d3, H3⟩, ⟨%d4, H4⟩, ⟨%X5, H5⟩, H6, H7⟩
    iapply ((runSecond (F := F) c (grid1.coords t) _ _ _ _ _ _ _ _ _ _ _ _ _ _ _ _ projM (Memref.isWhole_whole _) hc1 hc2 _ _ _ _ xs).2.2 Set.univ _)
    isplitl [H0]; · iexact H0
    isplitl [H1]; · iexact H1
    isplitl [H2]; · iexact H2
    isplitl [H4]; · iexact H4
    isplitl [H5]; · iexists _; iexact H5
    isplitl [HS]; · iexact HS
    iintro ⟨H0, H1, H2, H4, ⟨%e5, H5⟩, HS⟩
    isplitl [R1 R2 R3 R4 R5 R6 R7 R8 R9 R10 R11 R12 R13 HS Hg]
    · isplitl [R1 R2 R3 R4 R5 R6 R7 R8 R9 R10 R11 R12 R13 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        iexists _; iapply (owns_intro (c : Thread nD τ) projM fullShare _); iexact HS
      iexact Hg
    isplitl [Ho]; · iexact Ho
    isplitl [H0]; · iexists d0; iexact H0
    isplitl [H1]; · iexact H1
    isplitl [H2]; · iexact H2
    isplitl [H3]; · iexact H3
    isplitl [H4]; · iexact H4
    isplitl [H5]; · iexists _; iapply (owns_intro (c : Thread nD τ) _ fullShare _); iexact H5
    isplitl [H6]; · iexact H6
    iexact H7
  · -- phase 1
    have hc1 : ¬inPhase0 (grid1.coords t) := fun hh => h ((inPhase0_iff t).mp hh)
    have hc2 : inPhase1 (grid1.coords t) := (inPhase1_iff t).mpr (by omega)
    iintro ⟨⟨⟨R1, R2, R3, R4, R5, R6, R7, R8, R9, R10, R11, R12, R13, ⟨%xs, HS⟩⟩, Hg⟩, Ho, ⟨%d0, H0⟩, ⟨%d1, H1⟩, ⟨%d2, H2⟩, ⟨%d3, H3⟩, ⟨%d4, H4⟩, H5, ⟨%X6, H6⟩, ⟨%X7, H7⟩⟩
    iapply ((runThird (F := F) c (grid1.coords t) _ _ _ _ _ _ _ _ _ _ _ _ _ _ _ _ projM (Memref.isWhole_whole _) hc1 hc2 _ _ xs).2.2 Set.univ _)
    isplitl [H0]; · iexact H0
    isplitl [H3]; · iexact H3
    isplitl [HS]; · iexact HS
    isplitl [H6]; · iexists _; iexact H6
    isplitl [H7]; · iexists _; iexact H7
    iintro ⟨H0, H3, HS, ⟨%e6, H6⟩, ⟨%e7, H7⟩⟩
    isplitl [R1 R2 R3 R4 R5 R6 R7 R8 R9 R10 R11 R12 R13 HS Hg]
    · isplitl [R1 R2 R3 R4 R5 R6 R7 R8 R9 R10 R11 R12 R13 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        iexists _; iexact HS
      iexact Hg
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexists _; iapply (owns_intro (c : Thread nD τ) _ fullShare _); iexact H6
    iexists _; iapply (owns_intro (c : Thread nD τ) _ fullShare _); iexact H7

/-- The library's body obligation with the outputs forgotten, at every point. -/
theorem fbody_obligation (c : Dev nD) :
    Pipeline.BodyObligationLoose (fdat (F := F) V c) (defs₀ (F := F)) Variants.none () Set.univ outs := fun t => by
  rw [bigSep_W1, bigSep_W1]
  exact fsound_body V c t

theorem fhin (c : Dev nD) : Pipeline.ΦA spec1 c ⊢ (fdat V c).Φ 0 := by
  rw [show (fdat V c).Φ 0 = Pipeline.ΦA spec1 c from rfl]

theorem fhout (c : Dev nD) : (fdat V c).Φ (Fin.last cfg1.N) ⊢ Pipeline.ΦA spec1 c := by
  rw [show (fdat V c).Φ (Fin.last cfg1.N) = Pipeline.ΦA spec1 c from rfl]

end Cert.KernelIdeal.LayerTwoThree

end
-- ==== Proof.Frames.lean ====
/-
  The frames of the kernel's program, at any float instance: every weakly fair execution of @main terminates, nothing
  faults, and the eight argument arrays end as launched. @main is a host stretch (a reshape and a format change), the first
  pallas_call, a second host stretch, the second pallas_call. Between items a core holds every unscoped buffer at the
  contents the items so far leave: the launch contents, then each host stretch applied, then the first call's arrays at
  what its write-backs leave. The first call is followed exactly (its three results feed the second call). Of the second
  call's three results nothing is said: nothing runs after it, and no argument is among its arrays — the arguments ride
  beside it untouched, which is all a frame asks.
-/
import proofs.«182206_g44306882625589_cont_8to1_c_1074_19_alg».proof.Proof.LayerOne.Body
import proofs.«182206_g44306882625589_cont_8to1_c_1074_19_alg».proof.Proof.LayerTwoThree.FrameBody
import proofs.«182206_g44306882625589_cont_8to1_c_1074_19_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch; -/
abbrev W0 : Dev nD → Valuation τ sig (Elt F) := fun c b => m (c, b)
/-- after the first host stretch (the first call's entry); -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first call's exit: its arrays at what the write-backs leave, every other buffer as entered; -/
def W2 (c : Dev nD) : Valuation τ sig (Elt F) :=
  Pipeline.withArrays spec0 c (W1 m c) fun w => (LayerOne.dat (V1 m) c).arrAt w cfg0.N
theorem W2_arr (c : Dev nD) (w : Fin cfg0.W) :
    W2 m c (Proc.devRef .tc (Pipeline.arrRef spec0 w)) = (LayerOne.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (LayerOne.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the second host stretch (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-! ### No item writes an argument: each reaches the second call's entry as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps1 _ hostOps1_writes (r := main_arg0) (by decide)
    _ = W1 m c (Proc.devRef .tc main_arg0) := (W2_arr m c 0).trans (((LayerOne.dat (V1 m) c).arrAt_in 0 rfl _).trans (LayerOne.A_eq (V1 m) c 0))
    _ = W0 m c (Proc.devRef .tc main_arg0) := StableHlo.after_of_writes_sub hostOps0 _ hostOps0_writes (r := main_arg0) (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps1 _ hostOps1_writes (r := main_arg1) (by decide)
    _ = W1 m c (Proc.devRef .tc main_arg1) := (W2_arr m c 2).trans (((LayerOne.dat (V1 m) c).arrAt_in 2 rfl _).trans (LayerOne.A_eq (V1 m) c 2))
    _ = W0 m c (Proc.devRef .tc main_arg1) := StableHlo.after_of_writes_sub hostOps0 _ hostOps0_writes (r := main_arg1) (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_writes_sub hostOps1 _ hostOps1_writes (r := main_arg2) (by decide)
    _ = W1 m c (Proc.devRef .tc main_arg2) := (W2_arr m c 1).trans (((LayerOne.dat (V1 m) c).arrAt_in 1 rfl _).trans (LayerOne.A_eq (V1 m) c 1))
    _ = W0 m c (Proc.devRef .tc main_arg2) := StableHlo.after_of_writes_sub hostOps0 _ hostOps0_writes (r := main_arg2) (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

/-! ## The proof data families and what rides beside the buffers -/

abbrev adm : (p : Fin 2) → (pcfgs (F := F) p).Adm := fun p => (cfgs p).toPCfg_adm
/-- The two calls' exact proof data, each at its entry contents (a literal match on the call). -/
def pdats : (p : Fin 2) → (c : Dev nD) → Dat τ (Elt F) Unit ℕ (UR sig nD τ) ℕ (Pipeline.pin (pcfgs (F := F)) adm p) c
  | ⟨0, _⟩ => fun c => LayerOne.dat (V1 m) c
  | ⟨1, _⟩ => fun c => LayerTwoThree.fdat (V3 m) c
/-- The same read relationally: the first call exactly, the second with its three outputs forgotten. -/
def rdats : (p : Fin 2) → (c : Dev nD) → RDat τ (Elt F) Unit ℕ (UR sig nD τ) ℕ (Pipeline.pin (pcfgs (F := F)) adm p) c
  | ⟨0, _⟩ => fun c => (LayerOne.dat (V1 m) c).toR
  | ⟨1, _⟩ => fun c => (LayerTwoThree.fdat (V3 m) c).toRForget LayerTwoThree.outs
abbrev 𝒱₀ : Variants := Variants.none
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: the second call's arrays at some contents its write-backs allow, every other
    unscoped buffer at the contents it had at that call's entry, the generator register at some state. -/
abbrev Tₙ (c : Dev nD) : sProp 𝕄 :=
  iprop((rdats m 1 c).arraysAt cfg1.N
    ∗ Pipeline.unscopedRest (Ix := Unit) (Name := ℕ) (U := UR sig nD τ) (Lvl := ℕ) spec1 c (V3 m c) ∗ ∃ r, prngReg c r)

/-! ## The calls as segments -/

set_option backward.isDefEq.respectTransparency.types false in
/-- The first call: entered from every unscoped buffer at `W1`, left at `W2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (LayerOne.body_obligation (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((LayerOne.dat (V1 m) c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (rdats m 0 c).Φ (Fin.last _) ⊢ Pipeline.ΦA spec0 c from LayerOne.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((LayerOne.dat (V1 m) c).share_full fun _ => rfl)
      (V1 m c) (V2 m c) ((LayerOne.dat (V1 m) c).arrAt · cfg0.N) (hF0 m c) (hrest0 m c)
    rw [Pipeline.unscopedBufs_held] at hjoin
    have harr : (rdats m 0 c).arraysAt (Pipeline.pin (pcfgs (F := F)) adm 0).N
        ⊢ ((LayerOne.dat (V1 m) c).arrays ((LayerOne.dat (V1 m) c).arrAt · cfg0.N) : sProp 𝕄) :=
      (LayerOne.dat (V1 m) c).toR_arraysAt_post cfg0.N
    iintro ⟨Ha, HO, HY, Hrest⟩
    ihave Ha' := harr $$ Ha
    imodintro
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

set_option backward.isDefEq.respectTransparency.types false in
/-- The second call: entered from every unscoped buffer at `W3`; left with its arrays at some contents and the rest, the
    arguments among it, as entered. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (LayerTwoThree.fbody_obligation (V3 m) c).toRForget
  hwaits := Pipeline.RDat.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((LayerTwoThree.fdat (V3 m) c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.RDat.Seg.run (segs m) := (main_chain c).trans (by chain_rfl)

set_option backward.isDefEq.respectTransparency.types false in
/-- THE FRAME at any float instance: from any memory with zero counters every weakly fair execution of @main terminates,
    nothing faulting, and every final state has the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = V3 m c main_arg0
      ∧ s.mem ((c.tc : Thread nD τ).loc main_arg1) = V3 m c main_arg1
      ∧ s.mem ((c.tc : Thread nD τ).loc main_arg2) = V3 m c main_arg2
      ∧ s.mem ((c.tc : Thread nD τ).loc main_arg3) = V3 m c main_arg3
      ∧ s.mem ((c.tc : Thread nD τ).loc main_arg4) = V3 m c main_arg4
      ∧ s.mem ((c.tc : Thread nD τ).loc main_arg5) = V3 m c main_arg5
      ∧ s.mem ((c.tc : Thread nD τ).loc main_arg6) = V3 m c main_arg6
      ∧ s.mem ((c.tc : Thread nD τ).loc main_arg7) = V3 m c main_arg7)
    (hfin := fun c s' => by
      dsimp only [Tₙ]; rw [unscopedRest1_eq]
      iintro ⟨⟨-, ⟨A0, A1, A2, A3, A4, A5, A6, A7, -, -, -⟩, -⟩, HSI⟩
      icombine HSI A0 gives %h0
      icombine HSI A1 gives %h1
      icombine HSI A2 gives %h2
      icombine HSI A3 gives %h3
      icombine HSI A4 gives %h4
      icombine HSI A5 gives %h5
      icombine HSI A6 gives %h6
      icombine HSI A7 gives %h7
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7⟩
      iexact HSI)
    (hQ := fun s h c =>
      ⟨((h c).1).trans (W3_main_arg0 m c),
        ((h c).2.1).trans (W3_main_arg1 m c),
        ((h c).2.2.1).trans (W3_main_arg2 m c),
        ((h c).2.2.2.1).trans (W3_main_arg3 m c),
        ((h c).2.2.2.2.1).trans (W3_main_arg4 m c),
        ((h c).2.2.2.2.2.1).trans (W3_main_arg5 m c),
        ((h c).2.2.2.2.2.2.1).trans (W3_main_arg6 m c),
        ((h c).2.2.2.2.2.2.2).trans (W3_main_arg7 m c)⟩)

end Cert.KernelIdeal.Frames

end
-- ==== Proof.Word.LayerOne.Shared.lean ====
/-
  (The same statement and proof for the program as printed, read at any float instance: the two printed programs have
  the same text.)
  The first pallas_call: one row block of the adjacency per grid point (25 blocks of 400 rows). At the first block
  the body also forms the projection x·W1 and keeps it in a scratch buffer, which every later block reads.
  This module names what the two cases of the body are stated over: the branch condition as a function of the
  grid coordinates, decided over the grid; the staging memrefs the pipeline passes at a point; the scratch memref.
-/
import proofs.«182206_g44306882625589_cont_8to1_c_1074_19_alg».proof.Proof.Gen.Kernel.Launch
import proofs.«182206_g44306882625589_cont_8to1_c_1074_19_alg».proof.Proof.Gen.Kernel.Skeleton
import proofs.«182206_g44306882625589_cont_8to1_c_1074_19_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's one branch: "this is row block 0", as the printed scalar chain over the grid coordinate. -/
abbrev atFirst (i : grid0.Coords) : Prop :=
  (Scalar.cmpi .ne (Scalar.extui (Scalar.cmpi .eq (BitVec.ofNat 32 (i 0).val) 0#32)) 0#32) = 1#1

/-- It holds at point 0 and at no other of the 25 points. -/
theorem atFirst_iff : ∀ t : Fin cfg0.N, atFirst (grid0.coords t) ↔ t.val = 0 :=
  (by decide +kernel : ∀ t : Fin grid0.N, atFirst (grid0.coords t) ↔ t.val = 0)

/-- The scratch buffer that carries x·W1 from the first block to the later ones. -/
abbrev projM : Memref sig .tc .vmem S10000x64 .bf16 := Memref.whole cc0_scratch0

end Cert.Kernel.LayerOne

end
-- ==== Proof.Word.LayerOne.RunFirst.lean ====
/-
  (The same statement and proof for the program as printed, read at any float instance: the two printed programs have
  the same text.)
  The body at row block 0, run once on symbolic staging memrefs: it forms x·W1 and stores it whole into the scratch,
  converts the adjacency block and stores it, then stores the layer's rows and the next layer's projection of them.
  The run's witness is, per written buffer, the list of pieces its stores left.
-/
import proofs.«182206_g44306882625589_cont_8to1_c_1074_19_alg».proof.Proof.Word.LayerOne.Shared

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first row block (the branch taken), from the five input buffers at their contents and the three output
    buffers and the scratch at anything: the body runs to its return with the inputs as they were and each written
    buffer at its pieces. -/
noncomputable def runFirst (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i)
    (x0 : Vec F S10000x128 .f32) (x1 : Vec F S128x64 .f32) (x2 : Vec F S400x10000 .f32) (x3 : Vec F S1x64 .f32) (x4 : Vec F S64x64 .bf16) :
    Σ' (L6 : List (View.Piece (Elt F) S400x64 .f32)) (L7 : List (View.Piece (Elt F) S400x10000 .bf16)) (L8 : List (View.Piece (Elt F) S400x64 .bf16)), { L9 : List (View.Piece (Elt F) S10000x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0__a_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__a_body_eq_skeleton]; unfold cc0__a_body_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [H8]; · iexists _; iexact H8
    iexists _; iexact H9

end Cert.Kernel.LayerOne

end
-- ==== Proof.Word.LayerOne.RunLater.lean ====
/-
  (The same statement and proof for the program as printed, read at any float instance: the two printed programs have
  the same text.)
  The body at a row block after the first, run once on symbolic staging memrefs: the projection x·W1 is read from the
  scratch, where the first block left it, and the scratch is not written.
-/
import proofs.«182206_g44306882625589_cont_8to1_c_1074_19_alg».proof.Proof.Word.LayerOne.Shared

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later row block (the branch not taken), from the five input buffers and the scratch at their contents and the
    three output buffers at anything: the body runs to its return with the inputs and the scratch as they were and each
    output buffer at its pieces. -/
noncomputable def runLater (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬atFirst i)
    (x0 : Vec F S10000x128 .f32) (x1 : Vec F S128x64 .f32) (x2 : Vec F S400x10000 .f32) (x3 : Vec F S1x64 .f32) (x4 : Vec F S64x64 .bf16) (xs : Vec F S10000x64 .bf16) :
    Σ' (L6 : List (View.Piece (Elt F) S400x64 .f32)) (L7 : List (View.Piece (Elt F) S400x10000 .bf16)), { L8 : List (View.Piece (Elt F) S400x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare xs
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare xs
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0__a_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__a_body_eq_skeleton]; unfold cc0__a_body_skel
    unfold owns
    iintro ⟨⟨%f0, %hf0, H0⟩, ⟨%f1, %hf1, H1⟩, ⟨%f2, %hf2, H2⟩, ⟨%f3, %hf3, H3⟩, ⟨%f4, %hf4, H4⟩, ⟨%f9, %hf9, H9⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg9.eq_unread hf9
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H9]
    · iexists _; isplitr; · ipureintro; exact harg9.read_unread _
      iexact H9
    isplitl [H6]; · iexists _; iexact H6
    isplitl [H7]; · iexists _; iexact H7
    iexists _; iexact H8

end Cert.Kernel.LayerOne

end
-- ==== Proof.Word.LayerOne.Data.lean ====
/-
  (The same statement and proof for the program as printed, read at any float instance: the two printed programs have
  the same text.)
  The first pallas_call's proof data, at the contents `V` of the TensorCore's buffers when the region is entered.
  Every input window's staging buffer holds its block of the array at every point (the adjacency's row block moves with
  the point; the other four are whole arrays fetched once). The scratch holds x·W1 from the first point on: one fixed
  array, since only the first point stores it. Each output window's staging buffer holds, after the body at a point,
  that point's case run at the point's blocks (and, after the first point, at that fixed projection).
-/
import proofs.«182206_g44306882625589_cont_8to1_c_1074_19_alg».proof.Proof.Word.LayerOne.RunFirst
import proofs.«182206_g44306882625589_cont_8to1_c_1074_19_alg».proof.Proof.Word.LayerOne.RunLater

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point. -/
abbrev t₀ : Fin cfg0.N := ⟨0, by decide⟩

theorem atFirst_t₀ : atFirst (grid0.coords t₀) := (atFirst_iff t₀).mpr rfl

/-- One staging buffer per output window, and the scratch, as views through which contents are stated (which buffer is
    chosen does not matter for pieces that cover the shape). -/
abbrev VO5 : View sig .tc .vmem S400x64 .f32 := (Memref.whole cc0_stg5_0 : Memref sig .tc .vmem S400x64 .f32).view
abbrev VO6 : View sig .tc .vmem S400x10000 .bf16 := (Memref.whole cc0_stg6_0 : Memref sig .tc .vmem S400x10000 .bf16).view
abbrev VO7 : View sig .tc .vmem S400x64 .bf16 := (Memref.whole cc0_stg7_0 : Memref sig .tc .vmem S400x64 .bf16).view
abbrev VS : View sig .tc .vmem S10000x64 .bf16 := (projM : Memref sig .tc .vmem S10000x64 .bf16).view

/-- The first point's run at its staging memrefs and blocks. -/
abbrev firstRun (c : Dev nD) :=
  runFirst (F := F) c (grid0.coords t₀) (win0_0.stage (cfg0.slots t₀ 0)) (hstage0_0 ((cfg0.slots t₀ 0).cast nbuf0_0)) (win0_1.stage (cfg0.slots t₀ 1)) (hstage0_1 ((cfg0.slots t₀ 1).cast nbuf0_1)) (win0_2.stage (cfg0.slots t₀ 2)) (hstage0_2 ((cfg0.slots t₀ 2).cast nbuf0_2)) (win0_3.stage (cfg0.slots t₀ 3)) (hstage0_3 ((cfg0.slots t₀ 3).cast nbuf0_3)) (win0_4.stage (cfg0.slots t₀ 4)) (hstage0_4 ((cfg0.slots t₀ 4).cast nbuf0_4)) (win0_5.stage (cfg0.slots t₀ 5)) (hstage0_5 ((cfg0.slots t₀ 5).cast nbuf0_5)) (win0_6.stage (cfg0.slots t₀ 6)) (hstage0_6 ((cfg0.slots t₀ 6).cast nbuf0_6)) (win0_7.stage (cfg0.slots t₀ 7)) (hstage0_7 ((cfg0.slots t₀ 7).cast nbuf0_7)) projM (Memref.isWhole_whole _) atFirst_t₀ (iblk V c 0 t₀) (iblk V c 1 t₀) (iblk V c 2 t₀) (iblk V c 3 t₀) (iblk V c 4 t₀)

/-- What the scratch carries after the first point: the first run's scratch pieces read back. -/
def proj (c : Dev nD) : Vec F S10000x64 .bf16 := VS.read (Elt F) (VS.writes (Elt F) VS.junk (firstRun V c).2.2.2.1)

/-- A later point's run at its staging memrefs and blocks, over the carried projection. -/
abbrev laterRun (c : Dev nD) (t : Fin cfg0.N) (h : ¬t.val = 0) :=
  runLater (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) projM (Memref.isWhole_whole _) (fun hc => h ((atFirst_iff t).mp hc)) (iblk V c 0 t) (iblk V c 1 t) (iblk V c 2 t) (iblk V c 3 t) (iblk V c 4 t) (proj V c)

/-- The first run at a point known to be the first (the same run, the point named `t`). -/
abbrev firstRunAt (c : Dev nD) (t : Fin cfg0.N) (h : t.val = 0) :=
  runFirst (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) projM (Memref.isWhole_whole _) ((atFirst_iff t).mpr h) (iblk V c 0 t) (iblk V c 1 t) (iblk V c 2 t) (iblk V c 3 t) (iblk V c 4 t)

/-- What the body leaves in the first layer's output buffer (its 400 rows of adj·(x·W1) + b1) at point `t`. -/
def rowsOut (c : Dev nD) (t : Fin cfg0.N) : Vec F S400x64 .f32 :=
  if h : t.val = 0 then VO5.read (Elt F) (VO5.writes (Elt F) VO5.junk (firstRunAt V c t h).1)
  else VO5.read (Elt F) (VO5.writes (Elt F) VO5.junk (laterRun V c t h).1)
/-- What it leaves in the converted adjacency's output buffer. -/
def adjOut (c : Dev nD) (t : Fin cfg0.N) : Vec F S400x10000 .bf16 :=
  if h : t.val = 0 then VO6.read (Elt F) (VO6.writes (Elt F) VO6.junk (firstRunAt V c t h).2.1)
  else VO6.read (Elt F) (VO6.writes (Elt F) VO6.junk (laterRun V c t h).2.1)
/-- What it leaves in the next layer's projection's output buffer. -/
def nextOut (c : Dev nD) (t : Fin cfg0.N) : Vec F S400x64 .bf16 :=
  if h : t.val = 0 then VO7.read (Elt F) (VO7.writes (Elt F) VO7.junk (firstRunAt V c t h).2.2.1)
  else VO7.read (Elt F) (VO7.writes (Elt F) VO7.junk (laterRun V c t h).2.2.1)

/-- The scoped buffers of the other pallas_call, each at anything: they ride through this region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The class's invariant (every scoped buffer that is no staging buffer here at anything, the generator register at some
    state) with the scratch named. -/
theorem PhiA_eq (c : Dev nD) :
    (Pipeline.ΦA spec0 c : sProp 𝕄)
      = iprop(((∃ d, owns (c : Thread nD τ) projM fullShare d) ∗ otherScoped (F := F) c) ∗ (∃ r, prngReg c r)) := by
  unfold Pipeline.ΦA otherScoped; rw [scopedRest0_eq]; simp only [projM, owns_whole]; rfl

/-- The region's invariant before position `n`: before the first point the class's; afterwards the same with the scratch at
    the carried projection. -/
def PhiS (c : Dev nD) : ℕ → sProp 𝕄
  | 0 => Pipeline.ΦA spec0 c
  | _ + 1 => iprop((owns (c : Thread nD τ) projM fullShare (proj V c) ∗ otherScoped (F := F) c) ∗ (∃ r, prngReg c r))

theorem PhiS_pos (c : Dev nD) (n : ℕ) (hn : n ≠ 0) :
    PhiS V c n = iprop((owns (c : Thread nD τ) projM fullShare (proj V c) ∗ otherScoped (F := F) c) ∗ (∃ r, prngReg c r)) := by
  cases n with
  | zero => exact absurd rfl hn
  | succ n => rfl

/-- The proof data of the first pallas_call on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => rowsOut V c t
    | ⟨6, _⟩ => adjOut V c t
    | ⟨7, _⟩ => nextOut V c t
  Φ t := PhiS V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = rowsOut V c t := by dsimp only [dat]
theorem after_6 (c : Dev nD) (t : Fin cfg0.N) : (dat V c).after 6 t = adjOut V c t := by dsimp only [dat]
theorem after_7 (c : Dev nD) (t : Fin cfg0.N) : (dat V c).after 7 t = nextOut V c t := by dsimp only [dat]

/-- Input window 0's current staging buffer holds its block at every point, fetched there or not: the body leaves it in
    place, and where the pipeline does not fetch the block index has not moved. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's current staging buffer holds its block at every point, fetched there or not: the body leaves it in
    place, and where the pipeline does not fetch the block index has not moved. -/
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's current staging buffer holds its block at every point, fetched there or not: the body leaves it in
    place, and where the pipeline does not fetch the block index has not moved. -/
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's current staging buffer holds its block at every point, fetched there or not: the body leaves it in
    place, and where the pipeline does not fetch the block index has not moved. -/
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's current staging buffer holds its block at every point, fetched there or not: the body leaves it in
    place, and where the pipeline does not fetch the block index has not moved. -/
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

end Cert.Kernel.LayerOne

end
-- ==== Proof.Word.LayerOne.Body.lean ====
/-
  (The same statement and proof for the program as printed, read at any float instance: the two printed programs have
  the same text.)
  The first pallas_call's body obligation: at every point the body, called on the point's staging buffers with the
  invariant and the core's dues, runs to the next point's invariant with every staging buffer at what the proof data
  names. The point is either the first (the projection is formed and the scratch takes it) or a later one (the scratch
  is read at the projection the first point left); each case is that case's run, its pieces covering what they fill.
-/
import proofs.«182206_g44306882625589_cont_8to1_c_1074_19_alg».proof.Proof.Word.LayerOne.Data

set_option maxRecDepth 16384

noncomputable section

namespace Cert.Kernel.LayerOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the buffers they fill -/

theorem coverFirst_5 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i) (x0 : Vec F S10000x128 .f32) (x1 : Vec F S128x64 .f32) (x2 : Vec F S400x10000 .f32) (x3 : Vec F S1x64 .f32) (x4 : Vec F S64x64 .bf16) (y : S400x64.Idx) :
    ∃ pc ∈ (runFirst (F := F) c i arg1 harg1 arg2 harg2 arg3 harg3 arg4 harg4 arg5 harg5 arg6 harg6 arg7 harg7 arg8 harg8 arg9 harg9 hc x0 x1 x2 x3 x4).1, y ∈ pc.1.set :=
  View.cover_of_tiledL (runFirst (F := F) c i arg1 harg1 arg2 harg2 arg3 harg3 arg4 harg4 arg5 harg5 arg6 harg6 arg7 harg7 arg8 harg8 arg9 harg9 hc x0 x1 x2 x3 x4).1 S400x64.size (by sl_kernel_rfl) y
theorem coverFirst_6 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i) (x0 : Vec F S10000x128 .f32) (x1 : Vec F S128x64 .f32) (x2 : Vec F S400x10000 .f32) (x3 : Vec F S1x64 .f32) (x4 : Vec F S64x64 .bf16) (y : S400x10000.Idx) :
    ∃ pc ∈ (runFirst (F := F) c i arg1 harg1 arg2 harg2 arg3 harg3 arg4 harg4 arg5 harg5 arg6 harg6 arg7 harg7 arg8 harg8 arg9 harg9 hc x0 x1 x2 x3 x4).2.1, y ∈ pc.1.set :=
  View.cover_of_tiledL (runFirst (F := F) c i arg1 harg1 arg2 harg2 arg3 harg3 arg4 harg4 arg5 harg5 arg6 harg6 arg7 harg7 arg8 harg8 arg9 harg9 hc x0 x1 x2 x3 x4).2.1 S400x10000.size (by sl_kernel_rfl) y
theorem coverFirst_7 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i) (x0 : Vec F S10000x128 .f32) (x1 : Vec F S128x64 .f32) (x2 : Vec F S400x10000 .f32) (x3 : Vec F S1x64 .f32) (x4 : Vec F S64x64 .bf16) (y : S400x64.Idx) :
    ∃ pc ∈ (runFirst (F := F) c i arg1 harg1 arg2 harg2 arg3 harg3 arg4 harg4 arg5 harg5 arg6 harg6 arg7 harg7 arg8 harg8 arg9 harg9 hc x0 x1 x2 x3 x4).2.2.1, y ∈ pc.1.set :=
  View.cover_of_tiledL (runFirst (F := F) c i arg1 harg1 arg2 harg2 arg3 harg3 arg4 harg4 arg5 harg5 arg6 harg6 arg7 harg7 arg8 harg8 arg9 harg9 hc x0 x1 x2 x3 x4).2.2.1 S400x64.size (by sl_kernel_rfl) y
theorem coverFirst_S (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : atFirst i) (x0 : Vec F S10000x128 .f32) (x1 : Vec F S128x64 .f32) (x2 : Vec F S400x10000 .f32) (x3 : Vec F S1x64 .f32) (x4 : Vec F S64x64 .bf16) (y : S10000x64.Idx) :
    ∃ pc ∈ (runFirst (F := F) c i arg1 harg1 arg2 harg2 arg3 harg3 arg4 harg4 arg5 harg5 arg6 harg6 arg7 harg7 arg8 harg8 arg9 harg9 hc x0 x1 x2 x3 x4).2.2.2.1, y ∈ pc.1.set :=
  View.cover_of_tiledL (runFirst (F := F) c i arg1 harg1 arg2 harg2 arg3 harg3 arg4 harg4 arg5 harg5 arg6 harg6 arg7 harg7 arg8 harg8 arg9 harg9 hc x0 x1 x2 x3 x4).2.2.2.1 S10000x64.size (by sl_kernel_rfl) y

theorem coverLater_5 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬atFirst i) (x0 : Vec F S10000x128 .f32) (x1 : Vec F S128x64 .f32) (x2 : Vec F S400x10000 .f32) (x3 : Vec F S1x64 .f32) (x4 : Vec F S64x64 .bf16) (xs : Vec F S10000x64 .bf16) (y : S400x64.Idx) :
    ∃ pc ∈ (runLater (F := F) c i arg1 harg1 arg2 harg2 arg3 harg3 arg4 harg4 arg5 harg5 arg6 harg6 arg7 harg7 arg8 harg8 arg9 harg9 hc x0 x1 x2 x3 x4 xs).1, y ∈ pc.1.set :=
  View.cover_of_tiledL (runLater (F := F) c i arg1 harg1 arg2 harg2 arg3 harg3 arg4 harg4 arg5 harg5 arg6 harg6 arg7 harg7 arg8 harg8 arg9 harg9 hc x0 x1 x2 x3 x4 xs).1 S400x64.size (by sl_kernel_rfl) y
theorem coverLater_6 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬atFirst i) (x0 : Vec F S10000x128 .f32) (x1 : Vec F S128x64 .f32) (x2 : Vec F S400x10000 .f32) (x3 : Vec F S1x64 .f32) (x4 : Vec F S64x64 .bf16) (xs : Vec F S10000x64 .bf16) (y : S400x10000.Idx) :
    ∃ pc ∈ (runLater (F := F) c i arg1 harg1 arg2 harg2 arg3 harg3 arg4 harg4 arg5 harg5 arg6 harg6 arg7 harg7 arg8 harg8 arg9 harg9 hc x0 x1 x2 x3 x4 xs).2.1, y ∈ pc.1.set :=
  View.cover_of_tiledL (runLater (F := F) c i arg1 harg1 arg2 harg2 arg3 harg3 arg4 harg4 arg5 harg5 arg6 harg6 arg7 harg7 arg8 harg8 arg9 harg9 hc x0 x1 x2 x3 x4 xs).2.1 S400x10000.size (by sl_kernel_rfl) y
theorem coverLater_7 (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬atFirst i) (x0 : Vec F S10000x128 .f32) (x1 : Vec F S128x64 .f32) (x2 : Vec F S400x10000 .f32) (x3 : Vec F S1x64 .f32) (x4 : Vec F S64x64 .bf16) (xs : Vec F S10000x64 .bf16) (y : S400x64.Idx) :
    ∃ pc ∈ (runLater (F := F) c i arg1 harg1 arg2 harg2 arg3 harg3 arg4 harg4 arg5 harg5 arg6 harg6 arg7 harg7 arg8 harg8 arg9 harg9 hc x0 x1 x2 x3 x4 xs).2.2.1, y ∈ pc.1.set :=
  View.cover_of_tiledL (runLater (F := F) c i arg1 harg1 arg2 harg2 arg3 harg3 arg4 harg4 arg5 harg5 arg6 harg6 arg7 harg7 arg8 harg8 arg9 harg9 hc x0 x1 x2 x3 x4 xs).2.2.1 S400x64.size (by sl_kernel_rfl) y

variable (V : (c : Dev nD) → (b : Ref sig .tc) → Buf (Elt F) ((c : Thread nD τ).loc b))

/-! ## The obligation at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

theorem Phi_castSucc (c : Dev nD) (t : Fin cfg0.N) : (dat V c).Φ t.castSucc = PhiS V c t.val := by
  dsimp only [dat]; simp only [Fin.coe_castSucc]

theorem Phi_succ (c : Dev nD) (t : Fin cfg0.N) :
    (dat V c).Φ t.succ = iprop((owns (c : Thread nD τ) projM fullShare (proj V c) ∗ otherScoped (F := F) c) ∗ (∃ r, prngReg c r)) := by
  dsimp only [dat]; exact PhiS_pos V c _ (by simp)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [after_0, after_1, after_2, after_3, after_4, after_5, after_6, after_7]
  rw [Phi_castSucc, Phi_succ]
  by_cases h : t.val = 0
  · -- the first point: the scratch is at anything, and takes the projection
    unfold rowsOut adjOut nextOut
    rw [dif_pos h, dif_pos h, dif_pos h]
    obtain rfl : t = t₀ := Fin.ext h
    rw [show PhiS V c (t₀ : Fin cfg0.N).val = Pipeline.ΦA spec0 c from rfl, PhiA_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstRunAt V c t₀ h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, ⟨%e5, H5⟩, ⟨%e6, H6⟩, ⟨%e7, H7⟩, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst_S c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverFirst_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (coverFirst_6 c _ _ _ _ _ _ _ _ _ _ _ _ _ _ _ _ _ _ _ _ _ _ _ _ _)
    unfold owns; iexists _; isplitr
    swap; · iexact H7
    ipureintro; exact View.read_writes_of_cover _ _ _ _ _ (coverFirst_7 c _ _ _ _ _ _ _ _ _ _ _ _ _ _ _ _ _ _ _ _ _ _ _ _ _)
  · -- a later point: the scratch is at the carried projection, and stays there
    unfold rowsOut adjOut nextOut
    rw [dif_neg h, dif_neg h, dif_neg h]
    rw [PhiS_pos V c _ h]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterRun V c t h).2.2.2 Set.univ _)
    isplitl [H0]; · iexact H0
    isplitl [H1]; · iexact H1
    isplitl [H2]; · iexact H2
    isplitl [H3]; · iexact H3
    isplitl [H4]; · iexact H4
    isplitl [HS]; · iexact HS
    isplitl [H5]; · iexists _; iexact H5
    isplitl [H6]; · iexists _; iexact H6
    isplitl [H7]; · iexists _; iexact H7
    iintro ⟨H0, H1, H2, H3, H4, HS, ⟨%e5, H5⟩, ⟨%e6, H6⟩, ⟨%e7, H7⟩⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverLater_5 c _ _ _ _ _ _ _ _ _ _ _ _ _ _ _ _ _ _ _ _ _ _ _ _ _ _)
    isplitl [H6]
    · unfold owns; iexists _; isplitr
      swap; · iexact H6
      ipureintro; exact View.read_writes_of_cover _ _ _ _ _ (coverLater_6 c _ _ _ _ _ _ _ _ _ _ _ _ _ _ _ _ _ _ _ _ _ _ _ _ _ _)
    unfold owns; iexists _; isplitr
    swap; · iexact H7
    ipureintro; exact View.read_writes_of_cover _ _ _ _ _ (coverLater_7 c _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Pipeline.ΦA spec0 c from rfl]

/-- After the last point the invariant gives the class's back: what the scratch holds is forgotten. -/
theorem hout (c : Dev nD) : (dat V c).Φ (Fin.last cfg0.N) ⊢ Pipeline.ΦA spec0 c := by
  rw [show (dat V c).Φ (Fin.last cfg0.N) = PhiS V c (Fin.last cfg0.N).val from rfl,
    PhiS_pos V c _ (by rw [Fin.val_last]; have : cfg0.N = 25 := N_0; omega), PhiA_eq]
  iintro ⟨⟨HS, Hrest⟩, Hg⟩
  isplitl [HS Hrest]
  · isplitl [HS]; · iexists _; iexact HS
    iexact Hrest
  iexact Hg

end Cert.Kernel.LayerOne

end
-- ==== Proof.Word.LayerTwoThree.Shared.lean ====
/-
  (The same statement and proof for the program as printed, read at any float instance: the two printed programs have
  the same text.)
  The second pallas_call: a grid of two phases by 13 row blocks of 800 rows (the last block overhangs the 10000 rows by
  400). In phase 0 a point forms its rows of the second layer and stores the third layer's projection of them as one
  800-row slice of a scratch buffer; in phase 1 a point reads the first 10000 rows of that scratch, forms its rows of the
  third layer and their log-softmax. This module names what the two cases of the body are stated over.
-/
import proofs.«182206_g44306882625589_cont_8to1_c_1074_19_alg».proof.Proof.Gen.Kernel.Launch
import proofs.«182206_g44306882625589_cont_8to1_c_1074_19_alg».proof.Proof.Gen.Kernel.Skeleton
import proofs.«182206_g44306882625589_cont_8to1_c_1074_19_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.LayerTwoThree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- "Phase 0" as the body computes it from the grid coordinates. -/
abbrev inPhase0 (i : grid1.Coords) : Prop := k1_cond1 i = 1#1
/-- "Phase 1" likewise. -/
abbrev inPhase1 (i : grid1.Coords) : Prop := k1_cond2 i = 1#1

/-- Of the 26 points in row-major order, the first 13 are phase 0 -/
theorem inPhase0_iff : ∀ t : Fin cfg1.N, inPhase0 (grid1.coords t) ↔ t.val < 13 :=
  (by decide +kernel : ∀ t : Fin grid1.N, inPhase0 (grid1.coords t) ↔ t.val < 13)
/-- and the last 13 are phase 1. -/
theorem inPhase1_iff : ∀ t : Fin cfg1.N, inPhase1 (grid1.coords t) ↔ 13 ≤ t.val :=
  (by decide +kernel : ∀ t : Fin grid1.N, inPhase1 (grid1.coords t) ↔ 13 ≤ t.val)

/-- The scratch buffer that carries the third layer's projection from phase 0 to phase 1. -/
abbrev projM : Memref sig .tc .vmem S10400x16 .bf16 := Memref.whole cc1_scratch0

end Cert.Kernel.LayerTwoThree

end
-- ==== Proof.Word.LayerTwoThree.RunSecond.lean ====
/-
  (The same statement and proof for the program as printed, read at any float instance: the two printed programs have
  the same text.)
  The body at a point of phase 0, run once on symbolic staging memrefs: the rows of the second layer are stored whole into
  their output buffer, and the third layer's projection of them is stored into the scratch as the 800-row slice at the
  point's row offset, over what the scratch held.
-/
import proofs.«182206_g44306882625589_cont_8to1_c_1074_19_alg».proof.Proof.Word.LayerTwoThree.Shared

set_option maxRecDepth 16384

noncomputable section

namespace Cert.Kernel.LayerTwoThree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- In phase 0, from the four input buffers it reads at their contents, the second layer's output buffer at anything and the
    scratch at contents `xs`: the body runs to its return with the inputs as they were, the output buffer at its pieces,
    and the scratch at its pieces over `xs`. (The buffers of the third layer are not touched and ride outside.) -/
noncomputable def runSecond (c : Dev nD) (i : grid1.Coords) (arg2 : Memref sig .tc .vmem S800x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S800x64 .f32) (harg7 : arg7.IsWhole) (arg8 : Memref sig .tc .vmem S800x16 .f32) (harg8 : arg8.IsWhole) (arg9 : Memref sig .tc .vmem S800x16 .f32) (harg9 : arg9.IsWhole) (arg10 : Memref sig .tc .vmem S10400x16 .bf16) (harg10 : arg10.IsWhole) (hc1 : inPhase0 i) (hc2 : ¬inPhase1 i)
    (x0 : Vec F S800x10000 .bf16) (x1 : Vec F S10000x64 .bf16) (x2 : Vec F S1x64 .f32) (x4 : Vec F S64x16 .bf16) (xs : Vec F S10400x16 .bf16) :
    Σ' (L7 : List (View.Piece (Elt F) S800x64 .f32)), { L10 : List (View.Piece (Elt F) S10400x16 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x4
            ∗ (∃ d, owns (c : Thread nD τ) arg7 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg6 fullShare x4
                ∗ (∃ f, arg7.view.loc (c : Thread nD τ) ↦[arg7.view.set]{fullShare} arg7.view.writes (Elt F) f L7) ∗ (arg10.view.loc (c : Thread nD τ) ↦[arg10.view.set]{fullShare} arg10.view.writes (Elt F) (harg10.unread xs) L10)) -∗ K ⟨⟩))
          ⊢ wp frame (wpE (defs₀ (F := F)) Variants.none c none) E (cc1__b_body i arg2 harg2 arg3 harg3 arg4 harg4 arg5 harg5 arg6 harg6 arg7 harg7 arg8 harg8 arg9 harg9 arg10 harg10) K } := by
  refine ⟨?_, ?_, fun E K => ?run⟩
  case run =>
    simp only [cc1__b_body_eq_skeleton]; unfold cc1__b_body_skel
    unfold owns
    iintro ⟨⟨%f0, %hf0, H0⟩, ⟨%f1, %hf1, H1⟩, ⟨%f2, %hf2, H2⟩, ⟨%f4, %hf4, H4⟩, ⟨%d7, %f7, -, H7⟩, ⟨%f10, %hf10, H10⟩, Hk⟩
    obtain rfl := harg2.eq_unread hf0; obtain rfl := harg3.eq_unread hf1; obtain rfl := harg4.eq_unread hf2
    obtain rfl := harg6.eq_unread hf4; obtain rfl := harg10.eq_unread hf10
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]
    · iexists _; isplitr; · ipureintro; exact harg6.read_unread _
      iexact H4
    isplitl [H7]; · iexists _; iexact H7
    iexact H10

end Cert.Kernel.LayerTwoThree

end
-- ==== Proof.Word.LayerTwoThree.RunThird.lean ====
/-
  (The same statement and proof for the program as printed, read at any float instance: the two printed programs have
  the same text.)
  The body at a point of phase 1, run once on symbolic staging memrefs: the first 10000 rows of the scratch are read, the
  rows of the third layer are stored whole into their output buffer and their log-softmax into its own.
-/
import proofs.«182206_g44306882625589_cont_8to1_c_1074_19_alg».proof.Proof.Word.LayerTwoThree.Shared

set_option maxRecDepth 16384

noncomputable section

namespace Cert.Kernel.LayerTwoThree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- In phase 1, from the adjacency block, the bias row and the scratch at their contents and the two output buffers at
    anything: the body runs to its return with those three as they were and each output buffer at its pieces. (The
    buffers of the second layer are not touched and ride outside.) -/
noncomputable def runThird (c : Dev nD) (i : grid1.Coords) (arg2 : Memref sig .tc .vmem S800x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S800x64 .f32) (harg7 : arg7.IsWhole) (arg8 : Memref sig .tc .vmem S800x16 .f32) (harg8 : arg8.IsWhole) (arg9 : Memref sig .tc .vmem S800x16 .f32) (harg9 : arg9.IsWhole) (arg10 : Memref sig .tc .vmem S10400x16 .bf16) (harg10 : arg10.IsWhole) (hc1 : ¬inPhase0 i) (hc2 : inPhase1 i)
    (x0 : Vec F S800x10000 .bf16) (x3 : Vec F S1x16 .f32) (xs : Vec F S10400x16 .bf16) :
    Σ' (L8 : List (View.Piece (Elt F) S800x16 .f32)), { L9 : List (View.Piece (Elt F) S800x16 .f32) //
      ∀ (E : Set ℕ) (K : PUnit → sProp 𝕄),
        iprop(owns (c : Thread nD τ) arg2 fullShare x0 ∗ owns (c : Thread nD τ) arg5 fullShare x3 ∗ owns (c : Thread nD τ) arg10 fullShare xs
            ∗ (∃ d, owns (c : Thread nD τ) arg8 fullShare d) ∗ (∃ d, owns (c : Thread nD τ) arg9 fullShare d)
            ∗ (iprop(owns (c : Thread nD τ) arg2 fullShare x0 ∗ owns (c : Thread nD τ) arg5 fullShare x3 ∗ owns (c : Thread nD τ) arg10 fullShare xs
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc1__b_body i arg2 harg2 arg3 harg3 arg4 harg4 arg5 harg5 arg6 harg6 arg7 harg7 arg8 harg8 arg9 harg9 arg10 harg10) K } := by
  refine ⟨?_, ?_, fun E K => ?run⟩
  case run =>
    simp only [cc1__b_body_eq_skeleton]; unfold cc1__b_body_skel
    unfold owns
    iintro ⟨⟨%f0, %hf0, H0⟩, ⟨%f3, %hf3, H3⟩, ⟨%f10, %hf10, H10⟩, ⟨%d8, %f8, -, H8⟩, ⟨%d9, %f9, -, H9⟩, Hk⟩
    obtain rfl := harg2.eq_unread hf0; obtain rfl := harg5.eq_unread hf3; obtain rfl := harg10.eq_unread hf10
    sl_exec (disch := first | exact hc1 | exact hc2)
    sl_step
    iapply Hk
    isplitl [H0]
    · iexists _; isplitr; · ipureintro; exact harg2.read_unread _
      iexact H0
    isplitl [H3]
    · iexists _; isplitr; · ipureintro; exact harg5.read_unread _
      iexact H3
    isplitl [H10]
    · iexists _; isplitr; · ipureintro; exact harg10.read_unread _
      iexact H10
    isplitl [H8]; · iexists _; iexact H8
    iexists _; iexact H9

end Cert.Kernel.LayerTwoThree

end
-- ==== Proof.Word.LayerTwoThree.FrameBody.lean ====
/-
  (The same statement and proof for the program as printed, read at any float instance: the two printed programs have
  the same text.)
  The second pallas_call's body obligation for the FRAME: nothing is said of what the body leaves in the three output
  windows' staging buffers (they are handed over and taken back at anything) nor in the scratch (held whole at anything
  between points). What is said: the adjacency window's buffer is handed back as found — its block on the rows inside the
  array, whatever it held past the array's end — and the four whole-array inputs stay at their blocks.
  Phase 0 is the run that forms the second layer; phase 1 the run that forms the third and its log-softmax.
-/
import proofs.«182206_g44306882625589_cont_8to1_c_1074_19_alg».proof.Proof.Word.LayerTwoThree.RunSecond
import proofs.«182206_g44306882625589_cont_8to1_c_1074_19_alg».proof.Proof.Word.LayerTwoThree.RunThird

set_option maxRecDepth 16384

noncomputable section

namespace Cert.Kernel.LayerTwoThree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's buffer after the body, as far as the frame names it: its block on the rows inside the array,
    the zero word past the array's end (nothing reads that filler: the window's post is stated on the moved rows only). -/
def adjKept (c : Dev nD) (t : Fin cfg1.N) : S800x10000.Idx → Elt F .bf16 :=
  win1_0.fill (grid1.coords t) (fun _ => Scalar.ofBits .bf16 0#16) (iblk V c 0 t)

/-- Which windows the frame forgets: the three outputs. -/
abbrev outs : Fin cfg1.W → Bool := fun | 5 => true | 6 => true | 7 => true | _ => false

/-- The frame's proof data of the second pallas_call on core `c`. -/
def fdat (c : Dev nD) : Dat τ (Elt F) Unit ℕ (UR sig nD τ) ℕ cfg1 c where
  A w := V c (Pipeline.arrRef spec1 w)
  after w t := match w with
    | ⟨0, _⟩ => adjKept V c t
    | ⟨1, _⟩ => iblk V c 1 t
    | ⟨2, _⟩ => iblk V c 2 t
    | ⟨3, _⟩ => iblk V c 3 t
    | ⟨4, _⟩ => iblk V c 4 t
    | ⟨5, _⟩ => fun _ => Scalar.ofBits .f32 0#32
    | ⟨6, _⟩ => fun _ => Scalar.ofBits .f32 0#32
    | ⟨7, _⟩ => fun _ => Scalar.ofBits .f32 0#32
  Φ _ := Pipeline.ΦA spec1 c
  q _ := fullShare
  owed _ := 0

theorem fA_eq (c : Dev nD) (w : Fin cfg1.W) : (fdat V c).A w = V c (Pipeline.arrRef spec1 w) := by
  dsimp only [fdat]

theorem fafter_0 (c : Dev nD) (t : Fin cfg1.N) : (fdat V c).after 0 t = adjKept V c t := by dsimp only [fdat]
theorem fafter_1 (c : Dev nD) (t : Fin cfg1.N) : (fdat V c).after 1 t = iblk V c 1 t := by dsimp only [fdat]
theorem fafter_2 (c : Dev nD) (t : Fin cfg1.N) : (fdat V c).after 2 t = iblk V c 2 t := by dsimp only [fdat]
theorem fafter_3 (c : Dev nD) (t : Fin cfg1.N) : (fdat V c).after 3 t = iblk V c 3 t := by dsimp only [fdat]
theorem fafter_4 (c : Dev nD) (t : Fin cfg1.N) : (fdat V c).after 4 t = iblk V c 4 t := by dsimp only [fdat]

/-- The adjacency window is fetched at every point: its buffer holds the block on the rows inside the array and, past the
    array's end, whatever the overwrite before the fetch left. -/
theorem fbefore_0 (c : Dev nD) (t : Fin cfg1.N) (d) :
    (fdat V c).before 0 t d = win1_0.fill (grid1.coords t) d (iblk V c 0 t) := by
  unfold Dat.before; rw [if_pos (fetch1_0 t)]; unfold Dat.fetched Dat.blockOf iblk; rw [fA_eq]

/-- Input window 1 (a whole array, fetched once) holds its block at every point. -/
theorem fbefore_1 (c : Dev nD) (t : Fin cfg1.N) (d) : (fdat V c).before 1 t d = iblk V c 1 t :=
  ((fdat V c).before_in_eq_fetched 1 rfl (fun _ => rfl) (fun _ _ _ => rfl) (fun t => by rw [fafter_1]; unfold Dat.blockOf iblk; rw [fA_eq]; try rfl) t d).trans
    (by unfold Dat.fetched Dat.blockOf iblk; rw [fA_eq]; try rfl)
/-- Input window 2 (a whole array, fetched once) holds its block at every point. -/
theorem fbefore_2 (c : Dev nD) (t : Fin cfg1.N) (d) : (fdat V c).before 2 t d = iblk V c 2 t :=
  ((fdat V c).before_in_eq_fetched 2 rfl (fun _ => rfl) (fun _ _ _ => rfl) (fun t => by rw [fafter_2]; unfold Dat.blockOf iblk; rw [fA_eq]; try rfl) t d).trans
    (by unfold Dat.fetched Dat.blockOf iblk; rw [fA_eq]; try rfl)
/-- Input window 3 (a whole array, fetched once) holds its block at every point. -/
theorem fbefore_3 (c : Dev nD) (t : Fin cfg1.N) (d) : (fdat V c).before 3 t d = iblk V c 3 t :=
  ((fdat V c).before_in_eq_fetched 3 rfl (fun _ => rfl) (fun _ _ _ => rfl) (fun t => by rw [fafter_3]; unfold Dat.blockOf iblk; rw [fA_eq]; try rfl) t d).trans
    (by unfold Dat.fetched Dat.blockOf iblk; rw [fA_eq]; try rfl)
/-- Input window 4 (a whole array, fetched once) holds its block at every point. -/
theorem fbefore_4 (c : Dev nD) (t : Fin cfg1.N) (d) : (fdat V c).before 4 t d = iblk V c 4 t :=
  ((fdat V c).before_in_eq_fetched 4 rfl (fun _ => rfl) (fun _ _ _ => rfl) (fun t => by rw [fafter_4]; unfold Dat.blockOf iblk; rw [fA_eq]; try rfl) t d).trans
    (by unfold Dat.fetched Dat.blockOf iblk; rw [fA_eq]; try rfl)

/-- The class's invariant, link by link: the other pallas_call's scoped buffers at anything, then this region's scratch
    (the last scoped buffer listed) at anything, and the generator register at some state. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ d, owns (c : Thread nD τ) projM fullShare d)) ∗ (∃ r, prngReg c r)) := by
  unfold Pipeline.ΦA; rw [scopedRest1_eq]; simp only [projM, owns_whole]; rfl

/-- What the body is called with at point `t`, the windows one by one (the outputs at anything), -/
def fbodyPre (c : Dev nD) (t : Fin cfg1.N) : sProp 𝕄 :=
  iprop((fdat V c).Φ t.castSucc ∗ (fdat V c).owesAt () t.castSucc
    ∗ (∃ d, owns (c : Thread nD τ) (st1_0 t) fullShare ((fdat V c).before 0 t d))
    ∗ (∃ d, owns (c : Thread nD τ) (st1_1 t) fullShare ((fdat V c).before 1 t d))
    ∗ (∃ d, owns (c : Thread nD τ) (st1_2 t) fullShare ((fdat V c).before 2 t d))
    ∗ (∃ d, owns (c : Thread nD τ) (st1_3 t) fullShare ((fdat V c).before 3 t d))
    ∗ (∃ d, owns (c : Thread nD τ) (st1_4 t) fullShare ((fdat V c).before 4 t d))
    ∗ (∃ X, owns (c : Thread nD τ) (st1_5 t) fullShare X)
    ∗ (∃ X, owns (c : Thread nD τ) (st1_6 t) fullShare X)
    ∗ (∃ X, owns (c : Thread nD τ) (st1_7 t) fullShare X))

/-- and what it returns: the adjacency window's buffer at its kept block on the moved rows, the other inputs at their
    blocks, the outputs at anything. -/
def fbodyPost (c : Dev nD) (t : Fin cfg1.N) : sProp 𝕄 :=
  iprop((fdat V c).Φ t.succ ∗ (fdat V c).owesAt () t.succ
    ∗ (∃ d, owns (c : Thread nD τ) (st1_0 t) fullShare (win1_0.fill (grid1.coords t) d (win1_0.cut (grid1.coords t) ((fdat V c).after 0 t))))
    ∗ owns (c : Thread nD τ) (st1_1 t) fullShare ((fdat V c).after 1 t)
    ∗ owns (c : Thread nD τ) (st1_2 t) fullShare ((fdat V c).after 2 t)
    ∗ owns (c : Thread nD τ) (st1_3 t) fullShare ((fdat V c).after 3 t)
    ∗ owns (c : Thread nD τ) (st1_4 t) fullShare ((fdat V c).after 4 t)
    ∗ (∃ X, owns (c : Thread nD τ) (st1_5 t) fullShare X)
    ∗ (∃ X, owns (c : Thread nD τ) (st1_6 t) fullShare X)
    ∗ (∃ X, owns (c : Thread nD τ) (st1_7 t) fullShare X))

set_option maxHeartbeats 4800000 in
theorem fsound_body (c : Dev nD) (t : Fin cfg1.N) :
    fbodyPre V c t ⊢ wp frame (wpE (defs₀ (F := F)) Variants.none c none) Set.univ (bodyAt1 t) (fun _ => fbodyPost V c t) := by
  unfold fbodyPre fbodyPost bodyAt1
  simp only [fbefore_0, fbefore_1, fbefore_2, fbefore_3, fbefore_4]
  rw [show (fdat V c).owesAt () t.succ = (fdat V c).owesAt () t.castSucc from rfl]
  rw [fafter_0, fafter_1, fafter_2, fafter_3, fafter_4]
  rw [show (fdat V c).Φ t.succ = Pipeline.ΦA spec1 c from rfl, show (fdat V c).Φ t.castSucc = Pipeline.ΦA spec1 c from rfl, PhiA_eq]
  unfold adjKept
  rw [win1_0.cut_fill]
  by_cases h : t.val < 13
  · -- phase 0
    have hc1 : inPhase0 (grid1.coords t) := (inPhase0_iff t).mpr h
    have hc2 : ¬inPhase1 (grid1.coords t) := fun hh => by have := (inPhase1_iff t).mp hh; omega
    iintro ⟨⟨⟨R1, R2, R3, R4, R5, R6, R7, R8, R9, R10, R11, R12, R13, ⟨%xs, HS⟩⟩, Hg⟩, Ho, ⟨%d0, H0⟩, ⟨%d1, H1⟩, ⟨%d2, H2⟩, ⟨%d3, H3⟩, ⟨%d4, H4⟩, ⟨%X5, H5⟩, H6, H7⟩
    iapply ((runSecond (F := F) c (grid1.coords t) _ _ _ _ _ _ _ _ _ _ _ _ _ _ _ _ projM (Memref.isWhole_whole _) hc1 hc2 _ _ _ _ xs).2.2 Set.univ _)
    isplitl [H0]; · iexact H0
    isplitl [H1]; · iexact H1
    isplitl [H2]; · iexact H2
    isplitl [H4]; · iexact H4
    isplitl [H5]; · iexists _; iexact H5
    isplitl [HS]; · iexact HS
    iintro ⟨H0, H1, H2, H4, ⟨%e5, H5⟩, HS⟩
    isplitl [R1 R2 R3 R4 R5 R6 R7 R8 R9 R10 R11 R12 R13 HS Hg]
    · isplitl [R1 R2 R3 R4 R5 R6 R7 R8 R9 R10 R11 R12 R13 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        iexists _; iapply (owns_intro (c : Thread nD τ) projM fullShare _); iexact HS
      iexact Hg
    isplitl [Ho]; · iexact Ho
    isplitl [H0]; · iexists d0; iexact H0
    isplitl [H1]; · iexact H1
    isplitl [H2]; · iexact H2
    isplitl [H3]; · iexact H3
    isplitl [H4]; · iexact H4
    isplitl [H5]; · iexists _; iapply (owns_intro (c : Thread nD τ) _ fullShare _); iexact H5
    isplitl [H6]; · iexact H6
    iexact H7
  · -- phase 1
    have hc1 : ¬inPhase0 (grid1.coords t) := fun hh => h ((inPhase0_iff t).mp hh)
    have hc2 : inPhase1 (grid1.coords t) := (inPhase1_iff t).mpr (by omega)
    iintro ⟨⟨⟨R1, R2, R3, R4, R5, R6, R7, R8, R9, R10, R11, R12, R13, ⟨%xs, HS⟩⟩, Hg⟩, Ho, ⟨%d0, H0⟩, ⟨%d1, H1⟩, ⟨%d2, H2⟩, ⟨%d3, H3⟩, ⟨%d4, H4⟩, H5, ⟨%X6, H6⟩, ⟨%X7, H7⟩⟩
    iapply ((runThird (F := F) c (grid1.coords t) _ _ _ _ _ _ _ _ _ _ _ _ _ _ _ _ projM (Memref.isWhole_whole _) hc1 hc2 _ _ xs).2.2 Set.univ _)
    isplitl [H0]; · iexact H0
    isplitl [H3]; · iexact H3
    isplitl [HS]; · iexact HS
    isplitl [H6]; · iexists _; iexact H6
    isplitl [H7]; · iexists _; iexact H7
    iintro ⟨H0, H3, HS, ⟨%e6, H6⟩, ⟨%e7, H7⟩⟩
    isplitl [R1 R2 R3 R4 R5 R6 R7 R8 R9 R10 R11 R12 R13 HS Hg]
    · isplitl [R1 R2 R3 R4 R5 R6 R7 R8 R9 R10 R11 R12 R13 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        iexists _; iexact HS
      iexact Hg
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexists _; iapply (owns_intro (c : Thread nD τ) _ fullShare _); iexact H6
    iexists _; iapply (owns_intro (c : Thread nD τ) _ fullShare _); iexact H7

/-- The library's body obligation with the outputs forgotten, at every point. -/
theorem fbody_obligation (c : Dev nD) :
    Pipeline.BodyObligationLoose (fdat (F := F) V c) (defs₀ (F := F)) Variants.none () Set.univ outs := fun t => by
  rw [bigSep_W1, bigSep_W1]
  exact fsound_body V c t

theorem fhin (c : Dev nD) : Pipeline.ΦA spec1 c ⊢ (fdat V c).Φ 0 := by
  rw [show (fdat V c).Φ 0 = Pipeline.ΦA spec1 c from rfl]

theorem fhout (c : Dev nD) : (fdat V c).Φ (Fin.last cfg1.N) ⊢ Pipeline.ΦA spec1 c := by
  rw [show (fdat V c).Φ (Fin.last cfg1.N) = Pipeline.ΦA spec1 c from rfl]

end Cert.Kernel.LayerTwoThree

end
-- ==== Proof.Word.Frames.lean ====
/-
  (The same statement and proof for the program as printed, read at any float instance: the two printed programs have
  the same text.)
  The frames of the kernel's program, at any float instance: every weakly fair execution of @main terminates, nothing
  faults, and the eight argument arrays end as launched. @main is a host stretch (a reshape and a format change), the first
  pallas_call, a second host stretch, the second pallas_call. Between items a core holds every unscoped buffer at the
  contents the items so far leave: the launch contents, then each host stretch applied, then the first call's arrays at
  what its write-backs leave. The first call is followed exactly (its three results feed the second call). Of the second
  call's three results nothing is said: nothing runs after it, and no argument is among its arrays — the arguments ride
  beside it untouched, which is all a frame asks.
-/
import proofs.«182206_g44306882625589_cont_8to1_c_1074_19_alg».proof.Proof.Word.LayerOne.Body
import proofs.«182206_g44306882625589_cont_8to1_c_1074_19_alg».proof.Proof.Word.LayerTwoThree.FrameBody
import proofs.«182206_g44306882625589_cont_8to1_c_1074_19_alg».proof.Proof.Gen.Kernel.Regions
import Idealize.ShloMosaic.Lib.Pipeline.RegionsLoop
import Idealize.ShloMosaic.Lib.Pipeline.FrameSuffix

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch; -/
abbrev W0 : Dev nD → Valuation τ sig (Elt F) := fun c b => m (c, b)
/-- after the first host stretch (the first call's entry); -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first call's exit: its arrays at what the write-backs leave, every other buffer as entered; -/
def W2 (c : Dev nD) : Valuation τ sig (Elt F) :=
  Pipeline.withArrays spec0 c (W1 m c) fun w => (LayerOne.dat (V1 m) c).arrAt w cfg0.N
theorem W2_arr (c : Dev nD) (w : Fin cfg0.W) :
    W2 m c (Proc.devRef .tc (Pipeline.arrRef spec0 w)) = (LayerOne.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (LayerOne.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the second host stretch (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-! ### No item writes an argument: each reaches the second call's entry as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps1 _ hostOps1_writes (r := main_arg0) (by decide)
    _ = W1 m c (Proc.devRef .tc main_arg0) := (W2_arr m c 0).trans (((LayerOne.dat (V1 m) c).arrAt_in 0 rfl _).trans (LayerOne.A_eq (V1 m) c 0))
    _ = W0 m c (Proc.devRef .tc main_arg0) := StableHlo.after_of_writes_sub hostOps0 _ hostOps0_writes (r := main_arg0) (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps1 _ hostOps1_writes (r := main_arg1) (by decide)
    _ = W1 m c (Proc.devRef .tc main_arg1) := (W2_arr m c 2).trans (((LayerOne.dat (V1 m) c).arrAt_in 2 rfl _).trans (LayerOne.A_eq (V1 m) c 2))
    _ = W0 m c (Proc.devRef .tc main_arg1) := StableHlo.after_of_writes_sub hostOps0 _ hostOps0_writes (r := main_arg1) (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_writes_sub hostOps1 _ hostOps1_writes (r := main_arg2) (by decide)
    _ = W1 m c (Proc.devRef .tc main_arg2) := (W2_arr m c 1).trans (((LayerOne.dat (V1 m) c).arrAt_in 1 rfl _).trans (LayerOne.A_eq (V1 m) c 1))
    _ = W0 m c (Proc.devRef .tc main_arg2) := StableHlo.after_of_writes_sub hostOps0 _ hostOps0_writes (r := main_arg2) (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

/-! ## The proof data families and what rides beside the buffers -/

abbrev adm : (p : Fin 2) → (pcfgs (F := F) p).Adm := fun p => (cfgs p).toPCfg_adm
/-- The two calls' exact proof data, each at its entry contents (a literal match on the call). -/
def pdats : (p : Fin 2) → (c : Dev nD) → Dat τ (Elt F) Unit ℕ (UR sig nD τ) ℕ (Pipeline.pin (pcfgs (F := F)) adm p) c
  | ⟨0, _⟩ => fun c => LayerOne.dat (V1 m) c
  | ⟨1, _⟩ => fun c => LayerTwoThree.fdat (V3 m) c
/-- The same read relationally: the first call exactly, the second with its three outputs forgotten. -/
def rdats : (p : Fin 2) → (c : Dev nD) → RDat τ (Elt F) Unit ℕ (UR sig nD τ) ℕ (Pipeline.pin (pcfgs (F := F)) adm p) c
  | ⟨0, _⟩ => fun c => (LayerOne.dat (V1 m) c).toR
  | ⟨1, _⟩ => fun c => (LayerTwoThree.fdat (V3 m) c).toRForget LayerTwoThree.outs
abbrev 𝒱₀ : Variants := Variants.none
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: the second call's arrays at some contents its write-backs allow, every other
    unscoped buffer at the contents it had at that call's entry, the generator register at some state. -/
abbrev Tₙ (c : Dev nD) : sProp 𝕄 :=
  iprop((rdats m 1 c).arraysAt cfg1.N
    ∗ Pipeline.unscopedRest (Ix := Unit) (Name := ℕ) (U := UR sig nD τ) (Lvl := ℕ) spec1 c (V3 m c) ∗ ∃ r, prngReg c r)

/-! ## The calls as segments -/

set_option backward.isDefEq.respectTransparency.types false in
/-- The first call: entered from every unscoped buffer at `W1`, left at `W2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (LayerOne.body_obligation (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((LayerOne.dat (V1 m) c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (rdats m 0 c).Φ (Fin.last _) ⊢ Pipeline.ΦA spec0 c from LayerOne.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((LayerOne.dat (V1 m) c).share_full fun _ => rfl)
      (V1 m c) (V2 m c) ((LayerOne.dat (V1 m) c).arrAt · cfg0.N) (hF0 m c) (hrest0 m c)
    rw [Pipeline.unscopedBufs_held] at hjoin
    have harr : (rdats m 0 c).arraysAt (Pipeline.pin (pcfgs (F := F)) adm 0).N
        ⊢ ((LayerOne.dat (V1 m) c).arrays ((LayerOne.dat (V1 m) c).arrAt · cfg0.N) : sProp 𝕄) :=
      (LayerOne.dat (V1 m) c).toR_arraysAt_post cfg0.N
    iintro ⟨Ha, HO, HY, Hrest⟩
    ihave Ha' := harr $$ Ha
    imodintro
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

set_option backward.isDefEq.respectTransparency.types false in
/-- The second call: entered from every unscoped buffer at `W3`; left with its arrays at some contents and the rest, the
    arguments among it, as entered. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (LayerTwoThree.fbody_obligation (V3 m) c).toRForget
  hwaits := Pipeline.RDat.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((LayerTwoThree.fdat (V3 m) c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.RDat.Seg.run (segs m) := (main_chain c).trans (by chain_rfl)

set_option backward.isDefEq.respectTransparency.types false in
/-- THE FRAME at any float instance: from any memory with zero counters every weakly fair execution of @main terminates,
    nothing faulting, and every final state has the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = V3 m c main_arg0
      ∧ s.mem ((c.tc : Thread nD τ).loc main_arg1) = V3 m c main_arg1
      ∧ s.mem ((c.tc : Thread nD τ).loc main_arg2) = V3 m c main_arg2
      ∧ s.mem ((c.tc : Thread nD τ).loc main_arg3) = V3 m c main_arg3
      ∧ s.mem ((c.tc : Thread nD τ).loc main_arg4) = V3 m c main_arg4
      ∧ s.mem ((c.tc : Thread nD τ).loc main_arg5) = V3 m c main_arg5
      ∧ s.mem ((c.tc : Thread nD τ).loc main_arg6) = V3 m c main_arg6
      ∧ s.mem ((c.tc : Thread nD τ).loc main_arg7) = V3 m c main_arg7)
    (hfin := fun c s' => by
      dsimp only [Tₙ]; rw [unscopedRest1_eq]
      iintro ⟨⟨-, ⟨A0, A1, A2, A3, A4, A5, A6, A7, -, -, -⟩, -⟩, HSI⟩
      icombine HSI A0 gives %h0
      icombine HSI A1 gives %h1
      icombine HSI A2 gives %h2
      icombine HSI A3 gives %h3
      icombine HSI A4 gives %h4
      icombine HSI A5 gives %h5
      icombine HSI A6 gives %h6
      icombine HSI A7 gives %h7
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7⟩
      iexact HSI)
    (hQ := fun s h c =>
      ⟨((h c).1).trans (W3_main_arg0 m c),
        ((h c).2.1).trans (W3_main_arg1 m c),
        ((h c).2.2.1).trans (W3_main_arg2 m c),
        ((h c).2.2.2.1).trans (W3_main_arg3 m c),
        ((h c).2.2.2.2.1).trans (W3_main_arg4 m c),
        ((h c).2.2.2.2.2.1).trans (W3_main_arg5 m c),
        ((h c).2.2.2.2.2.2.1).trans (W3_main_arg6 m c),
        ((h c).2.2.2.2.2.2.2).trans (W3_main_arg7 m c)⟩)

end Cert.Kernel.Frames

end
-- ==== Proof.LayerTwoThree.ExactDefs.lean ====
/-
  The second pallas_call followed exactly: what the three output arrays end holding is named. The arrays `G5`, `G6`, `G7`
  are the targets (the whole second layer, the whole third layer, its row-wise log-softmax) and `Z` the third layer's
  projection the scratch must carry on its first 10000 rows. After the body at a point each output window's staging buffer
  is named on the rows the write-back moves only: the target's block there. What makes that true is stated here as four
  facts about the two cases' runs (the rows inside the array of what a run leaves do not depend on what the adjacency
  window's buffer holds past the array's end), to be proved from the body's arithmetic read at an index.
-/
import proofs.«182206_g44306882625589_cont_8to1_c_1074_19_alg».proof.Proof.LayerTwoThree.FrameBody
import Idealize.ShloMosaic.Lib.ValueIdx

set_option maxRecDepth 16384

noncomputable section

namespace Cert.KernelIdeal.LayerTwoThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VO5 : View sig .tc .vmem S800x64 .f32 := (Memref.whole cc1_stg5_0 : Memref sig .tc .vmem S800x64 .f32).view
abbrev VO6 : View sig .tc .vmem S800x16 .f32 := (Memref.whole cc1_stg6_0 : Memref sig .tc .vmem S800x16 .f32).view
abbrev VO7 : View sig .tc .vmem S800x16 .f32 := (Memref.whole cc1_stg7_0 : Memref sig .tc .vmem S800x16 .f32).view

/-- The adjacency window's buffer at point `t` when it holds `d` past the array's end. -/
abbrev adjAt (c : Dev nD) (t : Fin cfg1.N) (d : S800x10000.Idx → Elt F .bf16) : S800x10000.Idx → Elt F .bf16 :=
  win1_0.fill (grid1.coords t) d (iblk V c 0 t)

/-- The phase-0 run at point `t`, the adjacency buffer padded with `d`, the scratch at `xs`. -/
abbrev secondRun (c : Dev nD) (t : Fin cfg1.N) (h : t.val < 13) (d : S800x10000.Idx → Elt F .bf16) (xs : Vec F S10400x16 .bf16) :=
  runSecond (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) projM (Memref.isWhole_whole _)
    ((inPhase0_iff t).mpr h) (fun hh => by have := (inPhase1_iff t).mp hh; omega) (adjAt V c t d) (iblk V c 1 t) (iblk V c 2 t) (iblk V c 4 t) xs

/-- The phase-1 run at point `t`. -/
abbrev thirdRun (c : Dev nD) (t : Fin cfg1.N) (h : ¬t.val < 13) (d : S800x10000.Idx → Elt F .bf16) (xs : Vec F S10400x16 .bf16) :=
  runThird (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) projM (Memref.isWhole_whole _)
    (fun hh => h ((inPhase0_iff t).mp hh)) ((inPhase1_iff t).mpr (by omega)) (adjAt V c t d) (iblk V c 3 t) xs

/-- What the phase-0 run leaves in the second layer's output buffer (800 rows), -/
def rows2 (c : Dev nD) (t : Fin cfg1.N) (h : t.val < 13) (d : S800x10000.Idx → Elt F .bf16) (xs : Vec F S10400x16 .bf16) : Vec F S800x64 .f32 :=
  VO5.read (Elt F) (VO5.writes (Elt F) VO5.junk (secondRun V c t h d xs).1)
/-- and in the scratch, over its contents `xs`. -/
def scratchAfter (c : Dev nD) (t : Fin cfg1.N) (h : t.val < 13) (d : S800x10000.Idx → Elt F .bf16) (xs : Vec F S10400x16 .bf16) : Vec F S10400x16 .bf16 :=
  (projM : Memref sig .tc .vmem S10400x16 .bf16).view.read (Elt F)
    ((projM : Memref sig .tc .vmem S10400x16 .bf16).view.writes (Elt F) ((Memref.isWhole_whole cc1_scratch0).unread xs) (secondRun V c t h d xs).2.1)
/-- What the phase-1 run leaves in the third layer's output buffer, -/
def rows3 (c : Dev nD) (t : Fin cfg1.N) (h : ¬t.val < 13) (d : S800x10000.Idx → Elt F .bf16) (xs : Vec F S10400x16 .bf16) : Vec F S800x16 .f32 :=
  VO6.read (Elt F) (VO6.writes (Elt F) VO6.junk (thirdRun V c t h d xs).1)
/-- and in the log-softmax's. -/
def lsm3 (c : Dev nD) (t : Fin cfg1.N) (h : ¬t.val < 13) (d : S800x10000.Idx → Elt F .bf16) (xs : Vec F S10400x16 .bf16) : Vec F S800x16 .f32 :=
  VO7.read (Elt F) (VO7.writes (Elt F) VO7.junk (thirdRun V c t h d xs).2.1)

/-- The scratch carries the projection `Z` on the rows below `800·n` that lie among its first 10000. -/
def Carries (Z : Vec F S10400x16 .bf16) (n : ℕ) (xs : Vec F S10400x16 .bf16) : Prop :=
  ∀ (r : Fin 10400) (k : Fin 16), r.val < 800 * n → r.val < 10000 → xs (Idealize.ShloMosaic.ValueIdx.ix2 r k) = Z (Idealize.ShloMosaic.ValueIdx.ix2 r k)

/-- The four facts about the runs (targets `G5 G6 G7` per core, projection `Z` per core): on the rows the write-back moves,
    what a run leaves is the target's block, whatever pads the adjacency buffer; and a phase-0 point extends what the
    scratch carries by its 800 rows. -/
structure RunFacts
    (G5 : (c : Dev nD) → Buf (Elt F) ((cfg1.win 5).arr.view.loc (c.tc : Thread nD τ)))
    (G6 : (c : Dev nD) → Buf (Elt F) ((cfg1.win 6).arr.view.loc (c.tc : Thread nD τ)))
    (G7 : (c : Dev nD) → Buf (Elt F) ((cfg1.win 7).arr.view.loc (c.tc : Thread nD τ)))
    (Z : Dev nD → Vec F S10400x16 .bf16) : Prop where
  second : ∀ c (t : Fin cfg1.N) (h : t.val < 13) d xs,
    (cfg1.win 5).cut (grid1.coords t) (rows2 V c t h d xs) = ((cfg1.win 5).blk t).view.read (Elt F) (G5 c)
  carry : ∀ c (t : Fin cfg1.N) (h : t.val < 13) d xs, Carries (Z c) t.val xs → Carries (Z c) (t.val + 1) (scratchAfter V c t h d xs)
  third : ∀ c (t : Fin cfg1.N) (h : ¬t.val < 13) d xs, Carries (Z c) 13 xs →
    (cfg1.win 6).cut (grid1.coords t) (rows3 V c t h d xs) = ((cfg1.win 6).blk t).view.read (Elt F) (G6 c)
  lsm : ∀ c (t : Fin cfg1.N) (h : ¬t.val < 13) d xs, Carries (Z c) 13 xs →
    (cfg1.win 7).cut (grid1.coords t) (lsm3 V c t h d xs) = ((cfg1.win 7).blk t).view.read (Elt F) (G7 c)

end Cert.KernelIdeal.LayerTwoThree

end
-- ==== Proof.LayerTwoThree.Exact.lean ====
/-
  The second pallas_call's exact proof data and body obligation, from the four facts about its runs. After the body at a
  point: the adjacency window's buffer holds its block on the rows inside the array; the four whole-array inputs their
  blocks; an output window's buffer the TARGET array's block there on the rows the write-back moves (past them the zero
  word, which nothing reads). The scratch is held at SOME contents that carry the projection on the rows written so far
  among the first 10000. An output window is idle in the other phase: its buffer is handed back as found. The second
  layer's window sits on its last block through all of phase 1 and is written back at the very end: what it then holds
  is what phase 0's last point left.
-/
import proofs.«182206_g44306882625589_cont_8to1_c_1074_19_alg».proof.Proof.LayerTwoThree.ExactDefs
import Idealize.ShloMosaic.Lib.Pipeline.Value

set_option maxRecDepth 16384

noncomputable section

namespace Cert.KernelIdeal.LayerTwoThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (G5 : (c : Dev nD) → Buf (Elt F) ((cfg1.win 5).arr.view.loc (c.tc : Thread nD τ)))
    (G6 : (c : Dev nD) → Buf (Elt F) ((cfg1.win 6).arr.view.loc (c.tc : Thread nD τ)))
    (G7 : (c : Dev nD) → Buf (Elt F) ((cfg1.win 7).arr.view.loc (c.tc : Thread nD τ)))
    (Z : Dev nD → Vec F S10400x16 .bf16)

/-- The target's block at point `t` as an output window's buffer holds it: on the moved rows the block, zero elsewhere. -/
def tgtBlk5 (c : Dev nD) (t : Fin cfg1.N) : S800x64.Idx → Elt F .f32 :=
  win1_5.fill (grid1.coords t) (fun _ => Scalar.ofBits .f32 0#32) (((cfg1.win 5).blk t).view.read (Elt F) (G5 c))
def tgtBlk6 (c : Dev nD) (t : Fin cfg1.N) : S800x16.Idx → Elt F .f32 :=
  win1_6.fill (grid1.coords t) (fun _ => Scalar.ofBits .f32 0#32) (((cfg1.win 6).blk t).view.read (Elt F) (G6 c))
def tgtBlk7 (c : Dev nD) (t : Fin cfg1.N) : S800x16.Idx → Elt F .f32 :=
  win1_7.fill (grid1.coords t) (fun _ => Scalar.ofBits .f32 0#32) (((cfg1.win 7).blk t).view.read (Elt F) (G7 c))

/-- The invariant before position `n`: at the start the class's; afterwards the same with the scratch at some contents
    that carry the projection up to `n` row blocks. -/
def PhiV (c : Dev nD) : ℕ → sProp 𝕄
  | 0 => Pipeline.ΦA spec1 c
  | n + 1 => iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ xs, owns (c : Thread nD τ) projM fullShare xs ∗ ⌜Carries (Z c) (n + 1) xs⌝)) ∗ (∃ r, prngReg c r))

theorem PhiV_pos (c : Dev nD) (n : ℕ) (hn : n ≠ 0) :
    PhiV Z c n = iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ xs, owns (c : Thread nD τ) projM fullShare xs ∗ ⌜Carries (Z c) n xs⌝)) ∗ (∃ r, prngReg c r)) := by
  cases n with
  | zero => exact absurd rfl hn
  | succ n => rfl

/-- The exact proof data of the second pallas_call on core `c`. -/
def vdat (c : Dev nD) : Dat τ (Elt F) Unit ℕ (UR sig nD τ) ℕ cfg1 c where
  A w := V c (Pipeline.arrRef spec1 w)
  after w t := match w with
    | ⟨0, _⟩ => adjKept V c t
    | ⟨1, _⟩ => iblk V c 1 t
    | ⟨2, _⟩ => iblk V c 2 t
    | ⟨3, _⟩ => iblk V c 3 t
    | ⟨4, _⟩ => iblk V c 4 t
    | ⟨5, _⟩ => tgtBlk5 G5 c t
    | ⟨6, _⟩ => tgtBlk6 G6 c t
    | ⟨7, _⟩ => tgtBlk7 G7 c t
  Φ t := PhiV Z c t.val
  q _ := fullShare
  owed _ := 0

theorem vA_eq (c : Dev nD) (w : Fin cfg1.W) : (vdat V G5 G6 G7 Z c).A w = V c (Pipeline.arrRef spec1 w) := by
  dsimp only [vdat]
theorem vafter_0 (c : Dev nD) (t : Fin cfg1.N) : (vdat V G5 G6 G7 Z c).after 0 t = adjKept V c t := by dsimp only [vdat]
theorem vafter_1 (c : Dev nD) (t : Fin cfg1.N) : (vdat V G5 G6 G7 Z c).after 1 t = iblk V c 1 t := by dsimp only [vdat]
theorem vafter_2 (c : Dev nD) (t : Fin cfg1.N) : (vdat V G5 G6 G7 Z c).after 2 t = iblk V c 2 t := by dsimp only [vdat]
theorem vafter_3 (c : Dev nD) (t : Fin cfg1.N) : (vdat V G5 G6 G7 Z c).after 3 t = iblk V c 3 t := by dsimp only [vdat]
theorem vafter_4 (c : Dev nD) (t : Fin cfg1.N) : (vdat V G5 G6 G7 Z c).after 4 t = iblk V c 4 t := by dsimp only [vdat]
theorem vafter_5 (c : Dev nD) (t : Fin cfg1.N) : (vdat V G5 G6 G7 Z c).after 5 t = tgtBlk5 G5 c t := by dsimp only [vdat]
theorem vafter_6 (c : Dev nD) (t : Fin cfg1.N) : (vdat V G5 G6 G7 Z c).after 6 t = tgtBlk6 G6 c t := by dsimp only [vdat]
theorem vafter_7 (c : Dev nD) (t : Fin cfg1.N) : (vdat V G5 G6 G7 Z c).after 7 t = tgtBlk7 G7 c t := by dsimp only [vdat]

theorem vbefore_0 (c : Dev nD) (t : Fin cfg1.N) (d) :
    (vdat V G5 G6 G7 Z c).before 0 t d = win1_0.fill (grid1.coords t) d (iblk V c 0 t) := by
  unfold Dat.before; rw [if_pos (fetch1_0 t)]; unfold Dat.fetched Dat.blockOf iblk; rw [vA_eq]
theorem vbefore_1 (c : Dev nD) (t : Fin cfg1.N) (d) : (vdat V G5 G6 G7 Z c).before 1 t d = iblk V c 1 t :=
  ((vdat V G5 G6 G7 Z c).before_in_eq_fetched 1 rfl (fun _ => rfl) (fun _ _ _ => rfl) (fun t => by rw [vafter_1]; unfold Dat.blockOf iblk; rw [vA_eq]; try rfl) t d).trans
    (by unfold Dat.fetched Dat.blockOf iblk; rw [vA_eq]; try rfl)
theorem vbefore_2 (c : Dev nD) (t : Fin cfg1.N) (d) : (vdat V G5 G6 G7 Z c).before 2 t d = iblk V c 2 t :=
  ((vdat V G5 G6 G7 Z c).before_in_eq_fetched 2 rfl (fun _ => rfl) (fun _ _ _ => rfl) (fun t => by rw [vafter_2]; unfold Dat.blockOf iblk; rw [vA_eq]; try rfl) t d).trans
    (by unfold Dat.fetched Dat.blockOf iblk; rw [vA_eq]; try rfl)
theorem vbefore_3 (c : Dev nD) (t : Fin cfg1.N) (d) : (vdat V G5 G6 G7 Z c).before 3 t d = iblk V c 3 t :=
  ((vdat V G5 G6 G7 Z c).before_in_eq_fetched 3 rfl (fun _ => rfl) (fun _ _ _ => rfl) (fun t => by rw [vafter_3]; unfold Dat.blockOf iblk; rw [vA_eq]; try rfl) t d).trans
    (by unfold Dat.fetched Dat.blockOf iblk; rw [vA_eq]; try rfl)
theorem vbefore_4 (c : Dev nD) (t : Fin cfg1.N) (d) : (vdat V G5 G6 G7 Z c).before 4 t d = iblk V c 4 t :=
  ((vdat V G5 G6 G7 Z c).before_in_eq_fetched 4 rfl (fun _ => rfl) (fun _ _ _ => rfl) (fun t => by rw [vafter_4]; unfold Dat.blockOf iblk; rw [vA_eq]; try rfl) t d).trans
    (by unfold Dat.fetched Dat.blockOf iblk; rw [vA_eq]; try rfl)

/-! ## Where the output windows are idle and where they are written back: decided over the 26 points -/

theorem idle5_iff : ∀ t : Fin cfg1.N, cfg1.idle 5 (grid1.coords t) = true ↔ 13 ≤ t.val :=
  (by decide +kernel : ∀ t : Fin grid1.N, cfg1.idle 5 (grid1.coords t) = true ↔ 13 ≤ t.val)
theorem idle6_iff : ∀ t : Fin cfg1.N, cfg1.idle 6 (grid1.coords t) = true ↔ t.val < 13 :=
  (by decide +kernel : ∀ t : Fin grid1.N, cfg1.idle 6 (grid1.coords t) = true ↔ t.val < 13)
theorem idle7_iff : ∀ t : Fin cfg1.N, cfg1.idle 7 (grid1.coords t) = true ↔ t.val < 13 :=
  (by decide +kernel : ∀ t : Fin grid1.N, cfg1.idle 7 (grid1.coords t) = true ↔ t.val < 13)
theorem flush5_iff : ∀ t : Fin cfg1.N, (cfg1.win 5).flush t = true ↔ (t.val < 12 ∨ t.val = 25) :=
  (by decide +kernel : ∀ t : Fin grid1.N, win1_5.flush t = true ↔ (t.val < 12 ∨ t.val = 25))
theorem flush6_iff : ∀ t : Fin cfg1.N, (cfg1.win 6).flush t = true ↔ 13 ≤ t.val :=
  (by decide +kernel : ∀ t : Fin grid1.N, win1_6.flush t = true ↔ 13 ≤ t.val)
theorem flush7_iff : ∀ t : Fin cfg1.N, (cfg1.win 7).flush t = true ↔ 13 ≤ t.val :=
  (by decide +kernel : ∀ t : Fin grid1.N, win1_7.flush t = true ↔ 13 ≤ t.val)
theorem fetch5_none : ∀ t : Fin cfg1.N, (cfg1.win 5).fetch t = false :=
  (by decide +kernel : ∀ t : Fin grid1.N, win1_5.fetch t = false)
/-- Phase 0's last point. -/
abbrev t12 : Fin cfg1.N := ⟨12, by decide⟩

/-- Through phase 1 the second layer's window stays on the block phase 0 ended on, cut the same way. -/
theorem late5_same : ∀ t : Fin cfg1.N, 13 ≤ t.val →
    (cfg1.win 5).index t = (cfg1.win 5).index t12 ∧ (cfg1.win 5).clip (grid1.coords t) = (cfg1.win 5).clip (grid1.coords t12) :=
  (by decide +kernel : ∀ t : Fin grid1.N, 13 ≤ t.val →
    win1_5.index t = win1_5.index ⟨12, by decide⟩ ∧ win1_5.clip (grid1.coords t) = win1_5.clip (grid1.coords ⟨12, by decide⟩))

/-- Two points with one block index and one cut fill a buffer with the target's block alike: they read the same elements
    of the target into the same elements of the buffer. -/
theorem fillTarget_congr (c : Dev nD) {t t' : Fin cfg1.N} (h : (cfg1.win 5).index t = (cfg1.win 5).index t')
    (hc : (cfg1.win 5).clip (grid1.coords t) = (cfg1.win 5).clip (grid1.coords t')) (d : S800x64.Idx → Elt F .f32) :
    win1_5.fill (grid1.coords t) d (((cfg1.win 5).blk t).view.read (Elt F) (G5 c))
      = win1_5.fill (grid1.coords t') d (((cfg1.win 5).blk t').view.read (Elt F) (G5 c)) := by
  funext j
  have hm : (cfg1.win 5).moved (grid1.coords t) j = (cfg1.win 5).moved (grid1.coords t') j := by
    unfold Window.moved; rw [hc]
  unfold Window.fill
  split
  · next hj =>
    rw [dif_pos (hm ▸ hj)]
    rw [View.read_apply, View.read_apply]
    show _root_.cast _ (G5 c ((cfg1.win 5).arr.view.emb (((cfg1.win 5).rect t).emb _)))
      = _root_.cast _ (G5 c ((cfg1.win 5).arr.view.emb (((cfg1.win 5).rect t').emb _)))
    congr 3
    funext a; apply Fin.ext
    rw [Rect.emb_apply, Rect.emb_apply]
    show (cfg1.win 5).index t a * (cfg1.win 5).size a + 1 * (j a).val = (cfg1.win 5).index t' a * (cfg1.win 5).size a + 1 * (j a).val
    rw [h]
  · next hj => rw [dif_neg (hm ▸ hj)]

/-- Through phase 1 the second layer's window holds what phase 0's last point left: the target's last block on the moved
    rows, and past them whatever the buffer held. -/
theorem vbefore_5_late (c : Dev nD) (d : S800x64.Idx → Elt F .f32) :
    ∀ (n : ℕ) (hn : n < cfg1.N), 13 ≤ n →
      (vdat V G5 G6 G7 Z c).before 5 ⟨n, hn⟩ d
        = win1_5.fill (grid1.coords t12) d (((cfg1.win 5).blk t12).view.read (Elt F) (G5 c)) := by
  intro n
  induction n using Nat.strong_induction_on with
  | _ n ih =>
    intro hn h13
    have hN : n < 26 := lt_of_lt_of_eq hn N_1
    rw [(vdat V G5 G6 G7 Z c).before_of_pos 5 ⟨n, hn⟩ (by show n ≠ 0; omega) (fetch5_none _)]
    have hfl : ¬((cfg1.win 5).flush ⟨n - 1, Nat.lt_of_le_of_lt (Nat.sub_le _ _) hn⟩ = true) := by
      rw [flush5_iff]; show ¬(n - 1 < 12 ∨ n - 1 = 25); omega
    rw [if_neg hfl]
    unfold Dat.left
    split
    · next hi =>
      have h := (idle5_iff _).mp hi
      have h' : 13 ≤ n - 1 := h
      exact ih (n - 1) (by omega) _ h'
    · next hi =>
      have hlt : ¬(13 ≤ n - 1) := fun h => by
        have := (idle5_iff (⟨n - 1, Nat.lt_of_le_of_lt (Nat.sub_le _ _) hn⟩ : Fin cfg1.N)).mpr h
        rw [this] at hi; exact Bool.noConfusion hi
      have hn13 : n = 13 := by omega
      subst hn13
      unfold Dat.kept
      rw [vafter_5]; unfold tgtBlk5; rw [win1_5.cut_fill]
      rfl

/-! ## The obligation at a generic point -/

def vbodyPre (c : Dev nD) (t : Fin cfg1.N) : sProp 𝕄 :=
  iprop((vdat V G5 G6 G7 Z c).Φ t.castSucc ∗ (vdat V G5 G6 G7 Z c).owesAt () t.castSucc
    ∗ (∃ d, owns (c : Thread nD τ) (st1_0 t) fullShare ((vdat V G5 G6 G7 Z c).before 0 t d))
    ∗ (∃ d, owns (c : Thread nD τ) (st1_1 t) fullShare ((vdat V G5 G6 G7 Z c).before 1 t d))
    ∗ (∃ d, owns (c : Thread nD τ) (st1_2 t) fullShare ((vdat V G5 G6 G7 Z c).before 2 t d))
    ∗ (∃ d, owns (c : Thread nD τ) (st1_3 t) fullShare ((vdat V G5 G6 G7 Z c).before 3 t d))
    ∗ (∃ d, owns (c : Thread nD τ) (st1_4 t) fullShare ((vdat V G5 G6 G7 Z c).before 4 t d))
    ∗ (∃ d, owns (c : Thread nD τ) (st1_5 t) fullShare ((vdat V G5 G6 G7 Z c).before 5 t d))
    ∗ (∃ d, owns (c : Thread nD τ) (st1_6 t) fullShare ((vdat V G5 G6 G7 Z c).before 6 t d))
    ∗ (∃ d, owns (c : Thread nD τ) (st1_7 t) fullShare ((vdat V G5 G6 G7 Z c).before 7 t d)))

def vbodyPost (c : Dev nD) (t : Fin cfg1.N) : sProp 𝕄 :=
  iprop((vdat V G5 G6 G7 Z c).Φ t.succ ∗ (vdat V G5 G6 G7 Z c).owesAt () t.succ
    ∗ (vdat V G5 G6 G7 Z c).leaves 0 t
    ∗ (vdat V G5 G6 G7 Z c).leaves 1 t
    ∗ (vdat V G5 G6 G7 Z c).leaves 2 t
    ∗ (vdat V G5 G6 G7 Z c).leaves 3 t
    ∗ (vdat V G5 G6 G7 Z c).leaves 4 t
    ∗ (vdat V G5 G6 G7 Z c).leaves 5 t
    ∗ (vdat V G5 G6 G7 Z c).leaves 6 t
    ∗ (vdat V G5 G6 G7 Z c).leaves 7 t)

theorem vPhi_castSucc (c : Dev nD) (t : Fin cfg1.N) : (vdat V G5 G6 G7 Z c).Φ t.castSucc = PhiV Z c t.val := by
  dsimp only [vdat]; simp only [Fin.coe_castSucc]
theorem vPhi_succ (c : Dev nD) (t : Fin cfg1.N) :
    (vdat V G5 G6 G7 Z c).Φ t.succ = iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ xs, owns (c : Thread nD τ) projM fullShare xs ∗ ⌜Carries (Z c) (t.val + 1) xs⌝)) ∗ (∃ r, prngReg c r)) := by
  dsimp only [vdat]; exact PhiV_pos Z c _ (by simp)

/-- The adjacency window and the four whole-array inputs are never idle: what the obligation says of them. -/
theorem vleaves_0 (c : Dev nD) (t : Fin cfg1.N) : (vdat V G5 G6 G7 Z c).leaves 0 t
    = iprop(∃ d, owns (c : Thread nD τ) (st1_0 t) fullShare (win1_0.fill (grid1.coords t) d (win1_0.cut (grid1.coords t) ((vdat V G5 G6 G7 Z c).after 0 t)))) := rfl
theorem vleaves_1 (c : Dev nD) (t : Fin cfg1.N) : (vdat V G5 G6 G7 Z c).leaves 1 t = owns (c : Thread nD τ) (st1_1 t) fullShare ((vdat V G5 G6 G7 Z c).after 1 t) := rfl
theorem vleaves_2 (c : Dev nD) (t : Fin cfg1.N) : (vdat V G5 G6 G7 Z c).leaves 2 t = owns (c : Thread nD τ) (st1_2 t) fullShare ((vdat V G5 G6 G7 Z c).after 2 t) := rfl
theorem vleaves_3 (c : Dev nD) (t : Fin cfg1.N) : (vdat V G5 G6 G7 Z c).leaves 3 t = owns (c : Thread nD τ) (st1_3 t) fullShare ((vdat V G5 G6 G7 Z c).after 3 t) := rfl
theorem vleaves_4 (c : Dev nD) (t : Fin cfg1.N) : (vdat V G5 G6 G7 Z c).leaves 4 t = owns (c : Thread nD τ) (st1_4 t) fullShare ((vdat V G5 G6 G7 Z c).after 4 t) := rfl
/-- An output window where it is live, or written back: the target's block on the moved rows, anything past them. -/
theorem vleaves_5_live (c : Dev nD) (t : Fin cfg1.N) (h : cfg1.idle 5 (grid1.coords t) = false ∨ (cfg1.win 5).flush t = true) :
    (vdat V G5 G6 G7 Z c).leaves 5 t
      = iprop(∃ d, owns (c : Thread nD τ) (st1_5 t) fullShare (win1_5.fill (grid1.coords t) d (((cfg1.win 5).blk t).view.read (Elt F) (G5 c)))) := by
  unfold Dat.leaves
  rcases h with h | h
  · rw [h]; dsimp only; rw [vafter_5]; unfold tgtBlk5; rw [win1_5.cut_fill]
  · cases hi : cfg1.idle 5 (grid1.coords t) <;> simp only [h] <;> (rw [vafter_5]; unfold tgtBlk5; rw [win1_5.cut_fill])
theorem vleaves_6_live (c : Dev nD) (t : Fin cfg1.N) (h : cfg1.idle 6 (grid1.coords t) = false) :
    (vdat V G5 G6 G7 Z c).leaves 6 t
      = iprop(∃ d, owns (c : Thread nD τ) (st1_6 t) fullShare (win1_6.fill (grid1.coords t) d (((cfg1.win 6).blk t).view.read (Elt F) (G6 c)))) := by
  unfold Dat.leaves; rw [h]; dsimp only; rw [vafter_6]; unfold tgtBlk6; rw [win1_6.cut_fill]
theorem vleaves_7_live (c : Dev nD) (t : Fin cfg1.N) (h : cfg1.idle 7 (grid1.coords t) = false) :
    (vdat V G5 G6 G7 Z c).leaves 7 t
      = iprop(∃ d, owns (c : Thread nD τ) (st1_7 t) fullShare (win1_7.fill (grid1.coords t) d (((cfg1.win 7).blk t).view.read (Elt F) (G7 c)))) := by
  unfold Dat.leaves; rw [h]; dsimp only; rw [vafter_7]; unfold tgtBlk7; rw [win1_7.cut_fill]

end Cert.KernelIdeal.LayerTwoThree

end
-- ==== Proof.LayerTwoThree.ExactBody.lean ====
/-
  The second pallas_call's exact body obligation. In phase 0 the run's second-layer rows are, on the moved rows, the
  target's block (so the buffer is that block there and itself elsewhere), and the scratch carries one row block more; in
  phase 1 the same for the third layer's rows and their log-softmax, the scratch untouched. The windows of the other
  phase are handed back as found; the second layer's window, on its last block through phase 1, is written back at the
  very end holding what phase 0's last point left.
-/
import proofs.«182206_g44306882625589_cont_8to1_c_1074_19_alg».proof.Proof.LayerTwoThree.Exact

set_option maxRecDepth 16384

noncomputable section

namespace Cert.KernelIdeal.LayerTwoThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each case cover the output buffers they fill -/

theorem coverSecond_5 (c : Dev nD) (i : grid1.Coords) (arg2 : Memref sig .tc .vmem S800x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S800x64 .f32) (harg7 : arg7.IsWhole) (arg8 : Memref sig .tc .vmem S800x16 .f32) (harg8 : arg8.IsWhole) (arg9 : Memref sig .tc .vmem S800x16 .f32) (harg9 : arg9.IsWhole) (arg10 : Memref sig .tc .vmem S10400x16 .bf16) (harg10 : arg10.IsWhole) (hc1 : inPhase0 i) (hc2 : ¬inPhase1 i)
    (x0 : Vec F S800x10000 .bf16) (x1 : Vec F S10000x64 .bf16) (x2 : Vec F S1x64 .f32) (x4 : Vec F S64x16 .bf16) (xs : Vec F S10400x16 .bf16) (y : S800x64.Idx) :
    ∃ pc ∈ (runSecond (F := F) c i arg2 harg2 arg3 harg3 arg4 harg4 arg5 harg5 arg6 harg6 arg7 harg7 arg8 harg8 arg9 harg9 arg10 harg10 hc1 hc2 x0 x1 x2 x4 xs).1, y ∈ pc.1.set :=
  View.cover_of_tiledL (runSecond (F := F) c i arg2 harg2 arg3 harg3 arg4 harg4 arg5 harg5 arg6 harg6 arg7 harg7 arg8 harg8 arg9 harg9 arg10 harg10 hc1 hc2 x0 x1 x2 x4 xs).1 S800x64.size (by sl_kernel_rfl) y
theorem coverThird_6 (c : Dev nD) (i : grid1.Coords) (arg2 : Memref sig .tc .vmem S800x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S800x64 .f32) (harg7 : arg7.IsWhole) (arg8 : Memref sig .tc .vmem S800x16 .f32) (harg8 : arg8.IsWhole) (arg9 : Memref sig .tc .vmem S800x16 .f32) (harg9 : arg9.IsWhole) (arg10 : Memref sig .tc .vmem S10400x16 .bf16) (harg10 : arg10.IsWhole) (hc1 : ¬inPhase0 i) (hc2 : inPhase1 i)
    (x0 : Vec F S800x10000 .bf16) (x3 : Vec F S1x16 .f32) (xs : Vec F S10400x16 .bf16) (y : S800x16.Idx) :
    ∃ pc ∈ (runThird (F := F) c i arg2 harg2 arg3 harg3 arg4 harg4 arg5 harg5 arg6 harg6 arg7 harg7 arg8 harg8 arg9 harg9 arg10 harg10 hc1 hc2 x0 x3 xs).1, y ∈ pc.1.set :=
  View.cover_of_tiledL (runThird (F := F) c i arg2 harg2 arg3 harg3 arg4 harg4 arg5 harg5 arg6 harg6 arg7 harg7 arg8 harg8 arg9 harg9 arg10 harg10 hc1 hc2 x0 x3 xs).1 S800x16.size (by sl_kernel_rfl) y
theorem coverThird_7 (c : Dev nD) (i : grid1.Coords) (arg2 : Memref sig .tc .vmem S800x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S800x64 .f32) (harg7 : arg7.IsWhole) (arg8 : Memref sig .tc .vmem S800x16 .f32) (harg8 : arg8.IsWhole) (arg9 : Memref sig .tc .vmem S800x16 .f32) (harg9 : arg9.IsWhole) (arg10 : Memref sig .tc .vmem S10400x16 .bf16) (harg10 : arg10.IsWhole) (hc1 : ¬inPhase0 i) (hc2 : inPhase1 i)
    (x0 : Vec F S800x10000 .bf16) (x3 : Vec F S1x16 .f32) (xs : Vec F S10400x16 .bf16) (y : S800x16.Idx) :
    ∃ pc ∈ (runThird (F := F) c i arg2 harg2 arg3 harg3 arg4 harg4 arg5 harg5 arg6 harg6 arg7 harg7 arg8 harg8 arg9 harg9 arg10 harg10 hc1 hc2 x0 x3 xs).2.1, y ∈ pc.1.set :=
  View.cover_of_tiledL (runThird (F := F) c i arg2 harg2 arg3 harg3 arg4 harg4 arg5 harg5 arg6 harg6 arg7 harg7 arg8 harg8 arg9 harg9 arg10 harg10 hc1 hc2 x0 x3 xs).2.1 S800x16.size (by sl_kernel_rfl) y

variable (V : (c : Dev nD) → (b : Ref sig .tc) → Buf (Elt F) ((c : Thread nD τ).loc b))
variable (G5 : (c : Dev nD) → Buf (Elt F) ((cfg1.win 5).arr.view.loc (c.tc : Thread nD τ)))
    (G6 : (c : Dev nD) → Buf (Elt F) ((cfg1.win 6).arr.view.loc (c.tc : Thread nD τ)))
    (G7 : (c : Dev nD) → Buf (Elt F) ((cfg1.win 7).arr.view.loc (c.tc : Thread nD τ)))
    (Z : Dev nD → Vec F S10400x16 .bf16)

/-- Before any point the scratch is at some contents carrying what has been written so far (at the first point: nothing). -/
theorem PhiV_elim (c : Dev nD) (n : ℕ) :
    PhiV Z c n ⊢ iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ xs, owns (c : Thread nD τ) projM fullShare xs ∗ ⌜Carries (Z c) n xs⌝)) ∗ (∃ r, prngReg c r)) := by
  cases n with
  | succ n => exact .rfl
  | zero =>
    rw [show PhiV Z c 0 = Pipeline.ΦA spec1 c from rfl, PhiA_eq]
    iintro ⟨⟨R1, R2, R3, R4, R5, R6, R7, R8, R9, R10, R11, R12, R13, ⟨%xs, HS⟩⟩, Hg⟩
    isplitl [R1 R2 R3 R4 R5 R6 R7 R8 R9 R10 R11 R12 R13 HS]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexists xs; isplitl [HS]; · iexact HS
      ipureintro; intro r k h0 _; omega
    iexact Hg

variable (hR : RunFacts V G5 G6 G7 Z)
include hR

/-- A buffer whose moved rows are the target's block is that block there and itself elsewhere. -/
theorem fill_self5 (c : Dev nD) (t : Fin cfg1.N) (h : t.val < 13) (d) (xs) :
    win1_5.fill (grid1.coords t) (rows2 V c t h d xs) (((cfg1.win 5).blk t).view.read (Elt F) (G5 c)) = rows2 V c t h d xs := by
  have h1 : win1_5.cut (grid1.coords t) (tgtBlk5 G5 c t) = ((cfg1.win 5).blk t).view.read (Elt F) (G5 c) := win1_5.cut_fill _ _ _
  have h3 := win1_5.fill_congr_cut (grid1.coords t) ((hR.second c t h d xs).trans h1.symm)
  rw [h1] at h3; exact h3
theorem fill_self6 (c : Dev nD) (t : Fin cfg1.N) (h : ¬t.val < 13) (d) (xs) (hx : Carries (Z c) 13 xs) :
    win1_6.fill (grid1.coords t) (rows3 V c t h d xs) (((cfg1.win 6).blk t).view.read (Elt F) (G6 c)) = rows3 V c t h d xs := by
  have h1 : win1_6.cut (grid1.coords t) (tgtBlk6 G6 c t) = ((cfg1.win 6).blk t).view.read (Elt F) (G6 c) := win1_6.cut_fill _ _ _
  have h3 := win1_6.fill_congr_cut (grid1.coords t) ((hR.third c t h d xs hx).trans h1.symm)
  rw [h1] at h3; exact h3
theorem fill_self7 (c : Dev nD) (t : Fin cfg1.N) (h : ¬t.val < 13) (d) (xs) (hx : Carries (Z c) 13 xs) :
    win1_7.fill (grid1.coords t) (lsm3 V c t h d xs) (((cfg1.win 7).blk t).view.read (Elt F) (G7 c)) = lsm3 V c t h d xs := by
  have h1 : win1_7.cut (grid1.coords t) (tgtBlk7 G7 c t) = ((cfg1.win 7).blk t).view.read (Elt F) (G7 c) := win1_7.cut_fill _ _ _
  have h3 := win1_7.fill_congr_cut (grid1.coords t) ((hR.lsm c t h d xs hx).trans h1.symm)
  rw [h1] at h3; exact h3

set_option maxHeartbeats 4800000 in
theorem vsound_body (c : Dev nD) (t : Fin cfg1.N) :
    vbodyPre V G5 G6 G7 Z c t ⊢ wp frame (wpE (defs₀ (F := F)) Variants.none c none) Set.univ (bodyAt1 t) (fun _ => vbodyPost V G5 G6 G7 Z c t) := by
  unfold vbodyPre vbodyPost bodyAt1
  simp only [vbefore_0, vbefore_1, vbefore_2, vbefore_3, vbefore_4]
  rw [show (vdat V G5 G6 G7 Z c).owesAt () t.succ = (vdat V G5 G6 G7 Z c).owesAt () t.castSucc from rfl]
  rw [vleaves_0, vleaves_1, vleaves_2, vleaves_3, vleaves_4, vafter_0, vafter_1, vafter_2, vafter_3, vafter_4]
  unfold adjKept
  rw [win1_0.cut_fill, vPhi_castSucc, vPhi_succ]
  refine (sep_mono (PhiV_elim Z c t.val) .rfl).trans ?_
  have hN : t.val < 26 := lt_of_lt_of_eq t.isLt N_1
  by_cases h : t.val < 13
  · -- phase 0
    have hi5 : cfg1.idle 5 (grid1.coords t) = false := by
      rw [Bool.eq_false_iff, ne_eq, idle5_iff]; omega
    have hi6 : cfg1.idle 6 (grid1.coords t) = true := (idle6_iff t).mpr h
    have hi7 : cfg1.idle 7 (grid1.coords t) = true := (idle7_iff t).mpr h
    have hf6 : (cfg1.win 6).flush t = false := by rw [Bool.eq_false_iff, ne_eq, flush6_iff]; omega
    have hf7 : (cfg1.win 7).flush t = false := by rw [Bool.eq_false_iff, ne_eq, flush7_iff]; omega
    rw [vleaves_5_live V G5 G6 G7 Z c t (.inl hi5), Dat.leaves_idle _ 6 t hi6 hf6, Dat.leaves_idle _ 7 t hi7 hf7]
    iintro ⟨⟨⟨R1, R2, R3, R4, R5, R6, R7, R8, R9, R10, R11, R12, R13, ⟨%xs, HS, %hcar⟩⟩, Hg⟩, Ho, ⟨%d0, H0⟩, ⟨%d1, H1⟩, ⟨%d2, H2⟩, ⟨%d3, H3⟩, ⟨%d4, H4⟩, ⟨%d5, H5⟩, H6, H7⟩
    iapply ((secondRun V c t h d0 xs).2.2 Set.univ _)
    isplitl [H0]; · iexact H0
    isplitl [H1]; · iexact H1
    isplitl [H2]; · iexact H2
    isplitl [H4]; · iexact H4
    isplitl [H5]; · iexists _; iexact H5
    isplitl [HS]; · iexact HS
    iintro ⟨H0, H1, H2, H4, ⟨%e5, H5⟩, HS⟩
    isplitl [R1 R2 R3 R4 R5 R6 R7 R8 R9 R10 R11 R12 R13 HS Hg]
    · isplitl [R1 R2 R3 R4 R5 R6 R7 R8 R9 R10 R11 R12 R13 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        iexists (scratchAfter V c t h d0 xs); isplitl [HS]
        · unfold scratchAfter; iapply (owns_intro (c : Thread nD τ) projM fullShare _); iexact HS
        ipureintro; exact hR.carry c t h d0 xs hcar
      iexact Hg
    isplitl [Ho]; · iexact Ho
    isplitl [H0]; · iexists d0; iexact H0
    isplitl [H1]; · iexact H1
    isplitl [H2]; · iexact H2
    isplitl [H3]; · iexact H3
    isplitl [H4]; · iexact H4
    isplitl [H5]
    · iexists (rows2 V c t h d0 xs); rw [fill_self5 V G5 G6 G7 Z hR c t h d0 xs]
      unfold owns; iexists _; isplitr
      swap; · iexact H5
      ipureintro; unfold rows2; exact View.read_writes_of_cover _ _ _ _ _ (coverSecond_5 c _ _ _ _ _ _ _ _ _ _ _ _ _ _ _ _ _ _ _ _ _ _ _ _ _ _)
    isplitl [H6]; · iexact H6
    iexact H7
  · -- phase 1
    have h13 : 13 ≤ t.val := by omega
    have hi5 : cfg1.idle 5 (grid1.coords t) = true := (idle5_iff t).mpr h13
    have hi6 : cfg1.idle 6 (grid1.coords t) = false := by rw [Bool.eq_false_iff, ne_eq, idle6_iff]; omega
    have hi7 : cfg1.idle 7 (grid1.coords t) = false := by rw [Bool.eq_false_iff, ne_eq, idle7_iff]; omega
    rw [vleaves_6_live V G5 G6 G7 Z c t hi6, vleaves_7_live V G5 G6 G7 Z c t hi7]
    have hlast : (vdat V G5 G6 G7 Z c).leaves 5 t ⊣⊢ (vdat V G5 G6 G7 Z c).leaves 5 t := ⟨.rfl, .rfl⟩
    -- the second layer's window: handed back as found, which at the last point is the target's block on the moved rows
    have h5 : iprop(∃ d, owns (c : Thread nD τ) (st1_5 t) fullShare ((vdat V G5 G6 G7 Z c).before 5 t d)) ⊢ (vdat V G5 G6 G7 Z c).leaves 5 t := by
      by_cases h25 : t.val = 25
      · have hf5 : (cfg1.win 5).flush t = true := (flush5_iff t).mpr (.inr h25)
        rw [vleaves_5_live V G5 G6 G7 Z c t (.inr hf5)]
        iintro ⟨%d, H⟩; iexists d
        rw [show (vdat V G5 G6 G7 Z c).before 5 t d = _ from vbefore_5_late V G5 G6 G7 Z c d t.val t.isLt h13,
          ← fillTarget_congr G5 c (late5_same t h13).1 (late5_same t h13).2 d]
        iexact H
      · have hf5 : (cfg1.win 5).flush t = false := by rw [Bool.eq_false_iff, ne_eq, flush5_iff]; omega
        rw [Dat.leaves_idle _ 5 t hi5 hf5]
    iintro ⟨⟨⟨R1, R2, R3, R4, R5, R6, R7, R8, R9, R10, R11, R12, R13, ⟨%xs, HS, %hcar⟩⟩, Hg⟩, Ho, ⟨%d0, H0⟩, ⟨%d1, H1⟩, ⟨%d2, H2⟩, ⟨%d3, H3⟩, ⟨%d4, H4⟩, H5, ⟨%d6, H6⟩, ⟨%d7, H7⟩⟩
    have hc13 : Carries (Z c) 13 xs := fun r k _ h2 => hcar r k (by omega) h2
    iapply ((thirdRun V c t h d0 xs).2.2 Set.univ _)
    isplitl [H0]; · iexact H0
    isplitl [H3]; · iexact H3
    isplitl [HS]; · iexact HS
    isplitl [H6]; · iexists _; iexact H6
    isplitl [H7]; · iexists _; iexact H7
    iintro ⟨H0, H3, HS, ⟨%e6, H6⟩, ⟨%e7, H7⟩⟩
    isplitl [R1 R2 R3 R4 R5 R6 R7 R8 R9 R10 R11 R12 R13 HS Hg]
    · isplitl [R1 R2 R3 R4 R5 R6 R7 R8 R9 R10 R11 R12 R13 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        iexists xs; isplitl [HS]; · iexact HS
        ipureintro; exact fun r k _ h2 => hcar r k (by omega) h2
      iexact Hg
    isplitl [Ho]; · iexact Ho
    isplitl [H0]; · iexists d0; iexact H0
    isplitl [H1]; · iexact H1
    isplitl [H2]; · iexact H2
    isplitl [H3]; · iexact H3
    isplitl [H4]; · iexact H4
    isplitl [H5]; · iapply h5; iexact H5
    isplitl [H6]
    · iexists (rows3 V c t h d0 xs); rw [fill_self6 V G5 G6 G7 Z hR c t h d0 xs hc13]
      unfold owns; iexists _; isplitr
      swap; · iexact H6
      ipureintro; unfold rows3; exact View.read_writes_of_cover _ _ _ _ _ (coverThird_6 c _ _ _ _ _ _ _ _ _ _ _ _ _ _ _ _ _ _ _ _ _ _ _ _)
    iexists (lsm3 V c t h d0 xs); rw [fill_self7 V G5 G6 G7 Z hR c t h d0 xs hc13]
    unfold owns; iexists _; isplitr
    swap; · iexact H7
    ipureintro; unfold lsm3; exact View.read_writes_of_cover _ _ _ _ _ (coverThird_7 c _ _ _ _ _ _ _ _ _ _ _ _ _ _ _ _ _ _ _ _ _ _ _ _)

/-- The library's body obligation (each buffer at what the proof data names on the rows its transfers move). -/
theorem vbody_obligation (c : Dev nD) :
    Pipeline.BodyObligationLoose (vdat (F := F) V G5 G6 G7 Z c) (defs₀ (F := F)) Variants.none () Set.univ := fun t => by
  rw [bigSep_W1, bigSep_W1]
  exact vsound_body V G5 G6 G7 Z hR c t

omit hR in
theorem vhin (c : Dev nD) : Pipeline.ΦA spec1 c ⊢ (vdat V G5 G6 G7 Z c).Φ 0 := by
  rw [show (vdat V G5 G6 G7 Z c).Φ 0 = Pipeline.ΦA spec1 c from rfl]

omit hR in
/-- After the last point the invariant gives the class's back: what the scratch holds is forgotten. -/
theorem vhout (c : Dev nD) : (vdat V G5 G6 G7 Z c).Φ (Fin.last cfg1.N) ⊢ Pipeline.ΦA spec1 c := by
  rw [show (vdat V G5 G6 G7 Z c).Φ (Fin.last cfg1.N) = PhiV Z c (Fin.last cfg1.N).val from rfl,
    PhiV_pos Z c _ (by rw [Fin.val_last]; have : cfg1.N = 26 := N_1; omega), PhiA_eq]
  iintro ⟨⟨R1, R2, R3, R4, R5, R6, R7, R8, R9, R10, R11, R12, R13, ⟨%xs, HS, -⟩⟩, Hg⟩
  isplitl [R1 R2 R3 R4 R5 R6 R7 R8 R9 R10 R11 R12 R13 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexists xs; iexact HS
  iexact Hg

end Cert.KernelIdeal.LayerTwoThree

end
-- ==== Proof.LayerTwoThree.ExactFinal.lean ====
/-
  What the second pallas_call's three result arrays end holding: the targets. Each written-back block is the target's
  block (on the rows the write-back moves, which is all it writes), and the written-back blocks cover the array: the
  second layer's rows 0‥9599 in phase 0's first twelve blocks and rows 9600‥9999 at the very end (the last block, cut
  to the 400 rows inside the array); the third layer's and the log-softmax's in phase 1's thirteen blocks, the last cut.
-/
import proofs.«182206_g44306882625589_cont_8to1_c_1074_19_alg».proof.Proof.LayerTwoThree.Exact

set_option maxRecDepth 16384

noncomputable section

namespace Cert.KernelIdeal.LayerTwoThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (G5 : (c : Dev nD) → Buf (Elt F) ((cfg1.win 5).arr.view.loc (c.tc : Thread nD τ)))
    (G6 : (c : Dev nD) → Buf (Elt F) ((cfg1.win 6).arr.view.loc (c.tc : Thread nD τ)))
    (G7 : (c : Dev nD) → Buf (Elt F) ((cfg1.win 7).arr.view.loc (c.tc : Thread nD τ)))
    (Z : Dev nD → Vec F S10400x16 .bf16)

theorem mem_blk5 (t : Fin cfg1.N) (i : S10000x64.Idx) :
    Iff (i ∈ ((cfg1.win 5).blk t).view.set) (∀ a : Fin 2, win1_5.index t a * win1_5.size a ≤ (i a).val ∧ (i a).val < win1_5.index t a * win1_5.size a + win1_5.xsize (grid1.coords t) a) := by
  show Iff (i ∈ ((View.whole main_v6_0).slice (win1_5.rect t)).set) _
  rw [View.set_slice_whole, Rect.mem_set_unit]
  exact Iff.rfl

theorem mem_blk6 (t : Fin cfg1.N) (i : S10000x16.Idx) :
    Iff (i ∈ ((cfg1.win 6).blk t).view.set) (∀ a : Fin 2, win1_6.index t a * win1_6.size a ≤ (i a).val ∧ (i a).val < win1_6.index t a * win1_6.size a + win1_6.xsize (grid1.coords t) a) := by
  show Iff (i ∈ ((View.whole main_v6_1).slice (win1_6.rect t)).set) _
  rw [View.set_slice_whole, Rect.mem_set_unit]
  exact Iff.rfl

theorem mem_blk7 (t : Fin cfg1.N) (i : S10000x16.Idx) :
    Iff (i ∈ ((cfg1.win 7).blk t).view.set) (∀ a : Fin 2, win1_7.index t a * win1_7.size a ≤ (i a).val ∧ (i a).val < win1_7.index t a * win1_7.size a + win1_7.xsize (grid1.coords t) a) := by
  show Iff (i ∈ ((View.whole main_v6_2).slice (win1_7.rect t)).set) _
  rw [View.set_slice_whole, Rect.mem_set_unit]
  exact Iff.rfl

/-- The second layer's blocks, decided over the 26 points: full width; row block `t` of 800 rows before the twelfth point,
    and at the last point the thirteenth block cut to 400 rows. -/
theorem blk5_facts : ∀ t : Fin cfg1.N,
    win1_5.index t (1 : Fin 2) = 0 ∧ win1_5.xsize (grid1.coords t) (1 : Fin 2) = 64 ∧ win1_5.size (0 : Fin 2) = 800 ∧ win1_5.size (1 : Fin 2) = 64
    ∧ (t.val < 12 → win1_5.index t (0 : Fin 2) = t.val ∧ win1_5.xsize (grid1.coords t) (0 : Fin 2) = 800)
    ∧ (t.val = 25 → win1_5.index t (0 : Fin 2) = 12 ∧ win1_5.xsize (grid1.coords t) (0 : Fin 2) = 400) :=
  (by decide +kernel : ∀ t : Fin grid1.N, _)
/-- The third layer's blocks: in phase 1 row block `t − 13`, 800 rows but for the last, cut to 400. -/
theorem blk6_facts : ∀ t : Fin cfg1.N,
    win1_6.index t (1 : Fin 2) = 0 ∧ win1_6.xsize (grid1.coords t) (1 : Fin 2) = 16 ∧ win1_6.size (0 : Fin 2) = 800 ∧ win1_6.size (1 : Fin 2) = 16
    ∧ (13 ≤ t.val → win1_6.index t (0 : Fin 2) = t.val - 13 ∧ win1_6.xsize (grid1.coords t) (0 : Fin 2) = if t.val = 25 then 400 else 800) :=
  (by decide +kernel : ∀ t : Fin grid1.N, _)
theorem blk7_facts : ∀ t : Fin cfg1.N,
    win1_7.index t (1 : Fin 2) = 0 ∧ win1_7.xsize (grid1.coords t) (1 : Fin 2) = 16 ∧ win1_7.size (0 : Fin 2) = 800 ∧ win1_7.size (1 : Fin 2) = 16
    ∧ (13 ≤ t.val → win1_7.index t (0 : Fin 2) = t.val - 13 ∧ win1_7.xsize (grid1.coords t) (0 : Fin 2) = if t.val = 25 then 400 else 800) :=
  (by decide +kernel : ∀ t : Fin grid1.N, _)

theorem cover5 (i : S10000x64.Idx) : ∃ t : Fin cfg1.N, (cfg1.win 5).flush t = true ∧ i ∈ ((cfg1.win 5).blk t).view.set := by
  have hr : (i 0).val < 10000 := (i 0).isLt
  have hc : (i 1).val < 64 := (i 1).isLt
  by_cases hlt : (i 0).val < 9600
  · have hN : (i 0).val / 800 < cfg1.N := lt_of_lt_of_eq (by omega : (i 0).val / 800 < 26) N_1.symm
    refine ⟨⟨(i 0).val / 800, hN⟩, (flush5_iff _).mpr (.inl (by show (i 0).val / 800 < 12; omega)), ?_⟩
    rw [mem_blk5]
    obtain ⟨e1, e2, s0, s1, e3, -⟩ := blk5_facts ⟨(i 0).val / 800, hN⟩
    obtain ⟨f0, f1⟩ := e3 (by show (i 0).val / 800 < 12; omega)
    intro a
    match a with
    | ⟨0, _⟩ => show win1_5.index _ (0 : Fin 2) * win1_5.size (0 : Fin 2) ≤ (i 0).val ∧ (i 0).val < win1_5.index _ (0 : Fin 2) * win1_5.size (0 : Fin 2) + win1_5.xsize _ (0 : Fin 2); rw [f0, f1, s0]; show (i 0).val / 800 * 800 ≤ _ ∧ _ < (i 0).val / 800 * 800 + 800; omega
    | ⟨1, _⟩ => show win1_5.index _ (1 : Fin 2) * win1_5.size (1 : Fin 2) ≤ (i 1).val ∧ (i 1).val < win1_5.index _ (1 : Fin 2) * win1_5.size (1 : Fin 2) + win1_5.xsize _ (1 : Fin 2); rw [e1, e2, s1]; omega
  · have hN : 25 < cfg1.N := lt_of_lt_of_eq (by omega : 25 < 26) N_1.symm
    refine ⟨⟨25, hN⟩, (flush5_iff _).mpr (.inr rfl), ?_⟩
    rw [mem_blk5]
    obtain ⟨e1, e2, s0, s1, -, e4⟩ := blk5_facts ⟨25, hN⟩
    obtain ⟨f0, f1⟩ := e4 rfl
    intro a
    match a with
    | ⟨0, _⟩ => show win1_5.index _ (0 : Fin 2) * win1_5.size (0 : Fin 2) ≤ (i 0).val ∧ (i 0).val < win1_5.index _ (0 : Fin 2) * win1_5.size (0 : Fin 2) + win1_5.xsize _ (0 : Fin 2); rw [f0, f1, s0]; omega
    | ⟨1, _⟩ => show win1_5.index _ (1 : Fin 2) * win1_5.size (1 : Fin 2) ≤ (i 1).val ∧ (i 1).val < win1_5.index _ (1 : Fin 2) * win1_5.size (1 : Fin 2) + win1_5.xsize _ (1 : Fin 2); rw [e1, e2, s1]; omega

theorem cover6 (i : S10000x16.Idx) : ∃ t : Fin cfg1.N, (cfg1.win 6).flush t = true ∧ i ∈ ((cfg1.win 6).blk t).view.set := by
  have hr : (i 0).val < 10000 := (i 0).isLt
  have hc : (i 1).val < 16 := (i 1).isLt
  have hN : 13 + (i 0).val / 800 < cfg1.N := lt_of_lt_of_eq (by omega : 13 + (i 0).val / 800 < 26) N_1.symm
  refine ⟨⟨13 + (i 0).val / 800, hN⟩, (flush6_iff _).mpr (by show 13 ≤ 13 + (i 0).val / 800; omega), ?_⟩
  rw [mem_blk6]
  obtain ⟨e1, e2, s0, s1, e3⟩ := blk6_facts ⟨13 + (i 0).val / 800, hN⟩
  obtain ⟨f0, f1⟩ := e3 (by show 13 ≤ 13 + (i 0).val / 800; omega)
  intro a
  match a with
  | ⟨0, _⟩ =>
    show win1_6.index _ (0 : Fin 2) * win1_6.size (0 : Fin 2) ≤ (i 0).val ∧ (i 0).val < win1_6.index _ (0 : Fin 2) * win1_6.size (0 : Fin 2) + win1_6.xsize _ (0 : Fin 2)
    rw [f0, f1, s0]
    show (13 + (i 0).val / 800 - 13) * 800 ≤ _ ∧ _ < (13 + (i 0).val / 800 - 13) * 800 + (if 13 + (i 0).val / 800 = 25 then 400 else 800)
    split <;> omega
  | ⟨1, _⟩ => show win1_6.index _ (1 : Fin 2) * win1_6.size (1 : Fin 2) ≤ (i 1).val ∧ (i 1).val < win1_6.index _ (1 : Fin 2) * win1_6.size (1 : Fin 2) + win1_6.xsize _ (1 : Fin 2); rw [e1, e2, s1]; omega

theorem cover7 (i : S10000x16.Idx) : ∃ t : Fin cfg1.N, (cfg1.win 7).flush t = true ∧ i ∈ ((cfg1.win 7).blk t).view.set := by
  have hr : (i 0).val < 10000 := (i 0).isLt
  have hc : (i 1).val < 16 := (i 1).isLt
  have hN : 13 + (i 0).val / 800 < cfg1.N := lt_of_lt_of_eq (by omega : 13 + (i 0).val / 800 < 26) N_1.symm
  refine ⟨⟨13 + (i 0).val / 800, hN⟩, (flush7_iff _).mpr (by show 13 ≤ 13 + (i 0).val / 800; omega), ?_⟩
  rw [mem_blk7]
  obtain ⟨e1, e2, s0, s1, e3⟩ := blk7_facts ⟨13 + (i 0).val / 800, hN⟩
  obtain ⟨f0, f1⟩ := e3 (by show 13 ≤ 13 + (i 0).val / 800; omega)
  intro a
  match a with
  | ⟨0, _⟩ =>
    show win1_7.index _ (0 : Fin 2) * win1_7.size (0 : Fin 2) ≤ (i 0).val ∧ (i 0).val < win1_7.index _ (0 : Fin 2) * win1_7.size (0 : Fin 2) + win1_7.xsize _ (0 : Fin 2)
    rw [f0, f1, s0]
    show (13 + (i 0).val / 800 - 13) * 800 ≤ _ ∧ _ < (13 + (i 0).val / 800 - 13) * 800 + (if 13 + (i 0).val / 800 = 25 then 400 else 800)
    split <;> omega
  | ⟨1, _⟩ => show win1_7.index _ (1 : Fin 2) * win1_7.size (1 : Fin 2) ≤ (i 1).val ∧ (i 1).val < win1_7.index _ (1 : Fin 2) * win1_7.size (1 : Fin 2) + win1_7.xsize _ (1 : Fin 2); rw [e1, e2, s1]; omega

/-- The second layer's array after the run is its target; -/
theorem vfinal5 (c : Dev nD) : (vdat V G5 G6 G7 Z c).arrAt 5 cfg1.N = G5 c :=
  (vdat V G5 G6 G7 Z c).arrAt_eq_of_cover 5 (G5 c)
    (fun t _ => by
      show (cfg1.win 5).cut (grid1.coords t) ((vdat V G5 G6 G7 Z c).after 5 t) = _
      rw [vafter_5]; unfold tgtBlk5; exact win1_5.cut_fill _ _ _)
    cover5
/-- the third layer's its own; -/
theorem vfinal6 (c : Dev nD) : (vdat V G5 G6 G7 Z c).arrAt 6 cfg1.N = G6 c :=
  (vdat V G5 G6 G7 Z c).arrAt_eq_of_cover 6 (G6 c)
    (fun t _ => by
      show (cfg1.win 6).cut (grid1.coords t) ((vdat V G5 G6 G7 Z c).after 6 t) = _
      rw [vafter_6]; unfold tgtBlk6; exact win1_6.cut_fill _ _ _)
    cover6
/-- and the log-softmax's its own. -/
theorem vfinal7 (c : Dev nD) : (vdat V G5 G6 G7 Z c).arrAt 7 cfg1.N = G7 c :=
  (vdat V G5 G6 G7 Z c).arrAt_eq_of_cover 7 (G7 c)
    (fun t _ => by
      show (cfg1.win 7).cut (grid1.coords t) ((vdat V G5 G6 G7 Z c).after 7 t) = _
      rw [vafter_7]; unfold tgtBlk7; exact win1_7.cut_fill _ _ _)
    cover7

end Cert.KernelIdeal.LayerTwoThree

end
-- ==== Proof.ExactRun.lean ====
/-
  The idealized kernel's run with every result named: @main as host stretch, first call, host stretch, second call, both
  calls followed exactly. At the end every unscoped buffer holds the contents the items leave; in particular the second
  call's three result arrays hold their targets, the first call's layer holds what its write-backs left, and no argument
  has moved. The targets of the second call and the four facts about its runs are parameters here.
-/
import proofs.«182206_g44306882625589_cont_8to1_c_1074_19_alg».proof.Proof.Frames
import proofs.«182206_g44306882625589_cont_8to1_c_1074_19_alg».proof.Proof.LayerTwoThree.ExactBody
import proofs.«182206_g44306882625589_cont_8to1_c_1074_19_alg».proof.Proof.LayerTwoThree.ExactFinal

set_option maxRecDepth 16384

noncomputable section

namespace Cert.KernelIdeal.ExactRun

open Cert.KernelIdeal Cert.KernelIdeal.Gen Cert.KernelIdeal.Frames
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (G5 : (c : Dev nD) → Buf (Elt F) ((cfg1.win 5).arr.view.loc (c.tc : Thread nD τ)))
    (G6 : (c : Dev nD) → Buf (Elt F) ((cfg1.win 6).arr.view.loc (c.tc : Thread nD τ)))
    (G7 : (c : Dev nD) → Buf (Elt F) ((cfg1.win 7).arr.view.loc (c.tc : Thread nD τ)))
    (Z : Dev nD → Vec F S10400x16 .bf16)

/-- At the second call's exit: its arrays at what the write-backs leave, every other buffer as entered. -/
def W4 (c : Dev nD) : Valuation τ sig (Elt F) :=
  Pipeline.withArrays spec1 c (W3 m c) fun w => (LayerTwoThree.vdat (V3 m) G5 G6 G7 Z c).arrAt w cfg1.N
theorem W4_arr (c : Dev nD) (w : Fin cfg1.W) :
    W4 m G5 G6 G7 Z c (Proc.devRef .tc (Pipeline.arrRef spec1 w)) = (LayerTwoThree.vdat (V3 m) G5 G6 G7 Z c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m G5 G6 G7 Z c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m G5 G6 G7 Z c b
theorem hF1 (c : Dev nD) (w : Fin cfg1.W) : (LayerTwoThree.vdat (V3 m) G5 G6 G7 Z c).arrAt w cfg1.N = V4 m G5 G6 G7 Z c (Pipeline.arrRef spec1 w) :=
  (W4_arr m G5 G6 G7 Z c w).symm
theorem hrest1 (c : Dev nD) : ∀ b, b ∉ Finset.univ.image (Pipeline.arrRef spec1) → V4 m G5 G6 G7 Z c b = V3 m c b :=
  fun b hb => W4_of_ne m G5 G6 G7 Z c b fun w e => hb (Finset.mem_image.mpr ⟨w, Finset.mem_univ _, e⟩)

/-- The two calls' exact proof data, each at its entry contents. -/
def pdatsE : (p : Fin 2) → (c : Dev nD) → Dat τ (Elt F) Unit ℕ (UR sig nD τ) ℕ (Pipeline.pin (pcfgs (F := F)) Frames.adm p) c
  | ⟨0, _⟩ => fun c => LayerOne.dat (V1 m) c
  | ⟨1, _⟩ => fun c => LayerTwoThree.vdat (V3 m) G5 G6 G7 Z c

abbrev TₙE (c : Dev nD) : sProp 𝕄 := iprop(StableHlo.held (c : Thread nD τ) (Pipeline.ucRefs τ sig) (W4 m G5 G6 G7 Z c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0E : Pipeline.RegionSeg (pcfgs (F := F)) Frames.adm (pdatsE m G5 G6 G7 Z) () defs₀ 𝒱₀ L lv 0 where
  win := launch0.win.to₀
  block_pos := launch0.block_pos
  stage_whole := launch0.stage_whole
  K := PEmpty
  osem k := k.elim
  ho := Pipeline.OwnSemFacts.none _
  hbody c := (LayerOne.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Frames.adm (pdatsE m G5 G6 G7 Z) launch0.win launch0.arr_whole c
      ((pdatsE m G5 G6 G7 Z 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsE m G5 G6 G7 Z 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdatsE m G5 G6 G7 Z 0 c).Φ (Fin.last _) ⊢ Pipeline.ΦA spec0 c from LayerOne.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Frames.adm (Ix := Unit) (Name := ℕ) (U := UR sig nD τ) (Lvl := ℕ)
      launch0.win launch0.arr_whole c (pdatsE m G5 G6 G7 Z) ((pdatsE m G5 G6 G7 Z 0 c).share_full fun _ => rfl)
      (V1 m c) (V2 m c) ((pdatsE m G5 G6 G7 Z 0 c).arrAt · cfg0.N) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

variable (hR : LayerTwoThree.RunFacts (V3 m) G5 G6 G7 Z)

set_option backward.isDefEq.respectTransparency.types false in
def reg1E : Pipeline.RegionSeg (pcfgs (F := F)) Frames.adm (pdatsE m G5 G6 G7 Z) () defs₀ 𝒱₀ L lv 1 where
  win := launch1.win.to₀
  block_pos := launch1.block_pos
  stage_whole := launch1.stage_whole
  K := PEmpty
  osem k := k.elim
  ho := Pipeline.OwnSemFacts.none _
  hbody c := LayerTwoThree.vbody_obligation (V3 m) G5 G6 G7 Z hR c
  hwaits := Pipeline.hwaits_of_owed_zero _ _ _ _ L lv 1 fun _ _ => rfl
  pre c := iprop(StableHlo.held (c : Thread nD τ) (Pipeline.ucRefs τ sig) (W3 m c) ∗ R c)
  post c := iprop(TₙE m G5 G6 G7 Z c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) Frames.adm (pdatsE m G5 G6 G7 Z) launch1.win launch1.arr_whole c
      ((pdatsE m G5 G6 G7 Z 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsE m G5 G6 G7 Z 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsE m G5 G6 G7 Z 1 c).Φ (Fin.last _) ⊢ Pipeline.ΦA spec1 c from LayerTwoThree.vhout (V3 m) G5 G6 G7 Z c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Frames.adm (Ix := Unit) (Name := ℕ) (U := UR sig nD τ) (Lvl := ℕ)
      launch1.win launch1.arr_whole c (pdatsE m G5 G6 G7 Z) ((pdatsE m G5 G6 G7 Z 1 c).share_full fun _ => rfl)
      (V3 m c) (V4 m G5 G6 G7 Z c) ((pdatsE m G5 G6 G7 Z 1 c).arrAt · cfg1.N) (hF1 m G5 G6 G7 Z c) (hrest1 m G5 G6 G7 Z c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

abbrev segsE : List (Pipeline.Seg (pcfgs (F := F)) Frames.adm (pdatsE m G5 G6 G7 Z) () defs₀ 𝒱₀ L lv) :=
  [ .host (hseg hostOps0 hostOps0_sub hostOps0_fresh (W0 m)),
    .region (reg0E m G5 G6 G7 Z),
    .host (hseg hostOps1 hostOps1_sub hostOps1_fresh (W2 m)),
    .region (reg1E m G5 G6 G7 Z hR) ]

theorem main_runE (c : Dev nD) : main (F := F) c = Pipeline.Seg.run (segsE m G5 G6 G7 Z hR) := (main_chain c).trans (by chain_rfl)

include hR in
set_option backward.isDefEq.respectTransparency.types false in
/-- THE RUN WITH EVERY BUFFER NAMED: from any memory with zero counters every weakly fair execution of @main terminates,
    nothing faulting, and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m G5 G6 G7 Z c b) :=
  Pipeline.θ_run_regions_kit (pcfgs (F := F)) Frames.adm (pdatsE m G5 G6 G7 Z) () cellOf_inj emb₁ defs₀ 𝒱₀ L lv m ρ main (segsE m G5 G6 G7 Z hR)
    (fun c Q => by rw [main_runE m G5 G6 G7 Z hR c])
    (by simp only [segsE, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := TₙE m G5 G6 G7 Z)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m G5 G6 G7 Z c b)
    (hfin := fun c s' => by
      iintro ⟨⟨Hh, -⟩, HSI⟩
      unfold StableHlo.held
      imodintro
      iapply (pointsTo_read_all (Pipeline.ucRefs τ sig) (fun b => (((c : Thread nD τ)).1, b)) (W4 m G5 G6 G7 Z c) s')
      isplitl [Hh] <;> iassumption)
    (hQ := fun s h c => h c)

/-! ## The results and the arguments, read off the last boundary -/

theorem W4_v6_0 (c : Dev nD) : W4 m G5 G6 G7 Z c (Proc.devRef .tc main_v6_0) = G5 c :=
  (W4_arr m G5 G6 G7 Z c 5).trans (LayerTwoThree.vfinal5 (V3 m) G5 G6 G7 Z c)
theorem W4_v6_1 (c : Dev nD) : W4 m G5 G6 G7 Z c (Proc.devRef .tc main_v6_1) = G6 c :=
  (W4_arr m G5 G6 G7 Z c 6).trans (LayerTwoThree.vfinal6 (V3 m) G5 G6 G7 Z c)
theorem W4_v6_2 (c : Dev nD) : W4 m G5 G6 G7 Z c (Proc.devRef .tc main_v6_2) = G7 c :=
  (W4_arr m G5 G6 G7 Z c 7).trans (LayerTwoThree.vfinal7 (V3 m) G5 G6 G7 Z c)
/-- The first layer's array is not among the second call's arrays and no later host operation writes it. -/
theorem W4_v2_0 (c : Dev nD) : W4 m G5 G6 G7 Z c (Proc.devRef .tc main_v2_0) = (LayerOne.dat (V1 m) c).arrAt 5 cfg0.N :=
  calc W4 m G5 G6 G7 Z c (Proc.devRef .tc main_v2_0)
    _ = W3 m c (Proc.devRef .tc main_v2_0) := W4_of_ne m G5 G6 G7 Z c main_v2_0 (by decide)
    _ = W2 m c (Proc.devRef .tc main_v2_0) := StableHlo.after_of_writes_sub hostOps1 _ hostOps1_writes (r := main_v2_0) (by decide)
    _ = (LayerOne.dat (V1 m) c).arrAt 5 cfg0.N := W2_arr m c 5
theorem W4_main_arg0 (c : Dev nD) : W4 m G5 G6 G7 Z c (Proc.devRef .tc main_arg0) = m ((c : Thread nD τ).loc main_arg0) :=
  (W4_of_ne m G5 G6 G7 Z c main_arg0 (by decide)).trans (W3_main_arg0 m c)
theorem W4_main_arg1 (c : Dev nD) : W4 m G5 G6 G7 Z c (Proc.devRef .tc main_arg1) = m ((c : Thread nD τ).loc main_arg1) :=
  (W4_of_ne m G5 G6 G7 Z c main_arg1 (by decide)).trans (W3_main_arg1 m c)
theorem W4_main_arg2 (c : Dev nD) : W4 m G5 G6 G7 Z c (Proc.devRef .tc main_arg2) = m ((c : Thread nD τ).loc main_arg2) :=
  (W4_of_ne m G5 G6 G7 Z c main_arg2 (by decide)).trans (W3_main_arg2 m c)
theorem W4_main_arg3 (c : Dev nD) : W4 m G5 G6 G7 Z c (Proc.devRef .tc main_arg3) = m ((c : Thread nD τ).loc main_arg3) :=
  (W4_of_ne m G5 G6 G7 Z c main_arg3 (by decide)).trans (W3_main_arg3 m c)
theorem W4_main_arg4 (c : Dev nD) : W4 m G5 G6 G7 Z c (Proc.devRef .tc main_arg4) = m ((c : Thread nD τ).loc main_arg4) :=
  (W4_of_ne m G5 G6 G7 Z c main_arg4 (by decide)).trans (W3_main_arg4 m c)
theorem W4_main_arg5 (c : Dev nD) : W4 m G5 G6 G7 Z c (Proc.devRef .tc main_arg5) = m ((c : Thread nD τ).loc main_arg5) :=
  (W4_of_ne m G5 G6 G7 Z c main_arg5 (by decide)).trans (W3_main_arg5 m c)
theorem W4_main_arg6 (c : Dev nD) : W4 m G5 G6 G7 Z c (Proc.devRef .tc main_arg6) = m ((c : Thread nD τ).loc main_arg6) :=
  (W4_of_ne m G5 G6 G7 Z c main_arg6 (by decide)).trans (W3_main_arg6 m c)
theorem W4_main_arg7 (c : Dev nD) : W4 m G5 G6 G7 Z c (Proc.devRef .tc main_arg7) = m ((c : Thread nD τ).loc main_arg7) :=
  (W4_of_ne m G5 G6 G7 Z c main_arg7 (by decide)).trans (W3_main_arg7 m c)

end Cert.KernelIdeal.ExactRun

end
-- ==== Proof.Spec.lean ====
/-
  The specification: a three-layer graph convolution followed by a row-wise log-softmax, as functions of the eight
  argument arrays over the extended reals, index by index.

  With x : [10000,128], adj : [10000,10000], W1 : [128,64], b1 : [64], W2 : [64,64], b2 : [64], W3 : [64,16], b3 : [16]:
    P1 = x·W1,            H1 = adj·P1 + b1,
    P2 = relu(H1)·W2,     H2 = adj·P2 + b2,
    P3 = relu(H2)·W3,     H3 = adj·P3 + b3,
  where relu a = max a 0 and every product of matrices is the sum over the contracted coordinate, written with the left
  factor first. The row maximum of an array h : [10000,16] is the maximum over its 16 columns, folded from -∞. The
  log-softmax of h along its rows is written in two arrangements:
    lsmK h (r,c) = h(r,c) - (log (Σ_k exp (h(r,k) - m r)) + m r),
    lsmR h (r,c) = (h(r,c) - m r) - log (Σ_k exp (h(r,k) - m r)),          m r the row maximum.
  They are the same function wherever h is real-valued; on the extended reals they are kept apart.
  The four results are OutK or OutR (the log-softmax of H3), H1, H2, H3.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-! ## The shapes, as literals -/

abbrev Sx : Shape := ⟨2, ![10000, 128]⟩
abbrev Sadj : Shape := ⟨2, ![10000, 10000]⟩
abbrev Sw1 : Shape := ⟨2, ![128, 64]⟩
abbrev Sb64 : Shape := ⟨1, ![64]⟩
abbrev Sw2 : Shape := ⟨2, ![64, 64]⟩
abbrev Sw3 : Shape := ⟨2, ![64, 16]⟩
abbrev Sb16 : Shape := ⟨1, ![16]⟩
abbrev Sh : Shape := ⟨2, ![10000, 64]⟩
abbrev So : Shape := ⟨2, ![10000, 16]⟩

/-! ## The three layers -/

/-- x·W1: entry (r,c) is the sum over k of x(r,k)·W1(k,c). -/
def P1 (x : Sx.Idx → EReal) (W1 : Sw1.Idx → EReal) : Sh.Idx → EReal := fun i =>
  ∑ k : Fin 128, x (ix2 (i 0) k) * W1 (ix2 k (i 1))

/-- adj·P1 + b1: entry (r,c) is the sum over j of adj(r,j)·P1(j,c), plus b1(c). -/
def H1 (x : Sx.Idx → EReal) (adj : Sadj.Idx → EReal) (W1 : Sw1.Idx → EReal) (b1 : Sb64.Idx → EReal) : Sh.Idx → EReal := fun i =>
  (∑ j : Fin 10000, adj (ix2 (i 0) j) * P1 x W1 (ix2 j (i 1))) + b1 (ix1 (i 1))

/-- relu(H1)·W2. -/
def P2 (x : Sx.Idx → EReal) (adj : Sadj.Idx → EReal) (W1 : Sw1.Idx → EReal) (b1 : Sb64.Idx → EReal)
    (W2 : Sw2.Idx → EReal) : Sh.Idx → EReal := fun i =>
  ∑ k : Fin 64, max (H1 x adj W1 b1 (ix2 (i 0) k)) 0 * W2 (ix2 k (i 1))

/-- adj·P2 + b2. -/
def H2 (x : Sx.Idx → EReal) (adj : Sadj.Idx → EReal) (W1 : Sw1.Idx → EReal) (b1 : Sb64.Idx → EReal)
    (W2 : Sw2.Idx → EReal) (b2 : Sb64.Idx → EReal) : Sh.Idx → EReal := fun i =>
  (∑ j : Fin 10000, adj (ix2 (i 0) j) * P2 x adj W1 b1 W2 (ix2 j (i 1))) + b2 (ix1 (i 1))

/-- relu(H2)·W3. -/
def P3 (x : Sx.Idx → EReal) (adj : Sadj.Idx → EReal) (W1 : Sw1.Idx → EReal) (b1 : Sb64.Idx → EReal)
    (W2 : Sw2.Idx → EReal) (b2 : Sb64.Idx → EReal) (W3 : Sw3.Idx → EReal) : So.Idx → EReal := fun i =>
  ∑ k : Fin 64, max (H2 x adj W1 b1 W2 b2 (ix2 (i 0) k)) 0 * W3 (ix2 k (i 1))

/-- adj·P3 + b3. -/
def H3 (x : Sx.Idx → EReal) (adj : Sadj.Idx → EReal) (W1 : Sw1.Idx → EReal) (b1 : Sb64.Idx → EReal)
    (W2 : Sw2.Idx → EReal) (b2 : Sb64.Idx → EReal) (W3 : Sw3.Idx → EReal) (b3 : Sb16.Idx → EReal) : So.Idx → EReal := fun i =>
  (∑ j : Fin 10000, adj (ix2 (i 0) j) * P3 x adj W1 b1 W2 b2 W3 (ix2 j (i 1))) + b3 (ix1 (i 1))

/-! ## The row-wise log-softmax, in two arrangements -/

/-- The maximum of row r of h over its 16 columns, folded from -∞. -/
def rowMax (h : So.Idx → EReal) (r : Fin 10000) : EReal :=
  (Finset.univ : Finset (Fin 16)).fold max ⊥ (fun k => h (ix2 r k))

/-- The sum over the columns k of row r of exp (h(r,k) - m). -/
def rowSumExp (h : So.Idx → EReal) (r : Fin 10000) (m : EReal) : EReal :=
  ∑ k : Fin 16, Ideal.exp (h (ix2 r k) - m)

/-- h - (log Σ exp (h - m) + m). -/
def lsmK (h : So.Idx → EReal) : So.Idx → EReal := fun i =>
  h i - (Ideal.log (rowSumExp h (i 0) (rowMax h (i 0))) + rowMax h (i 0))

/-- (h - m) - log Σ exp (h - m). -/
def lsmR (h : So.Idx → EReal) : So.Idx → EReal := fun i =>
  (h i - rowMax h (i 0)) - Ideal.log (rowSumExp h (i 0) (rowMax h (i 0)))

/-- The row maximum of H3. -/
def M (x : Sx.Idx → EReal) (adj : Sadj.Idx → EReal) (W1 : Sw1.Idx → EReal) (b1 : Sb64.Idx → EReal)
    (W2 : Sw2.Idx → EReal) (b2 : Sb64.Idx → EReal) (W3 : Sw3.Idx → EReal) (b3 : Sb16.Idx → EReal) (r : Fin 10000) : EReal :=
  rowMax (H3 x adj W1 b1 W2 b2 W3 b3) r

/-- The log-softmax of H3 in the first arrangement. -/
def OutK (x : Sx.Idx → EReal) (adj : Sadj.Idx → EReal) (W1 : Sw1.Idx → EReal) (b1 : Sb64.Idx → EReal)
    (W2 : Sw2.Idx → EReal) (b2 : Sb64.Idx → EReal) (W3 : Sw3.Idx → EReal) (b3 : Sb16.Idx → EReal) : So.Idx → EReal :=
  lsmK (H3 x adj W1 b1 W2 b2 W3 b3)

/-- The log-softmax of H3 in the second arrangement. -/
def OutR (x : Sx.Idx → EReal) (adj : Sadj.Idx → EReal) (W1 : Sw1.Idx → EReal) (b1 : Sb64.Idx → EReal)
    (W2 : Sw2.Idx → EReal) (b2 : Sb64.Idx → EReal) (W3 : Sw3.Idx → EReal) (b3 : Sb16.Idx → EReal) : So.Idx → EReal :=
  lsmR (H3 x adj W1 b1 W2 b2 W3 b3)

/-! ## The definitions read at an index -/

section
variable (x : Sx.Idx → EReal) (adj : Sadj.Idx → EReal) (W1 : Sw1.Idx → EReal) (b1 : Sb64.Idx → EReal)
  (W2 : Sw2.Idx → EReal) (b2 : Sb64.Idx → EReal) (W3 : Sw3.Idx → EReal) (b3 : Sb16.Idx → EReal)

theorem P1_apply (r : Fin 10000) (c : Fin 64) :
    P1 x W1 (ix2 r c) = ∑ k : Fin 128, x (ix2 r k) * W1 (ix2 k c) := rfl
theorem H1_apply (r : Fin 10000) (c : Fin 64) :
    H1 x adj W1 b1 (ix2 r c) = (∑ j : Fin 10000, adj (ix2 r j) * P1 x W1 (ix2 j c)) + b1 (ix1 c) := rfl
theorem P2_apply (r : Fin 10000) (c : Fin 64) :
    P2 x adj W1 b1 W2 (ix2 r c) = ∑ k : Fin 64, max (H1 x adj W1 b1 (ix2 r k)) 0 * W2 (ix2 k c) := rfl
theorem H2_apply (r : Fin 10000) (c : Fin 64) :
    H2 x adj W1 b1 W2 b2 (ix2 r c) = (∑ j : Fin 10000, adj (ix2 r j) * P2 x adj W1 b1 W2 (ix2 j c)) + b2 (ix1 c) := rfl
theorem P3_apply (r : Fin 10000) (c : Fin 16) :
    P3 x adj W1 b1 W2 b2 W3 (ix2 r c) = ∑ k : Fin 64, max (H2 x adj W1 b1 W2 b2 (ix2 r k)) 0 * W3 (ix2 k c) := rfl
theorem H3_apply (r : Fin 10000) (c : Fin 16) :
    H3 x adj W1 b1 W2 b2 W3 b3 (ix2 r c)
      = (∑ j : Fin 10000, adj (ix2 r j) * P3 x adj W1 b1 W2 b2 W3 (ix2 j c)) + b3 (ix1 c) := rfl
theorem lsmK_apply (h : So.Idx → EReal) (r : Fin 10000) (c : Fin 16) :
    lsmK h (ix2 r c) = h (ix2 r c) - (Ideal.log (∑ k : Fin 16, Ideal.exp (h (ix2 r k) - rowMax h r)) + rowMax h r) := rfl
theorem lsmR_apply (h : So.Idx → EReal) (r : Fin 10000) (c : Fin 16) :
    lsmR h (ix2 r c) = (h (ix2 r c) - rowMax h r) - Ideal.log (∑ k : Fin 16, Ideal.exp (h (ix2 r k) - rowMax h r)) := rfl

end

/-! ## Two literals -/

/-- The pattern of -∞ denotes the bottom of the extended reals. -/
theorem ofBits_negInf : Ideal.ofBits .f32 0xFF800000#32 = (⊥ : EReal) := by simp [Ideal.ofBits, Ideal.ieee]

/-- The pattern of +0 denotes zero. -/
theorem ofBits_zero : Ideal.ofBits .f32 0x00000000#32 = (0 : EReal) := Ideal.ofBits_zero_f32

end Cert.Gcn

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibRowMax.lean ====
/-
  GENERAL LEMMA: the largest entry of each row of a rank-2 array — what `max(x, axis=-1)` becomes in a vector
  program — read at an index given by coordinates.
  • `multiReduction_maximumf_axis1_apply`: the lane maximum of an `[a, b]` array of extended reals, folded from the
    accumulator's word, at `i`, is the maximum over `k` of the entries `(i, k)` of row `i`, folded from that word's value.
-/
import Idealize.ShloMosaic.Lib.ValueIdx
import Idealize.ShloMosaic.PureOps.Ideal.Laws

noncomputable section

namespace Idealize.ShloMosaic.ValueIdx

open Idealize.ShloMosaic

/-- The lane maximum of an `[a, b]` array of extended reals: at `i` it is the fold of `max`, from the accumulator word's
    value, over the entries of row `i`. -/
theorem multiReduction_maximumf_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine congrArg (fun f => Finset.fold max (Ideal.ofBits .f32 acc) f (Finset.univ : Finset (Fin b))) (funext fun k => congrArg src ?_)
  funext c
  match c with
  | ⟨0, _⟩ => exact Fin.ext rfl
  | ⟨1, _⟩ => exact Fin.ext rfl

end Idealize.ShloMosaic.ValueIdx

end
-- ==== Proof.Payload0.lean ====
/-
  The first body's four values read at an entry, on the extended reals.

  Each value is a product of two matrices (entry (r, c) the sum over the contracted coordinate of left (r, k) · right (k, c)),
  possibly followed by a bias row added to every row, or preceded by a maximum with zero taken entry by entry. A change of
  number format is the identity on the extended reals, and a cast of a shape to itself is the identity.
-/
import proofs.«182206_g44306882625589_cont_8to1_c_1074_19_alg».proof.Proof.Gen.KernelIdeal.Skeleton
import proofs.«182206_g44306882625589_cont_8to1_c_1074_19_alg».proof.Proof.Spec
import proofs.«182206_g44306882625589_cont_8to1_c_1074_19_alg».proof.Proof.LibPlainDot
import proofs.«182206_g44306882625589_cont_8to1_c_1074_19_alg».proof.Proof.LibKeepdims
import proofs.«182206_g44306882625589_cont_8to1_c_1074_19_alg».proof.Proof.LibRowMax
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.Pay

open Cert.KernelIdeal Cert.KernelIdeal.Gen Idealize.ShloMosaic Idealize.ShloMosaic.ValueIdx

/-- The second value: a change of format only. -/
theorem pay2_eq (a : Vec Ideal S400x10000 .f32) : k0_pay2 (F := Ideal) a = a := rfl

/-- The third value at (r, c): row r of the first operand against column c of the second, plus the bias at c. -/
theorem pay3_apply (a : Vec Ideal S400x10000 .f32) (z : Vec Ideal S10000x64 .bf16) (b : Vec Ideal S1x64 .f32)
    (r : Fin 400) (c : Fin 64) :
    k0_pay3 (F := Ideal) a z b (ix2 r c) = (∑ j : Fin 10000, a (ix2 r j) * z (ix2 j c)) + b (ix2 0 c) := by
  unfold k0_pay3
  rw [pay2_eq]
  refine (addf_apply _ _ _).trans ?_
  refine congrArg₂ (· + ·) ?_ ?_
  · exact PlainDot.matmul_zero_apply dot_S400x10000_S10000x64_S400x64_1_0_0_1_n_n rfl none a z (ix2 r c)
  · refine (broadcastTo_1b_ab_apply _ _ r c).trans ?_
    rw [shapeCast_self]

/-- The first value at (r, c): row r of the features against column c of the weights. -/
theorem pay1_apply (x : Vec Ideal S10000x128 .f32) (w : Vec Ideal S128x64 .f32) (r : Fin 10000) (c : Fin 64) :
    k0_pay1 (F := Ideal) x w (ix2 r c) = ∑ k : Fin 128, x (ix2 r k) * w (ix2 k c) := by
  unfold k0_pay1
  simp only [shapeCast_self]
  exact PlainDot.matmul_zero_apply (φ₁ := .f32) (φ₂ := .f32) dot_S10000x128_S128x64_S10000x64_1_0_0_1_n_n rfl none x w (ix2 r c)

/-- The fourth value at (r, c): the third value's row r, cut off below at zero, against column c of the weights. -/
theorem pay4_apply (a : Vec Ideal S400x10000 .f32) (z : Vec Ideal S10000x64 .bf16) (b : Vec Ideal S1x64 .f32)
    (w : Vec Ideal S64x64 .bf16) (r : Fin 400) (c : Fin 64) :
    k0_pay4 (F := Ideal) a z b w (ix2 r c)
      = ∑ k : Fin 64, max (k0_pay3 (F := Ideal) a z b (ix2 r k)) 0 * w (ix2 k c) := by
  unfold k0_pay4
  simp only [shapeCast_self]
  have e := PlainDot.matmul_zero_apply (φ₁ := .bf16) (φ₂ := .bf16) dot_S400x64_S64x64_S400x64_1_0_0_1_n_n rfl none
    (truncf .bf16 (maximumf (k0_pay3 (F := Ideal) a z b) (broadcast S400x64 (Scalar.ofBits (F := Ideal) .f32 0x00000000#32)))
      bitsLt_bf16_f32) w (ix2 r c)
  refine Eq.trans e ?_
  refine Finset.sum_congr rfl fun k _ => ?_
  refine congrArg₂ (· * ·) ?_ rfl
  show max (k0_pay3 (F := Ideal) a z b (ix2 r k)) (Ideal.ofBits .f32 0x00000000#32) = _
  rw [Cert.Gcn.ofBits_zero]

/-! ## The third and fourth values at row r read the first operand only through its row r -/

theorem pay3_congr (a a' : Vec Ideal S400x10000 .f32) (z : Vec Ideal S10000x64 .bf16) (b : Vec Ideal S1x64 .f32)
    (r : Fin 400) (c : Fin 64) (h : ∀ j : Fin 10000, a (ix2 r j) = a' (ix2 r j)) :
    k0_pay3 (F := Ideal) a z b (ix2 r c) = k0_pay3 (F := Ideal) a' z b (ix2 r c) := by
  rw [pay3_apply, pay3_apply]
  exact congrArg (· + b (ix2 0 c)) (Finset.sum_congr rfl fun j _ => by rw [h j])

theorem pay4_congr (a a' : Vec Ideal S400x10000 .f32) (z : Vec Ideal S10000x64 .bf16) (b : Vec Ideal S1x64 .f32)
    (w : Vec Ideal S64x64 .bf16) (r : Fin 400) (c : Fin 64) (h : ∀ j : Fin 10000, a (ix2 r j) = a' (ix2 r j)) :
    k0_pay4 (F := Ideal) a z b w (ix2 r c) = k0_pay4 (F := Ideal) a' z b w (ix2 r c) := by
  rw [pay4_apply, pay4_apply]
  exact Finset.sum_congr rfl fun k _ => by rw [pay3_congr a a' z b r k h]

end Cert.Gcn.Pay

end
-- ==== Proof.LayerOne.Values.lean ====
/-
  What the first pallas_call's three result arrays end holding, on the extended reals, for any contents of the
  TensorCore's buffers at region entry.

  With x, adj, W1, the bias row b1 and the next weights W2 read off those contents:
    the first array is  adj·(x·W1) + b1,  entry (r, c) = Σ_j adj(r,j)·(Σ_k x(j,k)·W1(k,c)) + b1(c);
    the second is adj itself (a change of format keeps the extended real);
    the third is  relu(first)·W2,  entry (r, c) = Σ_k max (first(r,k)) 0 · W2(k,c).
  The steps: what each case of the body leaves in a buffer is one store's value of the blocks it loaded (and of the
  carried product x·W1, which the first point forms and every later point reads back); the blocks are the arrays read
  through the windows (block t of the adjacency and of each output is rows 400·t … 400·t + 399; the others are whole);
  each value read at an entry is a sum; the 25 blocks cover the 10000 rows.
-/
import proofs.«182206_g44306882625589_cont_8to1_c_1074_19_alg».proof.Proof.LayerOne.Data
import proofs.«182206_g44306882625589_cont_8to1_c_1074_19_alg».proof.Proof.Payload0
import Idealize.ShloMosaic.Lib.Pipeline.Value
import Idealize.ShloMosaic.Lib.ValueIdx

set_option maxRecDepth 16384

noncomputable section

namespace Cert.KernelIdeal.LayerOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

section Pieces
variable (V : (c : Dev nD) → (b : Ref sig .tc) → Buf (Elt F) ((c : Thread nD τ).loc b))

theorem hz : (![0, 0] : Fin 2 → Nat) = fun _ => 0 := funext fun a => by fin_cases a <;> rfl

/-- The scratch carries the product of the first two whole arrays. -/
theorem proj_eq (c : Dev nD) : proj V c = k0_pay1 (iblk V c 0 t₀) (iblk V c 1 t₀) := by
  unfold proj
  rw [View.read_writes_junk_eq_canon]
  unfold firstRun runFirst
  dsimp only
  sl_unfold_words
  rw [View.canon_unit_zero hz]
  simp only [View.readAt_eq_ld, Memref.IsWhole.read_unread, View.ld_unit_zero (S := S10000x128) hz, View.ld_unit_zero (S := S128x64) hz]

/-- At every point the first output block is the third value of the point's adjacency block, the carried product and the bias. -/
theorem rowsOut_eq (c : Dev nD) (t : Fin cfg0.N) :
    rowsOut V c t = k0_pay3 (iblk V c 2 t) (proj V c) (iblk V c 3 t) := by
  unfold rowsOut
  by_cases h : t.val = 0
  · rw [dif_pos h]
    obtain rfl : t = t₀ := Fin.ext h
    rw [View.read_writes_junk_eq_canon, proj_eq]
    unfold firstRunAt runFirst
    dsimp only
    sl_unfold_words
    rw [View.canon_unit_zero hz, View.readCov_unit_zero (S := S10000x64) _ hz]
    simp only [View.readAt_eq_ld, Memref.IsWhole.read_unread, View.ld_unit_zero (S := S10000x128) hz, View.ld_unit_zero (S := S128x64) hz, View.ld_unit_zero (S := S400x10000) hz, View.ld_unit_zero (S := S1x64) hz]
  · rw [dif_neg h, View.read_writes_junk_eq_canon]
    unfold laterRun runLater
    dsimp only
    rw [View.canon_unit_zero hz]
    simp only [View.readAt_eq_ld, Memref.IsWhole.read_unread, View.ld_unit_zero (S := S400x10000) hz, View.ld_unit_zero (S := S1x64) hz, View.ld_unit_zero (S := S10000x64) hz]
    refine congrArg (fun s => k0_pay3 (iblk V c 2 t) s (iblk V c 3 t)) ?_
    exact Memref.IsWhole.read_unread _ _

/-- At every point the second output block is the point's adjacency block in the other format. -/
theorem adjOut_eq (c : Dev nD) (t : Fin cfg0.N) : adjOut V c t = k0_pay2 (iblk V c 2 t) := by
  unfold adjOut
  by_cases h : t.val = 0
  · rw [dif_pos h, View.read_writes_junk_eq_canon]
    unfold firstRunAt runFirst
    dsimp only
    rw [View.canon_unit_zero hz]
    simp only [View.readAt_eq_ld, Memref.IsWhole.read_unread, View.ld_unit_zero (S := S400x10000) hz]
  · rw [dif_neg h, View.read_writes_junk_eq_canon]
    unfold laterRun runLater
    dsimp only
    rw [View.canon_unit_zero hz]
    simp only [View.readAt_eq_ld, Memref.IsWhole.read_unread, View.ld_unit_zero (S := S400x10000) hz]

/-- At every point the third output block is the fourth value of the same operands and the next weights. -/
theorem nextOut_eq (c : Dev nD) (t : Fin cfg0.N) :
    nextOut V c t = k0_pay4 (iblk V c 2 t) (proj V c) (iblk V c 3 t) (iblk V c 4 t) := by
  unfold nextOut
  by_cases h : t.val = 0
  · rw [dif_pos h]
    obtain rfl : t = t₀ := Fin.ext h
    rw [View.read_writes_junk_eq_canon, proj_eq]
    unfold firstRunAt runFirst
    dsimp only
    sl_unfold_words
    rw [View.canon_unit_zero hz, View.readCov_unit_zero (S := S10000x64) _ hz]
    simp only [View.readAt_eq_ld, Memref.IsWhole.read_unread, View.ld_unit_zero (S := S10000x128) hz, View.ld_unit_zero (S := S128x64) hz, View.ld_unit_zero (S := S400x10000) hz, View.ld_unit_zero (S := S1x64) hz, View.ld_unit_zero (S := S64x64) hz]
  · rw [dif_neg h, View.read_writes_junk_eq_canon]
    unfold laterRun runLater
    dsimp only
    rw [View.canon_unit_zero hz]
    simp only [View.readAt_eq_ld, Memref.IsWhole.read_unread, View.ld_unit_zero (S := S400x10000) hz, View.ld_unit_zero (S := S1x64) hz, View.ld_unit_zero (S := S10000x64) hz, View.ld_unit_zero (S := S64x64) hz]
    refine congrArg (fun s => k0_pay4 (iblk V c 2 t) s (iblk V c 3 t) (iblk V c 4 t)) ?_
    exact Memref.IsWhole.read_unread _ _

/-! ## The blocks read off the arrays -/

/-- The printed index maps over the 25 points: the adjacency's and the three outputs' block index is the point (rows
    400·t on), every other window stays at block 0. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of block t is row 400·t + p of the array. -/
theorem rowLt (t : Fin cfg0.N) (p : Fin 400) : 400 * t.val + p.val < 10000 := by
  have h1 := t.isLt; have hN : cfg0.N = 25 := N_0; have h2 := p.isLt; omega

theorem iblk0_eq (c : Dev nD) (t : Fin cfg0.N) :
    (iblk V c 0 t : Vec F S10000x128 .f32) = (V c main_arg0 : Vec F S10000x128 .f32) := by
  funext y
  obtain ⟨e0, e1, -⟩ := idx_facts t
  unfold iblk
  rw [View.read_apply]
  show V c main_arg0 (((cfg0.win 0).blk t).view.emb y) = V c main_arg0 y
  refine congrArg (V c main_arg0) ?_
  funext a; apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

theorem iblk2_apply (c : Dev nD) (t : Fin cfg0.N) (p : Fin 400) (j : Fin 10000) :
    (iblk V c 2 t : Vec F S400x10000 .f32) (ix2 p j)
      = (V c main_arg1 : Vec F S10000x10000 .f32) (ix2 ⟨400 * t.val + p.val, rowLt t p⟩ j) := by
  obtain ⟨-, -, -, -, e0, e1, -⟩ := idx_facts t
  unfold iblk
  rw [View.read_apply]
  show V c main_arg1 (((cfg0.win 2).blk t).view.emb (ix2 p j)) = V c main_arg1 (ix2 ⟨400 * t.val + p.val, rowLt t p⟩ j)
  refine congrArg (V c main_arg1) ?_
  funext a; apply Fin.ext
  match a with
  | ⟨0, _⟩ => show win0_2.index t (0 : Fin 2) * 400 + 1 * p.val = 400 * t.val + p.val; rw [e0]; omega
  | ⟨1, _⟩ => show win0_2.index t (1 : Fin 2) * 10000 + 1 * j.val = j.val; rw [e1]; omega

theorem iblk1_eq (c : Dev nD) (t : Fin cfg0.N) :
    (iblk V c 1 t : Vec F S128x64 .f32) = (V c main_arg2 : Vec F S128x64 .f32) := by
  funext y
  obtain ⟨-, -, e0, e1, -⟩ := idx_facts t
  unfold iblk
  rw [View.read_apply]
  show V c main_arg2 (((cfg0.win 1).blk t).view.emb y) = V c main_arg2 y
  refine congrArg (V c main_arg2) ?_
  funext a; apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

theorem iblk3_eq (c : Dev nD) (t : Fin cfg0.N) :
    (iblk V c 3 t : Vec F S1x64 .f32) = (V c main_v0 : Vec F S1x64 .f32) := by
  funext y
  obtain ⟨-, -, -, -, -, -, e0, e1, -⟩ := idx_facts t
  unfold iblk
  rw [View.read_apply]
  show V c main_v0 (((cfg0.win 3).blk t).view.emb y) = V c main_v0 y
  refine congrArg (V c main_v0) ?_
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

theorem iblk4_eq (c : Dev nD) (t : Fin cfg0.N) :
    (iblk V c 4 t : Vec F S64x64 .bf16) = (V c main_v1 : Vec F S64x64 .bf16) := by
  funext y
  obtain ⟨-, -, -, -, -, -, -, -, e0, e1, -⟩ := idx_facts t
  unfold iblk
  rw [View.read_apply]
  show V c main_v1 (((cfg0.win 4).blk t).view.emb y) = V c main_v1 y
  refine congrArg (V c main_v1) ?_
  funext a; apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- Entry (p, q) of an output window's block t sits at row 400·t + p, column q of its array. -/
theorem blk5_emb (t : Fin cfg0.N) (p : Fin 400) (q : Fin 64) :
    ((cfg0.win 5).blk t).view.emb (ix2 p q) = (ix2 ⟨400 * t.val + p.val, rowLt t p⟩ q : S10000x64.Idx) := by
  obtain ⟨-, -, -, -, -, -, -, -, -, -, e0, e1, -⟩ := idx_facts t
  funext a; apply Fin.ext
  match a with
  | ⟨0, _⟩ => show win0_5.index t (0 : Fin 2) * 400 + 1 * p.val = 400 * t.val + p.val; rw [e0]; omega
  | ⟨1, _⟩ => show win0_5.index t (1 : Fin 2) * 64 + 1 * q.val = q.val; rw [e1]; omega
theorem blk6_emb (t : Fin cfg0.N) (p : Fin 400) (q : Fin 10000) :
    ((cfg0.win 6).blk t).view.emb (ix2 p q) = (ix2 ⟨400 * t.val + p.val, rowLt t p⟩ q : S10000x10000.Idx) := by
  obtain ⟨-, -, -, -, -, -, -, -, -, -, -, -, e0, e1, -⟩ := idx_facts t
  funext a; apply Fin.ext
  match a with
  | ⟨0, _⟩ => show win0_6.index t (0 : Fin 2) * 400 + 1 * p.val = 400 * t.val + p.val; rw [e0]; omega
  | ⟨1, _⟩ => show win0_6.index t (1 : Fin 2) * 10000 + 1 * q.val = q.val; rw [e1]; omega
theorem blk7_emb (t : Fin cfg0.N) (p : Fin 400) (q : Fin 64) :
    ((cfg0.win 7).blk t).view.emb (ix2 p q) = (ix2 ⟨400 * t.val + p.val, rowLt t p⟩ q : S10000x64.Idx) := by
  obtain ⟨-, -, -, -, -, -, -, -, -, -, -, -, -, -, e0, e1⟩ := idx_facts t
  funext a; apply Fin.ext
  match a with
  | ⟨0, _⟩ => show win0_7.index t (0 : Fin 2) * 400 + 1 * p.val = 400 * t.val + p.val; rw [e0]; omega
  | ⟨1, _⟩ => show win0_7.index t (1 : Fin 2) * 64 + 1 * q.val = q.val; rw [e1]; omega

/-- The point whose block holds row r. -/
def ptOf (r : Nat) (hr : r < 10000) : Fin cfg0.N := ⟨r / 400, by have hN : cfg0.N = 25 := N_0; omega⟩

theorem cover5 (i : S10000x64.Idx) : ∃ t : Fin cfg0.N, (cfg0.win 5).flush t = true ∧ i ∈ ((cfg0.win 5).blk t).view.set := by
  have hi0 : (i 0).val < 10000 := (i 0).isLt
  have hi1 : (i 1).val < 64 := (i 1).isLt
  refine ⟨ptOf (i 0).val hi0, flush0_5 _, ?_⟩
  obtain ⟨-, -, -, -, -, -, -, -, -, -, e0, e1, -⟩ := idx_facts (ptOf (i 0).val hi0)
  have ht : (ptOf (i 0).val hi0).val = (i 0).val / 400 := rfl
  show i ∈ ((View.whole main_v2_0).slice (win0_5.rect (ptOf (i 0).val hi0))).set
  rw [View.set_slice_whole, Rect.mem_set_unit]
  intro a
  match a with
  | ⟨0, _⟩ =>
    show win0_5.index (ptOf (i 0).val hi0) (0 : Fin 2) * 400 ≤ (i 0).val ∧ (i 0).val < win0_5.index (ptOf (i 0).val hi0) (0 : Fin 2) * 400 + 400
    rw [e0, ht]; omega
  | ⟨1, _⟩ =>
    show win0_5.index (ptOf (i 0).val hi0) (1 : Fin 2) * 64 ≤ (i 1).val ∧ (i 1).val < win0_5.index (ptOf (i 0).val hi0) (1 : Fin 2) * 64 + 64
    rw [e1]; omega
theorem cover6 (i : S10000x10000.Idx) : ∃ t : Fin cfg0.N, (cfg0.win 6).flush t = true ∧ i ∈ ((cfg0.win 6).blk t).view.set := by
  have hi0 : (i 0).val < 10000 := (i 0).isLt
  have hi1 : (i 1).val < 10000 := (i 1).isLt
  refine ⟨ptOf (i 0).val hi0, flush0_6 _, ?_⟩
  obtain ⟨-, -, -, -, -, -, -, -, -, -, -, -, e0, e1, -⟩ := idx_facts (ptOf (i 0).val hi0)
  have ht : (ptOf (i 0).val hi0).val = (i 0).val / 400 := rfl
  show i ∈ ((View.whole main_v2_1).slice (win0_6.rect (ptOf (i 0).val hi0))).set
  rw [View.set_slice_whole, Rect.mem_set_unit]
  intro a
  match a with
  | ⟨0, _⟩ =>
    show win0_6.index (ptOf (i 0).val hi0) (0 : Fin 2) * 400 ≤ (i 0).val ∧ (i 0).val < win0_6.index (ptOf (i 0).val hi0) (0 : Fin 2) * 400 + 400
    rw [e0, ht]; omega
  | ⟨1, _⟩ =>
    show win0_6.index (ptOf (i 0).val hi0) (1 : Fin 2) * 10000 ≤ (i 1).val ∧ (i 1).val < win0_6.index (ptOf (i 0).val hi0) (1 : Fin 2) * 10000 + 10000
    rw [e1]; omega
theorem cover7 (i : S10000x64.Idx) : ∃ t : Fin cfg0.N, (cfg0.win 7).flush t = true ∧ i ∈ ((cfg0.win 7).blk t).view.set := by
  have hi0 : (i 0).val < 10000 := (i 0).isLt
  have hi1 : (i 1).val < 64 := (i 1).isLt
  refine ⟨ptOf (i 0).val hi0, flush0_7 _, ?_⟩
  obtain ⟨-, -, -, -, -, -, -, -, -, -, -, -, -, -, e0, e1⟩ := idx_facts (ptOf (i 0).val hi0)
  have ht : (ptOf (i 0).val hi0).val = (i 0).val / 400 := rfl
  show i ∈ ((View.whole main_v2_2).slice (win0_7.rect (ptOf (i 0).val hi0))).set
  rw [View.set_slice_whole, Rect.mem_set_unit]
  intro a
  match a with
  | ⟨0, _⟩ =>
    show win0_7.index (ptOf (i 0).val hi0) (0 : Fin 2) * 400 ≤ (i 0).val ∧ (i 0).val < win0_7.index (ptOf (i 0).val hi0) (0 : Fin 2) * 400 + 400
    rw [e0, ht]; omega
  | ⟨1, _⟩ =>
    show win0_7.index (ptOf (i 0).val hi0) (1 : Fin 2) * 64 ≤ (i 1).val ∧ (i 1).val < win0_7.index (ptOf (i 0).val hi0) (1 : Fin 2) * 64 + 64
    rw [e1]; omega

end Pieces

/-! ## The three arrays at the extended reals -/

section Values
variable (V : (c : Dev nD) → (b : Ref sig .tc) → Buf (Elt Ideal) ((c : Thread nD τ).loc b))

/-- The arrays the first layer reads, as the region finds them. -/
abbrev xOf (c : Dev nD) : Vec Ideal S10000x128 .f32 := V c main_arg0
abbrev adjOf (c : Dev nD) : Vec Ideal S10000x10000 .f32 := V c main_arg1
abbrev w1Of (c : Dev nD) : Vec Ideal S128x64 .f32 := V c main_arg2
abbrev b1Of (c : Dev nD) : Vec Ideal S1x64 .f32 := V c main_v0
abbrev w2Of (c : Dev nD) : Vec Ideal S64x64 .bf16 := V c main_v1

/-- adj·(x·W1) + b1, index by index. -/
def firstArr (c : Dev nD) : Vec Ideal S10000x64 .f32 := fun i =>
  (∑ j : Fin 10000, adjOf V c (ix2 (i 0) j) * (∑ k : Fin 128, xOf V c (ix2 j k) * w1Of V c (ix2 k (i 1))))
    + b1Of V c (ix2 0 (i 1))
/-- relu(adj·(x·W1) + b1)·W2, index by index. -/
def nextArr (c : Dev nD) : Vec Ideal S10000x64 .bf16 := fun i =>
  ∑ k : Fin 64, max (firstArr V c (ix2 (i 0) k)) 0 * w2Of V c (ix2 k (i 1))
/-- The first result array's target: adj·(x·W1) + b1. -/
def tgt1 (c : Dev nD) : Buf (Elt Ideal) ((cfg0.win 5).arr.view.loc (c : Thread nD τ)) := firstArr V c
/-- adj, the same extended reals in the other format. -/
def tgtA (c : Dev nD) : Buf (Elt Ideal) ((cfg0.win 6).arr.view.loc (c : Thread nD τ)) :=
  fun (i : S10000x10000.Idx) => adjOf V c i
/-- The third result array's target: relu(adj·(x·W1) + b1)·W2. -/
def tgtN (c : Dev nD) : Buf (Elt Ideal) ((cfg0.win 7).arr.view.loc (c : Thread nD τ)) := nextArr V c

theorem tgt1_eq (c : Dev nD) : tgt1 V c = firstArr V c := rfl
theorem tgtN_eq (c : Dev nD) : tgtN V c = nextArr V c := rfl
theorem firstArr_apply (c : Dev nD) (r : Fin 10000) (q : Fin 64) :
    firstArr V c (ix2 r q)
      = (∑ j : Fin 10000, adjOf V c (ix2 r j) * (∑ k : Fin 128, xOf V c (ix2 j k) * w1Of V c (ix2 k q))) + b1Of V c (ix2 0 q) := rfl
theorem tgtA_apply (c : Dev nD) (r : Fin 10000) (q : Fin 10000) :
    (tgtA V c : Vec Ideal S10000x10000 .bf16) (ix2 r q) = adjOf V c (ix2 r q) := rfl
theorem nextArr_apply (c : Dev nD) (r : Fin 10000) (q : Fin 64) :
    nextArr V c (ix2 r q) = ∑ k : Fin 64, max (firstArr V c (ix2 r k)) 0 * w2Of V c (ix2 k q) := rfl

/-- The carried product at an entry. -/
theorem proj_apply (c : Dev nD) (j : Fin 10000) (q : Fin 64) :
    proj V c (ix2 j q) = ∑ k : Fin 128, xOf V c (ix2 j k) * w1Of V c (ix2 k q) := by
  rw [proj_eq, iblk0_eq, iblk1_eq]
  exact Cert.Gcn.Pay.pay1_apply _ _ j q

/-- The first output block at an entry: the first array at row 400·t + p. -/
theorem rows_apply (c : Dev nD) (t : Fin cfg0.N) (p : Fin 400) (q : Fin 64) :
    rowsOut V c t (ix2 p q) = firstArr V c (ix2 ⟨400 * t.val + p.val, rowLt t p⟩ q) := by
  rw [rowsOut_eq, firstArr_apply, iblk3_eq]
  refine (Cert.Gcn.Pay.pay3_apply _ _ _ p q).trans ?_
  refine congrArg (· + b1Of V c (ix2 0 q)) ?_
  exact Finset.sum_congr rfl fun j _ => congrArg₂ (· * ·) (iblk2_apply V c t p j) (proj_apply V c j q)

/-- The second output block at an entry. -/
theorem adjRows_apply (c : Dev nD) (t : Fin cfg0.N) (p : Fin 400) (q : Fin 10000) :
    adjOut V c t (ix2 p q) = adjOf V c (ix2 ⟨400 * t.val + p.val, rowLt t p⟩ q) := by
  rw [adjOut_eq, Cert.Gcn.Pay.pay2_eq]
  exact iblk2_apply V c t p q

/-- The third output block at an entry. -/
theorem next_apply (c : Dev nD) (t : Fin cfg0.N) (p : Fin 400) (q : Fin 64) :
    nextOut V c t (ix2 p q) = nextArr V c (ix2 ⟨400 * t.val + p.val, rowLt t p⟩ q) := by
  rw [nextOut_eq, nextArr_apply, iblk4_eq]
  refine (Cert.Gcn.Pay.pay4_apply _ _ _ _ p q).trans ?_
  refine Finset.sum_congr rfl fun k _ => ?_
  refine congrArg (fun s => max s 0 * w2Of V c (ix2 k q)) ?_
  rw [← rowsOut_eq]
  exact rows_apply V c t p k

/-- What point t writes back to each result array is block t of the array's target. -/
theorem flushed5_eq (c : Dev nD) (t : Fin cfg0.N) :
    (dat V c).flushed 5 t = ((cfg0.win 5).blk t).view.read (Elt Ideal) (tgt1 V c) := by
  show (cfg0.win 5).cut (grid0.coords t) ((dat V c).after 5 t) = _
  rw [after_5]
  refine funext fun (y : S400x64.Idx) => ?_
  obtain ⟨p, q, rfl⟩ : ∃ (p : Fin 400) (q : Fin 64), y = ix2 p q := ⟨y 0, y 1, eq_ix2 y⟩
  rw [View.read_apply]
  show rowsOut V c t (ix2 p q) = tgt1 V c (((cfg0.win 5).blk t).view.emb (ix2 p q))
  rw [blk5_emb t p q]
  exact rows_apply V c t p q

theorem flushed6_eq (c : Dev nD) (t : Fin cfg0.N) :
    (dat V c).flushed 6 t = ((cfg0.win 6).blk t).view.read (Elt Ideal) (tgtA V c) := by
  show (cfg0.win 6).cut (grid0.coords t) ((dat V c).after 6 t) = _
  rw [after_6]
  refine funext fun (y : S400x10000.Idx) => ?_
  obtain ⟨p, q, rfl⟩ : ∃ (p : Fin 400) (q : Fin 10000), y = ix2 p q := ⟨y 0, y 1, eq_ix2 y⟩
  rw [View.read_apply]
  show adjOut V c t (ix2 p q) = tgtA V c (((cfg0.win 6).blk t).view.emb (ix2 p q))
  rw [blk6_emb t p q]
  exact adjRows_apply V c t p q

theorem flushed7_eq (c : Dev nD) (t : Fin cfg0.N) :
    (dat V c).flushed 7 t = ((cfg0.win 7).blk t).view.read (Elt Ideal) (tgtN V c) := by
  show (cfg0.win 7).cut (grid0.coords t) ((dat V c).after 7 t) = _
  rw [after_7]
  refine funext fun (y : S400x64.Idx) => ?_
  obtain ⟨p, q, rfl⟩ : ∃ (p : Fin 400) (q : Fin 64), y = ix2 p q := ⟨y 0, y 1, eq_ix2 y⟩
  rw [View.read_apply]
  show nextOut V c t (ix2 p q) = tgtN V c (((cfg0.win 7).blk t).view.emb (ix2 p q))
  rw [blk7_emb t p q]
  exact next_apply V c t p q

/-- The three result arrays after the last point. -/
theorem final5 (c : Dev nD) : (dat (F := Ideal) V c).arrAt 5 cfg0.N = tgt1 V c :=
  (dat V c).arrAt_eq_of_cover 5 (tgt1 V c) (fun t _ => flushed5_eq V c t) (fun (i : S10000x64.Idx) => cover5 i)
theorem final6 (c : Dev nD) : (dat (F := Ideal) V c).arrAt 6 cfg0.N = tgtA V c :=
  (dat V c).arrAt_eq_of_cover 6 (tgtA V c) (fun t _ => flushed6_eq V c t) (fun (i : S10000x10000.Idx) => cover6 i)
theorem final7 (c : Dev nD) : (dat (F := Ideal) V c).arrAt 7 cfg0.N = tgtN V c :=
  (dat V c).arrAt_eq_of_cover 7 (tgtN V c) (fun t _ => flushed7_eq V c t) (fun (i : S10000x64.Idx) => cover7 i)

end Values

end Cert.KernelIdeal.LayerOne

end
-- ==== Proof.Payload1.lean ====
/-
  The second body's four values read at an entry, on the extended reals.

  Three are products of matrices as in the first body (with a bias row added, or a maximum with zero taken first). The fourth
  is the row-wise log-softmax of the third, h, in the arrangement  h(r,c) - (log (Σ_k exp (h(r,k) - M r)) + M r),  where M r is
  the largest entry of row r folded from -∞: the lane maximum is seeded with the word of -∞, the lane sum with the zero word,
  and each of the two is kept as a column [800,1] and spread back over the 16 columns.
-/
import proofs.«182206_g44306882625589_cont_8to1_c_1074_19_alg».proof.Proof.Gen.KernelIdeal.Skeleton
import proofs.«182206_g44306882625589_cont_8to1_c_1074_19_alg».proof.Proof.Spec
import proofs.«182206_g44306882625589_cont_8to1_c_1074_19_alg».proof.Proof.LibPlainDot
import proofs.«182206_g44306882625589_cont_8to1_c_1074_19_alg».proof.Proof.LibKeepdims
import proofs.«182206_g44306882625589_cont_8to1_c_1074_19_alg».proof.Proof.LibRowMax
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.Pay

open Cert.KernelIdeal Cert.KernelIdeal.Gen Idealize.ShloMosaic Idealize.ShloMosaic.ValueIdx

/-- The first value at (r, c): row r of the first operand against column c of the second, plus the bias at c. -/
theorem k1_pay1_apply (a : Vec Ideal S800x10000 .bf16) (z : Vec Ideal S10000x64 .bf16) (b : Vec Ideal S1x64 .f32)
    (r : Fin 800) (c : Fin 64) :
    k1_pay1 (F := Ideal) a z b (ix2 r c) = (∑ j : Fin 10000, a (ix2 r j) * z (ix2 j c)) + b (ix2 0 c) := by
  unfold k1_pay1
  simp only [shapeCast_self]
  refine (addf_apply _ _ _).trans ?_
  refine congrArg₂ (· + ·) ?_ ?_
  · exact PlainDot.matmul_zero_apply dot_S800x10000_S10000x64_S800x64_1_0_0_1_n_n rfl none a z (ix2 r c)
  · exact broadcastTo_1b_ab_apply _ _ r c

/-- The second value at (r, c): the first value's row r, cut off below at zero, against column c of the weights. -/
theorem k1_pay2_apply (a : Vec Ideal S800x10000 .bf16) (z : Vec Ideal S10000x64 .bf16) (b : Vec Ideal S1x64 .f32)
    (w : Vec Ideal S64x16 .bf16) (r : Fin 800) (c : Fin 16) :
    k1_pay2 (F := Ideal) a z b w (ix2 r c)
      = ∑ k : Fin 64, max (k1_pay1 (F := Ideal) a z b (ix2 r k)) 0 * w (ix2 k c) := by
  unfold k1_pay2
  simp only [shapeCast_self]
  have e := PlainDot.matmul_zero_apply (φ₁ := .bf16) (φ₂ := .bf16) dot_S800x64_S64x16_S800x16_1_0_0_1_n_n rfl none
    (truncf .bf16 (maximumf (k1_pay1 (F := Ideal) a z b) (broadcast S800x64 (Scalar.ofBits (F := Ideal) .f32 0x00000000#32)))
      bitsLt_bf16_f32) w (ix2 r c)
  refine Eq.trans e ?_
  refine Finset.sum_congr rfl fun k _ => ?_
  refine congrArg₂ (· * ·) ?_ rfl
  show max (k1_pay1 (F := Ideal) a z b (ix2 r k)) (Ideal.ofBits .f32 0x00000000#32) = _
  rw [Cert.Gcn.ofBits_zero]

/-- The third value at (r, c): row r of the first operand against column c of the second, plus the bias at c. -/
theorem k1_pay3_apply (a : Vec Ideal S800x10000 .bf16) (z3 : Vec Ideal S10000x16 .bf16) (b3 : Vec Ideal S1x16 .f32)
    (r : Fin 800) (c : Fin 16) :
    k1_pay3 (F := Ideal) a z3 b3 (ix2 r c) = (∑ j : Fin 10000, a (ix2 r j) * z3 (ix2 j c)) + b3 (ix2 0 c) := by
  unfold k1_pay3
  simp only [shapeCast_self]
  refine (addf_apply _ _ _).trans ?_
  refine congrArg₂ (· + ·) ?_ ?_
  · exact PlainDot.matmul_zero_apply dot_S800x10000_S10000x16_S800x16_1_0_0_1_n_n rfl none a z3 (ix2 r c)
  · exact broadcastTo_1b_ab_apply _ _ r c

/-- The largest entry of row r of an [800,16] array, as the lane maximum seeded with the word of -∞ computes it. -/
theorem rowMax_apply (h : FVec Ideal S800x16 .f32) (r : Fin 800) :
    multiReduction .maximumf [1] S800 h 0xFF800000#32 reduces_S800x16_S800 (.inl rfl) rfl (ix1 r)
      = (Finset.univ : Finset (Fin 16)).fold max ⊥ (fun k => h (ix2 r k)) := by
  refine (multiReduction_maximumf_axis1_apply h 0xFF800000#32 reduces_S800x16_S800 (.inl rfl) rfl r).trans ?_
  rw [Cert.Gcn.ofBits_negInf]

/-- The row-wise log-softmax of an [800,16] array, as the body computes it, at (r, c). -/
theorem lsm_apply (h : FVec Ideal S800x16 .f32) (r : Fin 800) (c : Fin 16) :
    subf h (broadcastTo S800x16
        (addf (log (shapeCast S800x1
            (multiReduction .add [1] S800
              (exp (subf h (broadcastTo S800x16
                (shapeCast S800x1 (multiReduction .maximumf [1] S800 h 0xFF800000#32 reduces_S800x16_S800 (.inl rfl) rfl)
                  shapeCasts_S800_S800x1) broadcasts_S800x1_S800x16)))
              0x00000000#32 reduces_S800x16_S800 (.inl rfl) rfl) shapeCasts_S800_S800x1))
          (shapeCast S800x1 (multiReduction .maximumf [1] S800 h 0xFF800000#32 reduces_S800x16_S800 (.inl rfl) rfl)
            shapeCasts_S800_S800x1)) broadcasts_S800x1_S800x16) (ix2 r c)
      = h (ix2 r c)
        - (Ideal.log (∑ k : Fin 16, Ideal.exp (h (ix2 r k)
              - (Finset.univ : Finset (Fin 16)).fold max ⊥ (fun k => h (ix2 r k))))
            + (Finset.univ : Finset (Fin 16)).fold max ⊥ (fun k => h (ix2 r k))) := by
  have hcol : ∀ u : Fin 1,
      shapeCast S800x1 (multiReduction .maximumf [1] S800 h 0xFF800000#32 reduces_S800x16_S800 (.inl rfl) rfl)
          shapeCasts_S800_S800x1 (ix2 r u)
        = (Finset.univ : Finset (Fin 16)).fold max ⊥ (fun k => h (ix2 r k)) := fun u =>
    (shapeCast_a_a1_apply _ _ r u).trans (rowMax_apply h r)
  refine (subf_apply _ _ _).trans ?_
  refine congrArg (fun t => h (ix2 r c) - t) ?_
  refine (broadcastTo_a1_ab_apply _ _ r c).trans ?_
  refine (addf_apply _ _ _).trans ?_
  refine congrArg₂ (· + ·) ?_ (hcol 0)
  show Ideal.log (shapeCast S800x1 _ shapeCasts_S800_S800x1 (ix2 r (0 : Fin 1))) = _
  refine congrArg Ideal.log ?_
  refine (shapeCast_a_a1_apply _ _ r 0).trans ?_
  refine (multiReduction_add_axis1_apply _ reduces_S800x16_S800 (.inl rfl) rfl r).trans ?_
  refine Finset.sum_congr rfl fun k _ => ?_
  show Ideal.exp (h (ix2 r k) - broadcastTo S800x16 _ broadcasts_S800x1_S800x16 (ix2 r k)) = _
  refine congrArg (fun t => Ideal.exp (h (ix2 r k) - t)) ?_
  exact (broadcastTo_a1_ab_apply _ _ r k).trans (hcol 0)

/-- The fourth value at (r, c): the log-softmax of the third value's row r. -/
theorem k1_pay4_apply (a : Vec Ideal S800x10000 .bf16) (z3 : Vec Ideal S10000x16 .bf16) (b3 : Vec Ideal S1x16 .f32)
    (r : Fin 800) (c : Fin 16) :
    k1_pay4 (F := Ideal) a z3 b3 (ix2 r c)
      = k1_pay3 (F := Ideal) a z3 b3 (ix2 r c)
        - (Ideal.log (∑ k : Fin 16, Ideal.exp (k1_pay3 (F := Ideal) a z3 b3 (ix2 r k)
              - (Finset.univ : Finset (Fin 16)).fold max ⊥ (fun k => k1_pay3 (F := Ideal) a z3 b3 (ix2 r k))))
            + (Finset.univ : Finset (Fin 16)).fold max ⊥ (fun k => k1_pay3 (F := Ideal) a z3 b3 (ix2 r k))) := by
  unfold k1_pay4
  exact lsm_apply (k1_pay3 (F := Ideal) a z3 b3) r c

/-! ## Each value at row r reads the first operand only through its row r -/

theorem pay_k1_1_congr (a a' : Vec Ideal S800x10000 .bf16) (z : Vec Ideal S10000x64 .bf16) (b : Vec Ideal S1x64 .f32)
    (r : Fin 800) (c : Fin 64) (h : ∀ j : Fin 10000, a (ix2 r j) = a' (ix2 r j)) :
    k1_pay1 (F := Ideal) a z b (ix2 r c) = k1_pay1 (F := Ideal) a' z b (ix2 r c) := by
  rw [k1_pay1_apply, k1_pay1_apply]
  exact congrArg (· + b (ix2 0 c)) (Finset.sum_congr rfl fun j _ => by rw [h j])

theorem pay_k1_2_congr (a a' : Vec Ideal S800x10000 .bf16) (z : Vec Ideal S10000x64 .bf16) (b : Vec Ideal S1x64 .f32)
    (w : Vec Ideal S64x16 .bf16) (r : Fin 800) (c : Fin 16) (h : ∀ j : Fin 10000, a (ix2 r j) = a' (ix2 r j)) :
    k1_pay2 (F := Ideal) a z b w (ix2 r c) = k1_pay2 (F := Ideal) a' z b w (ix2 r c) := by
  rw [k1_pay2_apply, k1_pay2_apply]
  exact Finset.sum_congr rfl fun k _ => by rw [pay_k1_1_congr a a' z b r k h]

/-- The third value at (r, c) reads the first operand through its row r and the second through its column c. -/
theorem pay_k1_3_congr (a a' : Vec Ideal S800x10000 .bf16) (z3 z3' : Vec Ideal S10000x16 .bf16) (b3 : Vec Ideal S1x16 .f32)
    (r : Fin 800) (c : Fin 16) (h : ∀ j : Fin 10000, a (ix2 r j) = a' (ix2 r j))
    (hz : ∀ j : Fin 10000, z3 (ix2 j c) = z3' (ix2 j c)) :
    k1_pay3 (F := Ideal) a z3 b3 (ix2 r c) = k1_pay3 (F := Ideal) a' z3' b3 (ix2 r c) := by
  rw [k1_pay3_apply, k1_pay3_apply]
  exact congrArg (· + b3 (ix2 0 c)) (Finset.sum_congr rfl fun j _ => by rw [h j, hz j])

/-- The fourth value at row r reads the first operand through its row r and the second through all its entries. -/
theorem pay_k1_4_congr (a a' : Vec Ideal S800x10000 .bf16) (z3 z3' : Vec Ideal S10000x16 .bf16) (b3 : Vec Ideal S1x16 .f32)
    (r : Fin 800) (c : Fin 16) (h : ∀ j : Fin 10000, a (ix2 r j) = a' (ix2 r j))
    (hz : ∀ (j : Fin 10000) (k : Fin 16), z3 (ix2 j k) = z3' (ix2 j k)) :
    k1_pay4 (F := Ideal) a z3 b3 (ix2 r c) = k1_pay4 (F := Ideal) a' z3' b3 (ix2 r c) := by
  have e : ∀ k : Fin 16, k1_pay3 (F := Ideal) a z3 b3 (ix2 r k) = k1_pay3 (F := Ideal) a' z3' b3 (ix2 r k) :=
    fun k => pay_k1_3_congr a a' z3 z3' b3 r k h (fun j => hz j k)
  rw [k1_pay4_apply, k1_pay4_apply]
  simp only [e]

end Cert.Gcn.Pay

end
-- ==== Proof.LayerTwoThree.Values.lean ====
/-
  The second pallas_call's values on the extended reals: what each of its two kinds of point leaves in its output
  buffers, on the rows the write-back moves, is the block there of

    the second layer      tgt2 = adjb·z2 + b2         (adjacency times the second layer's projection, plus the bias row),
    the third layer       tgt3 = adjb·projZ + b3      with projZ = relu(tgt2)·w3 on the first 10000 rows of the scratch,
    its log-softmax       tgtL = tgt3 - (log Σ exp (tgt3 - m) + m),   m the row maximum,

  and a phase-0 point extends by its 800 rows the part of the scratch that carries projZ.

  A run stores each output buffer whole, so what it leaves there is the body's value of what it loaded; the scratch gets
  one 800-row slab at row offset 800·t over what it held. The adjacency window's block at point t starts at row
  800·(t mod 13) and is cut to 400 rows at the last block; on a row inside the array the window's buffer holds the
  adjacency's row whatever pads the overhang, and each value at a row reads the buffer through that row only. The other
  inputs are whole arrays. The index maps, the cut sizes and the slab's offset are decided once over the 26 points.
-/
import proofs.«182206_g44306882625589_cont_8to1_c_1074_19_alg».proof.Proof.LayerTwoThree.ExactDefs
import proofs.«182206_g44306882625589_cont_8to1_c_1074_19_alg».proof.Proof.Payload1
import Idealize.ShloMosaic.Lib.Pipeline.Value
import Idealize.ShloMosaic.Lib.Writes
import Idealize.ShloMosaic.Lib.ValueIdx

set_option maxRecDepth 16384

noncomputable section

namespace Cert.KernelIdeal.LayerTwoThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## What a run leaves, piece by piece -/

section Pieces
variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- The phase-0 run stores the second layer's rows whole. -/
theorem rows2_piece (c : Dev nD) (t : Fin cfg1.N) (h : t.val < 13) (d : S800x10000.Idx → Elt F .bf16) (xs : Vec F S10400x16 .bf16) :
    rows2 V c t h d xs = k1_pay1 (adjAt V c t d) (iblk V c 1 t) (iblk V c 2 t) := by
  unfold rows2
  rw [View.read_writes_junk_eq_canon]
  unfold secondRun runSecond
  dsimp only
  rw [View.canon_unit_zero hz2]
  simp only [View.readAt_eq_ld, Memref.IsWhole.read_unread, View.ld_unit_zero (S := S800x10000) hz2, View.ld_unit_zero (S := S10000x64) hz2, View.ld_unit_zero (S := S1x64) hz2]

/-- The first 10000 rows of the scratch, as the phase-1 run loads them. -/
abbrev head (xs : Vec F S10400x16 .bf16) : Vec F S10000x16 .bf16 :=
  View.ld xs (Rect.unit (s := S10400x16) ![0, 0] S10000x16.size inb_S10400x16_S10000x16_0_0)

/-- The phase-1 run stores the third layer's rows whole, -/
theorem rows3_piece (c : Dev nD) (t : Fin cfg1.N) (h : ¬t.val < 13) (d : S800x10000.Idx → Elt F .bf16) (xs : Vec F S10400x16 .bf16) :
    rows3 V c t h d xs = k1_pay3 (adjAt V c t d) (head xs) (iblk V c 3 t) := by
  unfold rows3
  rw [View.read_writes_junk_eq_canon]
  unfold thirdRun runThird
  dsimp only
  rw [View.canon_unit_zero hz2]
  simp only [View.readAt_eq_ld, Memref.IsWhole.read_unread, View.ld_unit_zero (S := S800x10000) hz2, View.ld_unit_zero (S := S1x16) hz2]
  rw [show View.read (Elt F) (View.whole cc1_scratch0) ((Memref.isWhole_whole cc1_scratch0).unread xs) = xs from
    (Memref.isWhole_whole cc1_scratch0).read_unread xs]

/-- and their log-softmax whole. -/
theorem lsm3_piece (c : Dev nD) (t : Fin cfg1.N) (h : ¬t.val < 13) (d : S800x10000.Idx → Elt F .bf16) (xs : Vec F S10400x16 .bf16) :
    lsm3 V c t h d xs = k1_pay4 (adjAt V c t d) (head xs) (iblk V c 3 t) := by
  unfold lsm3
  rw [View.read_writes_junk_eq_canon]
  unfold thirdRun runThird
  dsimp only
  rw [View.canon_unit_zero hz2]
  simp only [View.readAt_eq_ld, Memref.IsWhole.read_unread, View.ld_unit_zero (S := S800x10000) hz2, View.ld_unit_zero (S := S1x16) hz2]
  rw [show View.read (Elt F) (View.whole cc1_scratch0) ((Memref.isWhole_whole cc1_scratch0).unread xs) = xs from
    (Memref.isWhole_whole cc1_scratch0).read_unread xs]

/-- The rows of the scratch the phase-0 run at point t overwrites. -/
abbrev slab (t : Fin cfg1.N) (h : t.val < 13) : Rect S10400x16 :=
  Rect.unit (s := S10400x16) (k1_off1 (grid1.coords t)) S800x16.size (k1_off1_inb (grid1.coords t) ((inPhase0_iff t).mpr h))

/-- The phase-0 run overwrites one 800-row slab of the scratch with the projection of its rows. -/
theorem scratch_piece (c : Dev nD) (t : Fin cfg1.N) (h : t.val < 13) (d : S800x10000.Idx → Elt F .bf16) (xs : Vec F S10400x16 .bf16) :
    scratchAfter V c t h d xs
      = (projM : Memref sig .tc .vmem S10400x16 .bf16).view.read (Elt F)
          ((projM : Memref sig .tc .vmem S10400x16 .bf16).view.writes (Elt F) ((Memref.isWhole_whole cc1_scratch0).unread xs)
            [⟨slab t h, k1_pay2 (adjAt V c t d) (iblk V c 1 t) (iblk V c 2 t) (iblk V c 4 t)⟩]) := by
  unfold scratchAfter
  unfold secondRun runSecond
  dsimp only
  simp only [View.readAt_eq_ld, Memref.IsWhole.read_unread, View.ld_unit_zero (S := S800x10000) hz2, View.ld_unit_zero (S := S10000x64) hz2, View.ld_unit_zero (S := S1x64) hz2, View.ld_unit_zero (S := S64x16) hz2]

end Pieces

/-! ## The index maps and cut sizes, decided over the 26 points -/

theorem idx_facts : ∀ t : Fin cfg1.N,
    win1_0.index t (0 : Fin 2) = t.val % 13 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = (if t.val < 13 then t.val else 12) ∧ win1_5.index t (1 : Fin 2) = 0
    ∧ win1_6.index t (0 : Fin 2) = (if t.val < 13 then 0 else t.val - 13) ∧ win1_6.index t (1 : Fin 2) = 0
    ∧ win1_7.index t (0 : Fin 2) = (if t.val < 13 then 0 else t.val - 13) ∧ win1_7.index t (1 : Fin 2) = 0 :=
  (by decide +kernel : ∀ t : Fin grid1.N, _)

theorem xsize_facts : ∀ t : Fin cfg1.N,
    win1_0.xsize (grid1.coords t) (0 : Fin 2) = (if t.val % 13 = 12 then 400 else 800) ∧ win1_0.xsize (grid1.coords t) (1 : Fin 2) = 10000
    ∧ win1_5.xsize (grid1.coords t) (0 : Fin 2) = (if 12 ≤ t.val then 400 else 800) ∧ win1_5.xsize (grid1.coords t) (1 : Fin 2) = 64
    ∧ win1_6.xsize (grid1.coords t) (0 : Fin 2) = (if t.val = 25 then 400 else 800) ∧ win1_6.xsize (grid1.coords t) (1 : Fin 2) = 16
    ∧ win1_7.xsize (grid1.coords t) (0 : Fin 2) = (if t.val = 25 then 400 else 800) ∧ win1_7.xsize (grid1.coords t) (1 : Fin 2) = 16 :=
  (by decide +kernel : ∀ t : Fin grid1.N, _)

theorem off_facts : ∀ t : Fin cfg1.N, t.val < 13 → k1_off1 (grid1.coords t) (0 : Fin 2) = 800 * t.val ∧ k1_off1 (grid1.coords t) (1 : Fin 2) = 0 :=
  (by decide +kernel : ∀ t : Fin grid1.N, _)

/-! ## The targets -/

section Values
variable (V : (c : Dev nD) → (b : Ref sig .tc) → Buf (Elt Ideal) ((c : Thread nD τ).loc b))

/-- The adjacency, the second layer's projection, the two bias rows and the third layer's weights, as the region finds them. -/
abbrev adjb (c : Dev nD) : S10000x10000.Idx → EReal := V c main_v2_1
abbrev z2 (c : Dev nD) : S10000x64.Idx → EReal := V c main_v2_2
abbrev b2r (c : Dev nD) : S1x64.Idx → EReal := V c main_v3
abbrev b3r (c : Dev nD) : S1x16.Idx → EReal := V c main_v4
abbrev w3 (c : Dev nD) : S64x16.Idx → EReal := V c main_v5

/-- The second layer: adjacency times projection, plus the bias row. -/
def tgt2 (c : Dev nD) : S10000x64.Idx → EReal := fun i =>
  (∑ j : Fin 10000, adjb V c (ix2 (i 0) j) * z2 V c (ix2 j (i 1))) + b2r V c (ix2 0 (i 1))

/-- The third layer's projection on the scratch's 10400 rows: the second layer cut off below at zero, times the weights, on
    the first 10000 rows; zero on the overhang. -/
def projZ (c : Dev nD) : S10400x16.Idx → EReal := fun i =>
  if h : (i 0).val < 10000 then ∑ k : Fin 64, max (tgt2 V c (ix2 ⟨(i 0).val, h⟩ k)) 0 * w3 V c (ix2 k (i 1)) else 0

/-- The third layer: adjacency times that projection's first 10000 rows, plus the bias row. -/
def tgt3 (c : Dev nD) : S10000x16.Idx → EReal := fun i =>
  (∑ j : Fin 10000, adjb V c (ix2 (i 0) j) * projZ V c (ix2 ⟨j.val, Nat.lt_of_lt_of_le j.isLt (by decide)⟩ (i 1))) + b3r V c (ix2 0 (i 1))

/-- Its row-wise log-softmax, in the arrangement h - (log Σ exp (h - m) + m). -/
def tgtL (c : Dev nD) : S10000x16.Idx → EReal := Cert.Gcn.lsmK (tgt3 V c)

/-! ## The blocks the body reads -/

theorem iblk1_at (c : Dev nD) (t : Fin cfg1.N) (j : Fin 10000) (k : Fin 64) : iblk V c 1 t (ix2 j k) = z2 V c (ix2 j k) := by
  obtain ⟨-, -, e0, e1, -⟩ := idx_facts t
  unfold iblk
  show V c main_v2_2 (((cfg1.win 1).blk t).view.emb (ix2 j k)) = V c main_v2_2 (ix2 j k)
  refine congrArg (V c main_v2_2) (funext fun a => Fin.ext ?_)
  match a with
  | ⟨0, _⟩ => show win1_1.index t (0 : Fin 2) * 10000 + 1 * j.val = j.val; omega
  | ⟨1, _⟩ => show win1_1.index t (1 : Fin 2) * 64 + 1 * k.val = k.val; omega

theorem iblk2_at (c : Dev nD) (t : Fin cfg1.N) (j : Fin 1) (k : Fin 64) : iblk V c 2 t (ix2 j k) = b2r V c (ix2 j k) := by
  obtain ⟨-, -, -, -, e0, e1, -⟩ := idx_facts t
  unfold iblk
  show V c main_v3 (((cfg1.win 2).blk t).view.emb (ix2 j k)) = V c main_v3 (ix2 j k)
  refine congrArg (V c main_v3) (funext fun a => Fin.ext ?_)
  match a with
  | ⟨0, _⟩ => show win1_2.index t (0 : Fin 2) * 1 + 1 * j.val = j.val; omega
  | ⟨1, _⟩ => show win1_2.index t (1 : Fin 2) * 64 + 1 * k.val = k.val; omega

theorem iblk3_at (c : Dev nD) (t : Fin cfg1.N) (j : Fin 1) (k : Fin 16) : iblk V c 3 t (ix2 j k) = b3r V c (ix2 j k) := by
  obtain ⟨-, -, -, -, -, -, e0, e1, -⟩ := idx_facts t
  unfold iblk
  show V c main_v4 (((cfg1.win 3).blk t).view.emb (ix2 j k)) = V c main_v4 (ix2 j k)
  refine congrArg (V c main_v4) (funext fun a => Fin.ext ?_)
  match a with
  | ⟨0, _⟩ => show win1_3.index t (0 : Fin 2) * 1 + 1 * j.val = j.val; omega
  | ⟨1, _⟩ => show win1_3.index t (1 : Fin 2) * 16 + 1 * k.val = k.val; omega

theorem iblk4_at (c : Dev nD) (t : Fin cfg1.N) (j : Fin 64) (k : Fin 16) : iblk V c 4 t (ix2 j k) = w3 V c (ix2 j k) := by
  obtain ⟨-, -, -, -, -, -, -, -, e0, e1, -⟩ := idx_facts t
  unfold iblk
  show V c main_v5 (((cfg1.win 4).blk t).view.emb (ix2 j k)) = V c main_v5 (ix2 j k)
  refine congrArg (V c main_v5) (funext fun a => Fin.ext ?_)
  match a with
  | ⟨0, _⟩ => show win1_4.index t (0 : Fin 2) * 64 + 1 * j.val = j.val; omega
  | ⟨1, _⟩ => show win1_4.index t (1 : Fin 2) * 16 + 1 * k.val = k.val; omega

/-- On a row inside the array the adjacency window's buffer holds the adjacency's row, whatever pads it. -/
theorem adj_at (c : Dev nD) (t : Fin cfg1.N) (d : S800x10000.Idx → Elt Ideal .bf16) (r : Fin 800) (j : Fin 10000)
    (hr : 800 * (t.val % 13) + r.val < 10000) :
    adjAt V c t d (ix2 r j) = adjb V c (ix2 ⟨800 * (t.val % 13) + r.val, hr⟩ j) := by
  obtain ⟨e0, e1, -⟩ := idx_facts t
  obtain ⟨x0, x1, -⟩ := xsize_facts t
  have hm : win1_0.moved (grid1.coords t) (ix2 r j) = true := (win1_0.moved_iff _ _).mpr (fun a => by
    match a with
    | ⟨0, _⟩ => show r.val < win1_0.xsize (grid1.coords t) (0 : Fin 2); rw [x0]; split <;> omega
    | ⟨1, _⟩ => show j.val < win1_0.xsize (grid1.coords t) (1 : Fin 2); rw [x1]; exact j.isLt)
  show win1_0.fill (grid1.coords t) d (iblk V c 0 t) (ix2 r j) = _
  unfold Window.fill
  rw [dif_pos hm]
  unfold iblk
  show V c main_v2_1 (((cfg1.win 0).blk t).view.emb _) = V c main_v2_1 _
  refine congrArg (V c main_v2_1) (funext fun a => Fin.ext ?_)
  match a with
  | ⟨0, _⟩ => show win1_0.index t (0 : Fin 2) * 800 + 1 * r.val = 800 * (t.val % 13) + r.val; omega
  | ⟨1, _⟩ => show win1_0.index t (1 : Fin 2) * 10000 + 1 * j.val = j.val; omega

/-! ## The body's values on a row inside the array -/

/-- The second layer's row. -/
theorem pay1_at (c : Dev nD) (t : Fin cfg1.N) (d : S800x10000.Idx → Elt Ideal .bf16) (r : Fin 800) (k : Fin 64)
    (hr : 800 * (t.val % 13) + r.val < 10000) :
    k1_pay1 (F := Ideal) (adjAt V c t d) (iblk V c 1 t) (iblk V c 2 t) (ix2 r k)
      = tgt2 V c (ix2 ⟨800 * (t.val % 13) + r.val, hr⟩ k) := by
  refine (Cert.Gcn.Pay.k1_pay1_apply _ _ _ r k).trans ?_
  show _ = (∑ j : Fin 10000, adjb V c (ix2 ⟨800 * (t.val % 13) + r.val, hr⟩ j) * z2 V c (ix2 j k)) + b2r V c (ix2 0 k)
  refine congrArg₂ (· + ·) (Finset.sum_congr rfl fun j _ => ?_) (iblk2_at V c t 0 k)
  rw [adj_at V c t d r j hr, iblk1_at]

/-- The third layer's projection of the row. -/
theorem pay2_at (c : Dev nD) (t : Fin cfg1.N) (d : S800x10000.Idx → Elt Ideal .bf16) (r : Fin 800) (k : Fin 16)
    (hr : 800 * (t.val % 13) + r.val < 10000) :
    k1_pay2 (F := Ideal) (adjAt V c t d) (iblk V c 1 t) (iblk V c 2 t) (iblk V c 4 t) (ix2 r k)
      = projZ V c (ix2 ⟨800 * (t.val % 13) + r.val, by omega⟩ k) := by
  refine (Cert.Gcn.Pay.k1_pay2_apply _ _ _ _ r k).trans ?_
  show _ = dite _ _ _
  rw [dif_pos (show ((ix2 (⟨800 * (t.val % 13) + r.val, by omega⟩ : Fin 10400) k : S10400x16.Idx) 0).val < 10000 from hr)]
  refine Finset.sum_congr rfl fun q _ => ?_
  rw [pay1_at V c t d r q hr, iblk4_at]

end Values

section Fields
variable (V : (c : Dev nD) → (b : Ref sig .tc) → Buf (Elt Ideal) ((c : Thread nD τ).loc b))

/-- The scratch's first 10000 rows, once they carry the projection. -/
theorem head_at (c : Dev nD) (xs : Vec Ideal S10400x16 .bf16) (hc : Carries (projZ V c) 13 xs) (j : Fin 10000) (k : Fin 16) :
    head xs (ix2 j k) = projZ V c (ix2 ⟨j.val, Nat.lt_of_lt_of_le j.isLt (by decide)⟩ k) := by
  have e : (Rect.unit (s := S10400x16) ![0, 0] S10000x16.size inb_S10400x16_S10000x16_0_0).idx (ix2 j k)
      = ix2 (⟨j.val, Nat.lt_of_lt_of_le j.isLt (by decide)⟩ : Fin 10400) k := funext fun a => Fin.ext (by
    match a with
    | ⟨0, _⟩ => show 0 + 1 * j.val = j.val; omega
    | ⟨1, _⟩ => show 0 + 1 * k.val = k.val; omega)
  show xs ((Rect.unit (s := S10400x16) ![0, 0] S10000x16.size inb_S10400x16_S10000x16_0_0).idx (ix2 j k)) = _
  rw [e]
  exact hc ⟨j.val, Nat.lt_of_lt_of_le j.isLt (by decide)⟩ k (Nat.lt_of_lt_of_le j.isLt (by decide)) j.isLt

/-- The third layer's row. -/
theorem pay3_at (c : Dev nD) (t : Fin cfg1.N) (d : S800x10000.Idx → Elt Ideal .bf16) (xs : Vec Ideal S10400x16 .bf16)
    (hc : Carries (projZ V c) 13 xs) (r : Fin 800) (k : Fin 16) (hr : 800 * (t.val % 13) + r.val < 10000) :
    k1_pay3 (F := Ideal) (adjAt V c t d) (head xs) (iblk V c 3 t) (ix2 r k)
      = tgt3 V c (ix2 ⟨800 * (t.val % 13) + r.val, hr⟩ k) := by
  refine (Cert.Gcn.Pay.k1_pay3_apply _ _ _ r k).trans ?_
  show _ = (∑ j : Fin 10000, adjb V c (ix2 ⟨800 * (t.val % 13) + r.val, hr⟩ j)
      * projZ V c (ix2 ⟨j.val, Nat.lt_of_lt_of_le j.isLt (by decide)⟩ k)) + b3r V c (ix2 0 k)
  refine congrArg₂ (· + ·) (Finset.sum_congr rfl fun j _ => ?_) (iblk3_at V c t 0 k)
  rw [adj_at V c t d r j hr, head_at V c xs hc j k]

/-- Its log-softmax. -/
theorem pay4_at (c : Dev nD) (t : Fin cfg1.N) (d : S800x10000.Idx → Elt Ideal .bf16) (xs : Vec Ideal S10400x16 .bf16)
    (hc : Carries (projZ V c) 13 xs) (r : Fin 800) (k : Fin 16) (hr : 800 * (t.val % 13) + r.val < 10000) :
    k1_pay4 (F := Ideal) (adjAt V c t d) (head xs) (iblk V c 3 t) (ix2 r k)
      = tgtL V c (ix2 ⟨800 * (t.val % 13) + r.val, hr⟩ k) := by
  refine (Cert.Gcn.Pay.k1_pay4_apply _ _ _ r k).trans ?_
  have e : ∀ q : Fin 16, k1_pay3 (F := Ideal) (adjAt V c t d) (head xs) (iblk V c 3 t) (ix2 r q)
      = tgt3 V c (ix2 ⟨800 * (t.val % 13) + r.val, hr⟩ q) := fun q => pay3_at V c t d xs hc r q hr
  simp only [e]
  exact (Cert.Gcn.lsmK_apply (tgt3 V c) ⟨800 * (t.val % 13) + r.val, hr⟩ k).symm

/-- On the rows the write-back moves, a phase-0 point leaves the second layer's block. -/
theorem second_fact (c : Dev nD) (t : Fin cfg1.N) (h : t.val < 13) (d : S800x10000.Idx → Elt Ideal .bf16) (xs : Vec Ideal S10400x16 .bf16) :
    (cfg1.win 5).cut (grid1.coords t) (rows2 V c t h d xs) = ((cfg1.win 5).blk t).view.read (Elt Ideal) (tgt2 V c) := by
  obtain ⟨-, -, -, -, -, -, -, -, -, -, e0, e1, -⟩ := idx_facts t
  obtain ⟨-, -, x0, x1, -⟩ := xsize_facts t
  rw [rows2_piece]
  funext j
  have hj0 : (j 0).val < win1_5.xsize (grid1.coords t) (0 : Fin 2) := (j 0).isLt
  have hj1 : (j 1).val < win1_5.xsize (grid1.coords t) (1 : Fin 2) := (j 1).isLt
  rw [x0] at hj0; rw [x1] at hj1
  have hr0 : (j 0).val < 800 := by split at hj0 <;> omega
  have hr : 800 * (t.val % 13) + (j 0).val < 10000 := by split at hj0 <;> omega
  have hl : win1_5.xinj (grid1.coords t) j = ix2 (⟨(j 0).val, hr0⟩ : Fin 800) (⟨(j 1).val, hj1⟩ : Fin 64) :=
    funext fun a => Fin.ext (by match a with | ⟨0, _⟩ => rfl | ⟨1, _⟩ => rfl)
  have hrr : ((cfg1.win 5).blk t).view.emb j
      = ix2 (⟨800 * (t.val % 13) + (j 0).val, hr⟩ : Fin 10000) (⟨(j 1).val, hj1⟩ : Fin 64) := funext fun a => Fin.ext (by
    match a with
    | ⟨0, _⟩ => show win1_5.index t (0 : Fin 2) * 800 + 1 * (j 0).val = 800 * (t.val % 13) + (j 0).val; rw [e0, if_pos h]; omega
    | ⟨1, _⟩ => show win1_5.index t (1 : Fin 2) * 64 + 1 * (j 1).val = (j 1).val; omega)
  show k1_pay1 (F := Ideal) (adjAt V c t d) (iblk V c 1 t) (iblk V c 2 t) (win1_5.xinj (grid1.coords t) j)
    = tgt2 V c (((cfg1.win 5).blk t).view.emb j)
  exact (congrArg (k1_pay1 (F := Ideal) (adjAt V c t d) (iblk V c 1 t) (iblk V c 2 t)) hl).trans
    ((pay1_at V c t d _ _ hr).trans (congrArg (tgt2 V c) hrr.symm))

/-- A phase-0 point extends what the scratch carries by its 800 rows. -/
theorem carry_fact (c : Dev nD) (t : Fin cfg1.N) (h : t.val < 13) (d : S800x10000.Idx → Elt Ideal .bf16) (xs : Vec Ideal S10400x16 .bf16)
    (hc : Carries (projZ V c) t.val xs) : Carries (projZ V c) (t.val + 1) (scratchAfter V c t h d xs) := by
  intro r k hr1 hr2
  obtain ⟨o0, o1⟩ := off_facts t h
  rw [scratch_piece]
  by_cases hlow : r.val < 800 * t.val
  · refine (View.read_writes_apply_of_forall_not_mem _ _ (ix2 r k) _ (fun p hp => ?_)).trans ?_
    · rw [List.mem_singleton] at hp; subst hp
      intro hmem
      have hmem' : ix2 r k ∈ (Rect.unit (s := S10400x16) (k1_off1 (grid1.coords t)) S800x16.size
          (k1_off1_inb (grid1.coords t) ((inPhase0_iff t).mpr h))).set := hmem
      have h0 := (Rect.mem_set_unit.mp hmem') (0 : Fin 2)
      have h0' : k1_off1 (grid1.coords t) (0 : Fin 2) ≤ r.val := h0.1
      omega
    · exact (congrFun ((Memref.isWhole_whole cc1_scratch0).read_unread xs) (ix2 r k)).trans (hc r k hlow hr2)
  · have hr' : r.val - 800 * t.val < 800 := by omega
    have hemb : (slab t h).emb (ix2 (⟨r.val - 800 * t.val, hr'⟩ : Fin 800) k) = ix2 r k := funext fun a => Fin.ext (by
      match a with
      | ⟨0, _⟩ => show k1_off1 (grid1.coords t) (0 : Fin 2) + 1 * (r.val - 800 * t.val) = r.val; omega
      | ⟨1, _⟩ => show k1_off1 (grid1.coords t) (1 : Fin 2) + 1 * k.val = k.val; omega)
    have e := View.read_writes_cons_emb (projM : Memref sig .tc .vmem S10400x16 .bf16).view ((Memref.isWhole_whole cc1_scratch0).unread xs)
      (slab t h) (k1_pay2 (F := Ideal) (adjAt V c t d) (iblk V c 1 t) (iblk V c 2 t) (iblk V c 4 t)) [] (ix2 (⟨r.val - 800 * t.val, hr'⟩ : Fin 800) k)
    rw [hemb] at e
    refine e.trans ?_
    have hR : 800 * (t.val % 13) + (r.val - 800 * t.val) < 10000 := by omega
    refine (pay2_at V c t d ⟨r.val - 800 * t.val, hr'⟩ k hR).trans ?_
    exact congrArg (projZ V c) (funext fun a => Fin.ext (by
      match a with
      | ⟨0, _⟩ => show 800 * (t.val % 13) + (r.val - 800 * t.val) = r.val; omega
      | ⟨1, _⟩ => rfl))

/-- On the rows the write-back moves, a phase-1 point leaves the third layer's block, -/
theorem third_fact (c : Dev nD) (t : Fin cfg1.N) (h : ¬t.val < 13) (d : S800x10000.Idx → Elt Ideal .bf16) (xs : Vec Ideal S10400x16 .bf16)
    (hc : Carries (projZ V c) 13 xs) :
    (cfg1.win 6).cut (grid1.coords t) (rows3 V c t h d xs) = ((cfg1.win 6).blk t).view.read (Elt Ideal) (tgt3 V c) := by
  have ht : t.val < 26 := lt_of_lt_of_eq t.isLt N_1
  obtain ⟨-, -, -, -, -, -, -, -, -, -, -, -, e0, e1, -⟩ := idx_facts t
  obtain ⟨-, -, -, -, x0, x1, -⟩ := xsize_facts t
  rw [rows3_piece]
  funext j
  have hj0 : (j 0).val < win1_6.xsize (grid1.coords t) (0 : Fin 2) := (j 0).isLt
  have hj1 : (j 1).val < win1_6.xsize (grid1.coords t) (1 : Fin 2) := (j 1).isLt
  rw [x0] at hj0; rw [x1] at hj1
  have hr0 : (j 0).val < 800 := by split at hj0 <;> omega
  have hr : 800 * (t.val % 13) + (j 0).val < 10000 := by split at hj0 <;> omega
  have hl : win1_6.xinj (grid1.coords t) j = ix2 (⟨(j 0).val, hr0⟩ : Fin 800) (⟨(j 1).val, hj1⟩ : Fin 16) :=
    funext fun a => Fin.ext (by match a with | ⟨0, _⟩ => rfl | ⟨1, _⟩ => rfl)
  have hrr : ((cfg1.win 6).blk t).view.emb j
      = ix2 (⟨800 * (t.val % 13) + (j 0).val, hr⟩ : Fin 10000) (⟨(j 1).val, hj1⟩ : Fin 16) := funext fun a => Fin.ext (by
    match a with
    | ⟨0, _⟩ => show win1_6.index t (0 : Fin 2) * 800 + 1 * (j 0).val = 800 * (t.val % 13) + (j 0).val; rw [e0, if_neg h]; omega
    | ⟨1, _⟩ => show win1_6.index t (1 : Fin 2) * 16 + 1 * (j 1).val = (j 1).val; omega)
  show k1_pay3 (F := Ideal) (adjAt V c t d) (head xs) (iblk V c 3 t) (win1_6.xinj (grid1.coords t) j)
    = tgt3 V c (((cfg1.win 6).blk t).view.emb j)
  exact (congrArg (k1_pay3 (F := Ideal) (adjAt V c t d) (head xs) (iblk V c 3 t)) hl).trans
    ((pay3_at V c t d xs hc _ _ hr).trans (congrArg (tgt3 V c) hrr.symm))

/-- and its log-softmax's. -/
theorem lsm_fact (c : Dev nD) (t : Fin cfg1.N) (h : ¬t.val < 13) (d : S800x10000.Idx → Elt Ideal .bf16) (xs : Vec Ideal S10400x16 .bf16)
    (hc : Carries (projZ V c) 13 xs) :
    (cfg1.win 7).cut (grid1.coords t) (lsm3 V c t h d xs) = ((cfg1.win 7).blk t).view.read (Elt Ideal) (tgtL V c) := by
  have ht : t.val < 26 := lt_of_lt_of_eq t.isLt N_1
  obtain ⟨-, -, -, -, -, -, -, -, -, -, -, -, -, -, e0, e1⟩ := idx_facts t
  obtain ⟨-, -, -, -, -, -, x0, x1⟩ := xsize_facts t
  rw [lsm3_piece]
  funext j
  have hj0 : (j 0).val < win1_7.xsize (grid1.coords t) (0 : Fin 2) := (j 0).isLt
  have hj1 : (j 1).val < win1_7.xsize (grid1.coords t) (1 : Fin 2) := (j 1).isLt
  rw [x0] at hj0; rw [x1] at hj1
  have hr0 : (j 0).val < 800 := by split at hj0 <;> omega
  have hr : 800 * (t.val % 13) + (j 0).val < 10000 := by split at hj0 <;> omega
  have hl : win1_7.xinj (grid1.coords t) j = ix2 (⟨(j 0).val, hr0⟩ : Fin 800) (⟨(j 1).val, hj1⟩ : Fin 16) :=
    funext fun a => Fin.ext (by match a with | ⟨0, _⟩ => rfl | ⟨1, _⟩ => rfl)
  have hrr : ((cfg1.win 7).blk t).view.emb j
      = ix2 (⟨800 * (t.val % 13) + (j 0).val, hr⟩ : Fin 10000) (⟨(j 1).val, hj1⟩ : Fin 16) := funext fun a => Fin.ext (by
    match a with
    | ⟨0, _⟩ => show win1_7.index t (0 : Fin 2) * 800 + 1 * (j 0).val = 800 * (t.val % 13) + (j 0).val; rw [e0, if_neg h]; omega
    | ⟨1, _⟩ => show win1_7.index t (1 : Fin 2) * 16 + 1 * (j 1).val = (j 1).val; omega)
  show k1_pay4 (F := Ideal) (adjAt V c t d) (head xs) (iblk V c 3 t) (win1_7.xinj (grid1.coords t) j)
    = tgtL V c (((cfg1.win 7).blk t).view.emb j)
  exact (congrArg (k1_pay4 (F := Ideal) (adjAt V c t d) (head xs) (iblk V c 3 t)) hl).trans
    ((pay4_at V c t d xs hc _ _ hr).trans (congrArg (tgtL V c) hrr.symm))

/-- The four facts, at the targets. -/
theorem runFacts : RunFacts (F := Ideal) V (tgt2 V) (tgt3 V) (tgtL V) (projZ V) where
  second := second_fact V
  carry := carry_fact V
  third := third_fact V
  lsm := lsm_fact V

end Fields

end Cert.KernelIdeal.LayerTwoThree

end
-- ==== Proof.Bridge.lean ====
/-
  From the contents of the buffers at each of the two calls' entry to the eight argument arrays.

  The program reshapes the two first bias vectors [64] and the last [16] to rows [1,64] and [1,16] and changes the format of
  the two later weight matrices before the calls that read them; on the extended reals a change of format is the identity,
  and a vector reshaped to a row reads, at (0, k), the vector at k. No argument array is written by anything. So each array a
  call finds is one of the arguments (or, for the second call, one of the first call's results), and the targets of the two
  calls, stated over what the calls find, are the specification's layers of the eight arguments.
-/
import proofs.«182206_g44306882625589_cont_8to1_c_1074_19_alg».proof.Proof.Frames
import proofs.«182206_g44306882625589_cont_8to1_c_1074_19_alg».proof.Proof.LayerOne.Values
import proofs.«182206_g44306882625589_cont_8to1_c_1074_19_alg».proof.Proof.LayerTwoThree.Values
import proofs.«182206_g44306882625589_cont_8to1_c_1074_19_alg».proof.Proof.Spec
import proofs.«182206_g44306882625589_cont_8to1_c_1074_19_alg».proof.Proof.Gen.KernelIdeal.Regions
import Idealize.ShloMosaic.Lib.StableHlo.Run
import Idealize.ShloMosaic.Lib.ValueLayout
import Idealize.ShloMosaic.Lib.ValueIdx

set_option maxRecDepth 16384

noncomputable section

namespace Cert.Gcn.Bridge

open Cert.KernelIdeal Cert.KernelIdeal.Gen
open Idealize.ShloMosaic Idealize.ShloMosaic.TcCoe Idealize.ShloMosaic.ValueIdx
open Idealize.ShloMosaic.StableHlo
open Idealize.SL.Sem

variable (m : (ℓ : Loc nD τ sig) → Buf (Elt Ideal) ℓ)

/-- The eight argument arrays of core c as launched. -/
abbrev a0 (c : Dev nD) : Cert.Gcn.Sx.Idx → EReal := m ((c : Thread nD τ).loc main_arg0)
abbrev a1 (c : Dev nD) : Cert.Gcn.Sadj.Idx → EReal := m ((c : Thread nD τ).loc main_arg1)
abbrev a2 (c : Dev nD) : Cert.Gcn.Sw1.Idx → EReal := m ((c : Thread nD τ).loc main_arg2)
abbrev a3 (c : Dev nD) : Cert.Gcn.Sb64.Idx → EReal := m ((c : Thread nD τ).loc main_arg3)
abbrev a4 (c : Dev nD) : Cert.Gcn.Sw2.Idx → EReal := m ((c : Thread nD τ).loc main_arg4)
abbrev a5 (c : Dev nD) : Cert.Gcn.Sb64.Idx → EReal := m ((c : Thread nD τ).loc main_arg5)
abbrev a6 (c : Dev nD) : Cert.Gcn.Sw3.Idx → EReal := m ((c : Thread nD τ).loc main_arg6)
abbrev a7 (c : Dev nD) : Cert.Gcn.Sb16.Idx → EReal := m ((c : Thread nD τ).loc main_arg7)

/-! ## What the first call finds -/

theorem V1_arg0 (c : Dev nD) : (Frames.V1 m c main_arg0 : S10000x128.Idx → EReal) = a0 m c :=
  StableHlo.after_of_writes_sub hostOps0 _ hostOps0_writes (r := main_arg0) (by decide)
theorem V1_arg1 (c : Dev nD) : (Frames.V1 m c main_arg1 : S10000x10000.Idx → EReal) = a1 m c :=
  StableHlo.after_of_writes_sub hostOps0 _ hostOps0_writes (r := main_arg1) (by decide)
theorem V1_arg2 (c : Dev nD) : (Frames.V1 m c main_arg2 : S128x64.Idx → EReal) = a2 m c :=
  StableHlo.after_of_writes_sub hostOps0 _ hostOps0_writes (r := main_arg2) (by decide)

/-- The first bias as a row. -/
theorem V1_v0 (c : Dev nD) (k : Fin 64) : (Frames.V1 m c main_v0 : S1x64.Idx → EReal) (ix2 0 k) = a3 m c (ix1 k) := by
  have e : (Frames.V1 m c main_v0 : S1x64.Idx → EReal) = shapeCast S1x64 (a3 m c) shapeCasts_S64_S1x64 := by
    show StableHlo.after hostOps0 (fun b => m (c, b)) (Proc.devRef .tc main_v0) = _
    after_results
    rfl
  rw [e]
  exact shapeCast_a_1a_apply _ _ 0 k

/-- The second weights in the other format. -/
theorem V1_v1 (c : Dev nD) : (Frames.V1 m c main_v1 : S64x64.Idx → EReal) = a4 m c := by
  show StableHlo.after hostOps0 (fun b => m (c, b)) (Proc.devRef .tc main_v1) = _
  after_results
  rfl

/-! ## What the second call finds -/

theorem W2_arg (c : Dev nD) (r : Ref sig .tc) (hr : ∀ w, Pipeline.arrRef spec0 w ≠ r) (h0 : r ∉ hostOps0_W) :
    Frames.W2 m c (Proc.devRef .tc r) = m ((c : Thread nD τ).loc r) :=
  (Frames.W2_of_ne m c r hr).trans (StableHlo.after_of_writes_sub hostOps0 _ hostOps0_writes (r := r) h0)

/-- The second bias as a row. -/
theorem V3_v3 (c : Dev nD) (k : Fin 64) : (Frames.V3 m c main_v3 : S1x64.Idx → EReal) (ix2 0 k) = a5 m c (ix1 k) := by
  have e : (Frames.V3 m c main_v3 : S1x64.Idx → EReal)
      = shapeCast S1x64 (Frames.W2 m c (Proc.devRef .tc main_arg5) : S64.Idx → EReal) shapeCasts_S64_S1x64 := by
    show StableHlo.after hostOps1 (Frames.W2 m c) (Proc.devRef .tc main_v3) = _
    after_results
    rfl
  have e5 : (Frames.W2 m c (Proc.devRef .tc main_arg5) : S64.Idx → EReal) = a5 m c := W2_arg m c main_arg5 (by decide) (by decide)
  rw [e, e5]
  exact shapeCast_a_1a_apply _ _ 0 k

/-- The third bias as a row. -/
theorem V3_v4 (c : Dev nD) (k : Fin 16) : (Frames.V3 m c main_v4 : S1x16.Idx → EReal) (ix2 0 k) = a7 m c (ix1 k) := by
  have e : (Frames.V3 m c main_v4 : S1x16.Idx → EReal)
      = shapeCast S1x16 (Frames.W2 m c (Proc.devRef .tc main_arg7) : S16.Idx → EReal) shapeCasts_S16_S1x16 := by
    show StableHlo.after hostOps1 (Frames.W2 m c) (Proc.devRef .tc main_v4) = _
    after_results
    rfl
  have e7 : (Frames.W2 m c (Proc.devRef .tc main_arg7) : S16.Idx → EReal) = a7 m c := W2_arg m c main_arg7 (by decide) (by decide)
  rw [e, e7]
  exact shapeCast_a_1a_apply _ _ 0 k

/-- The third weights in the other format. -/
theorem V3_v5 (c : Dev nD) : (Frames.V3 m c main_v5 : S64x16.Idx → EReal) = a6 m c := by
  have e : (Frames.V3 m c main_v5 : S64x16.Idx → EReal) = (Frames.W2 m c (Proc.devRef .tc main_arg6) : S64x16.Idx → EReal) := by
    show StableHlo.after hostOps1 (Frames.W2 m c) (Proc.devRef .tc main_v5) = _
    after_results
    rfl
  exact e.trans (W2_arg m c main_arg6 (by decide) (by decide))

/-- The first call's second and third results reach the second call as its write-backs left them. -/
theorem V3_v2_1 (c : Dev nD) : Frames.V3 m c main_v2_1 = LayerOne.tgtA (Frames.V1 m) c :=
  calc Frames.W3 m c (Proc.devRef .tc main_v2_1)
    _ = Frames.W2 m c (Proc.devRef .tc main_v2_1) := StableHlo.after_of_writes_sub hostOps1 _ hostOps1_writes (r := main_v2_1) (by decide)
    _ = (LayerOne.dat (Frames.V1 m) c).arrAt 6 cfg0.N := Frames.W2_arr m c 6
    _ = LayerOne.tgtA (Frames.V1 m) c := LayerOne.final6 (Frames.V1 m) c
theorem V3_v2_2 (c : Dev nD) : Frames.V3 m c main_v2_2 = LayerOne.tgtN (Frames.V1 m) c :=
  calc Frames.W3 m c (Proc.devRef .tc main_v2_2)
    _ = Frames.W2 m c (Proc.devRef .tc main_v2_2) := StableHlo.after_of_writes_sub hostOps1 _ hostOps1_writes (r := main_v2_2) (by decide)
    _ = (LayerOne.dat (Frames.V1 m) c).arrAt 7 cfg0.N := Frames.W2_arr m c 7
    _ = LayerOne.tgtN (Frames.V1 m) c := LayerOne.final7 (Frames.V1 m) c

/-! ## The targets are the specification's layers -/

/-- The first layer. -/
theorem first_eq (c : Dev nD) :
    LayerOne.firstArr (Frames.V1 m) c = Cert.Gcn.H1 (a0 m c) (a1 m c) (a2 m c) (a3 m c) := by
  funext i
  obtain ⟨r, q, rfl⟩ : ∃ (r : Fin 10000) (q : Fin 64), i = ix2 r q := ⟨i 0, i 1, eq_ix2 i⟩
  rw [LayerOne.firstArr_apply, Cert.Gcn.H1_apply]
  refine congrArg₂ (· + ·) (Finset.sum_congr rfl fun j _ => ?_) (V1_v0 m c q)
  rw [Cert.Gcn.P1_apply]
  exact congrArg₂ (· * ·) (congrFun (V1_arg1 m c) (ix2 r j))
    (Finset.sum_congr rfl fun k _ => congrArg₂ (· * ·) (congrFun (V1_arg0 m c) (ix2 j k)) (congrFun (V1_arg2 m c) (ix2 k q)))

theorem b1 (c : Dev nD) : (LayerOne.tgt1 (Frames.V1 m) c : Cert.Gcn.Sh.Idx → EReal) = Cert.Gcn.H1 (a0 m c) (a1 m c) (a2 m c) (a3 m c) :=
  first_eq m c

/-- The adjacency the second call reads is the argument. -/
theorem adjb_eq (c : Dev nD) : LayerTwoThree.adjb (Frames.V3 m) c = a1 m c :=
  (V3_v2_1 m c).trans (funext fun (i : S10000x10000.Idx) => congrFun (V1_arg1 m c) i)

/-- The projection the second call reads is the specification's second projection. -/
theorem z2_eq (c : Dev nD) : LayerTwoThree.z2 (Frames.V3 m) c = Cert.Gcn.P2 (a0 m c) (a1 m c) (a2 m c) (a3 m c) (a4 m c) := by
  refine (V3_v2_2 m c).trans ?_
  show LayerOne.nextArr (Frames.V1 m) c = _
  funext i
  obtain ⟨r, q, rfl⟩ : ∃ (r : Fin 10000) (q : Fin 64), i = ix2 r q := ⟨i 0, i 1, eq_ix2 i⟩
  rw [LayerOne.nextArr_apply, Cert.Gcn.P2_apply, first_eq]
  exact Finset.sum_congr rfl fun k _ => congrArg (fun s => max (Cert.Gcn.H1 (a0 m c) (a1 m c) (a2 m c) (a3 m c) (ix2 r k)) 0 * s)
    (congrFun (V1_v1 m c) (ix2 k q))

/-- The second layer. -/
theorem b2 (c : Dev nD) :
    LayerTwoThree.tgt2 (Frames.V3 m) c = Cert.Gcn.H2 (a0 m c) (a1 m c) (a2 m c) (a3 m c) (a4 m c) (a5 m c) := by
  funext i
  obtain ⟨r, q, rfl⟩ : ∃ (r : Fin 10000) (q : Fin 64), i = ix2 r q := ⟨i 0, i 1, eq_ix2 i⟩
  rw [Cert.Gcn.H2_apply]
  show (∑ j : Fin 10000, LayerTwoThree.adjb (Frames.V3 m) c (ix2 r j) * LayerTwoThree.z2 (Frames.V3 m) c (ix2 j q))
      + LayerTwoThree.b2r (Frames.V3 m) c (ix2 0 q) = _
  rw [adjb_eq, z2_eq]
  exact congrArg (fun s => (∑ j : Fin 10000, a1 m c (ix2 r j) * Cert.Gcn.P2 (a0 m c) (a1 m c) (a2 m c) (a3 m c) (a4 m c) (ix2 j q)) + s)
    (V3_v3 m c q)

/-- The third projection on a row of the array. -/
theorem projZ_eq (c : Dev nD) (j : Fin 10000) (q : Fin 16) :
    LayerTwoThree.projZ (Frames.V3 m) c (ix2 ⟨j.val, Nat.lt_of_lt_of_le j.isLt (by decide)⟩ q)
      = Cert.Gcn.P3 (a0 m c) (a1 m c) (a2 m c) (a3 m c) (a4 m c) (a5 m c) (a6 m c) (ix2 j q) := by
  unfold LayerTwoThree.projZ
  rw [dif_pos (show ((ix2 (⟨j.val, Nat.lt_of_lt_of_le j.isLt (by decide)⟩ : Fin 10400) q : S10400x16.Idx) 0).val < 10000 from j.isLt),
    Cert.Gcn.P3_apply, b2]
  exact Finset.sum_congr rfl fun k _ => congrArg (fun s => max (Cert.Gcn.H2 (a0 m c) (a1 m c) (a2 m c) (a3 m c) (a4 m c) (a5 m c) (ix2 j k)) 0 * s)
    (congrFun (V3_v5 m c) (ix2 k q))

/-- The third layer. -/
theorem b3 (c : Dev nD) :
    LayerTwoThree.tgt3 (Frames.V3 m) c
      = Cert.Gcn.H3 (a0 m c) (a1 m c) (a2 m c) (a3 m c) (a4 m c) (a5 m c) (a6 m c) (a7 m c) := by
  funext i
  obtain ⟨r, q, rfl⟩ : ∃ (r : Fin 10000) (q : Fin 16), i = ix2 r q := ⟨i 0, i 1, eq_ix2 i⟩
  rw [Cert.Gcn.H3_apply]
  show (∑ j : Fin 10000, LayerTwoThree.adjb (Frames.V3 m) c (ix2 r j)
        * LayerTwoThree.projZ (Frames.V3 m) c (ix2 ⟨j.val, Nat.lt_of_lt_of_le j.isLt (by decide)⟩ q))
      + LayerTwoThree.b3r (Frames.V3 m) c (ix2 0 q) = _
  rw [adjb_eq]
  exact congrArg₂ (· + ·) (Finset.sum_congr rfl fun j _ => congrArg (a1 m c (ix2 r j) * ·) (projZ_eq m c j q)) (V3_v4 m c q)

/-- The log-softmax of the third layer. -/
theorem bL (c : Dev nD) :
    LayerTwoThree.tgtL (Frames.V3 m) c
      = Cert.Gcn.OutK (a0 m c) (a1 m c) (a2 m c) (a3 m c) (a4 m c) (a5 m c) (a6 m c) (a7 m c) := by
  unfold LayerTwoThree.tgtL Cert.Gcn.OutK
  rw [b3]

end Cert.Gcn.Bridge

end
-- ==== Proof.RefValue.lean ====
/-
  The reference's four results, read off its run, are the specification's functions of the eight argument arrays:
  the three layers H1, H2, H3 and the log-softmax of H3 in its second arrangement.

  Each stage of the reference is read at an index by the read-at-an-index lemmas of its run: a product of matrices as the sum
  over the contracted coordinate, a bias through its two broadcasts as the entry at the column, a relu as the maximum with
  the zero word (which denotes 0), the exp-sum as the zero word plus the sum over the 16 columns. The one stage those lemmas
  do not read, the row maximum, is a fold of max over the row's 16 coordinates from the word of -∞, which denotes the
  bottom; the reference's further maximum with -∞ is then the identity.
-/
import proofs.«182206_g44306882625589_cont_8to1_c_1074_19_alg».proof.Proof.ReadP
import proofs.«182206_g44306882625589_cont_8to1_c_1074_19_alg».proof.Proof.Spec

noncomputable section

namespace Cert.Gcn.RefValue

open Cert.ReferenceIdeal Cert.ReferenceIdeal.Gen Cert.ReferenceIdeal.ReadP Cert.Gcn
open Idealize.ShloMosaic Idealize.ShloMosaic.TcCoe Idealize.SL.Sem Idealize.ShloMosaic.StableHlo Idealize.ShloMosaic.ValueIdx

/-! ## The stages' index maps, at an index (r, c), are the coordinate constructors -/

theorem lidx0 (r : Fin 10000) (c : Fin 64) (k : Fin 128) : lidx_main_v0 (ix2 r c) k = ix2 r k := funext fun a => by match a with | ⟨0, _⟩ => rfl | ⟨1, _⟩ => rfl
theorem ridx0 (r : Fin 10000) (c : Fin 64) (k : Fin 128) : ridx_main_v0 (ix2 r c) k = ix2 k c := funext fun a => by match a with | ⟨0, _⟩ => rfl | ⟨1, _⟩ => rfl
theorem lidx1 (r : Fin 10000) (c : Fin 64) (k : Fin 10000) : lidx_main_v1 (ix2 r c) k = ix2 r k := funext fun a => by match a with | ⟨0, _⟩ => rfl | ⟨1, _⟩ => rfl
theorem ridx1 (r : Fin 10000) (c : Fin 64) (k : Fin 10000) : ridx_main_v1 (ix2 r c) k = ix2 k c := funext fun a => by match a with | ⟨0, _⟩ => rfl | ⟨1, _⟩ => rfl
theorem lidx6 (r : Fin 10000) (c : Fin 64) (k : Fin 64) : lidx_main_v6 (ix2 r c) k = ix2 r k := funext fun a => by match a with | ⟨0, _⟩ => rfl | ⟨1, _⟩ => rfl
theorem ridx6 (r : Fin 10000) (c : Fin 64) (k : Fin 64) : ridx_main_v6 (ix2 r c) k = ix2 k c := funext fun a => by match a with | ⟨0, _⟩ => rfl | ⟨1, _⟩ => rfl
theorem lidx7 (r : Fin 10000) (c : Fin 64) (k : Fin 10000) : lidx_main_v7 (ix2 r c) k = ix2 r k := funext fun a => by match a with | ⟨0, _⟩ => rfl | ⟨1, _⟩ => rfl
theorem ridx7 (r : Fin 10000) (c : Fin 64) (k : Fin 10000) : ridx_main_v7 (ix2 r c) k = ix2 k c := funext fun a => by match a with | ⟨0, _⟩ => rfl | ⟨1, _⟩ => rfl
theorem lidx12 (r : Fin 10000) (c : Fin 16) (k : Fin 64) : lidx_main_v12 (ix2 r c) k = ix2 r k := funext fun a => by match a with | ⟨0, _⟩ => rfl | ⟨1, _⟩ => rfl
theorem ridx12 (r : Fin 10000) (c : Fin 16) (k : Fin 64) : ridx_main_v12 (ix2 r c) k = ix2 k c := funext fun a => by match a with | ⟨0, _⟩ => rfl | ⟨1, _⟩ => rfl
theorem lidx13 (r : Fin 10000) (c : Fin 16) (k : Fin 10000) : lidx_main_v13 (ix2 r c) k = ix2 r k := funext fun a => by match a with | ⟨0, _⟩ => rfl | ⟨1, _⟩ => rfl
theorem ridx13 (r : Fin 10000) (c : Fin 16) (k : Fin 10000) : ridx_main_v13 (ix2 r c) k = ix2 k c := funext fun a => by match a with | ⟨0, _⟩ => rfl | ⟨1, _⟩ => rfl
theorem bidx3 (r : Fin 10000) (c : Fin 64) : idx_main_v2 (idx_main_v3 (ix2 r c)) = ix1 c := funext fun a => by match a with | ⟨0, _⟩ => rfl
theorem bidx9 (r : Fin 10000) (c : Fin 64) : idx_main_v8 (idx_main_v9 (ix2 r c)) = ix1 c := funext fun a => by match a with | ⟨0, _⟩ => rfl
theorem bidx15 (r : Fin 10000) (c : Fin 16) : idx_main_v14 (idx_main_v15 (ix2 r c)) = ix1 c := funext fun a => by match a with | ⟨0, _⟩ => rfl
theorem midx (r : Fin 10000) (c : Fin 16) : idx_main_call2_v3 (idx_main_call2_v4 (ix2 r c)) = ix1 r := funext fun a => by match a with | ⟨0, _⟩ => rfl
theorem sidx (r : Fin 10000) (c : Fin 16) : idx_main_call2_v8 (idx_main_call2_v10 (ix2 r c)) = ix1 r := funext fun a => by match a with | ⟨0, _⟩ => rfl
theorem eidx (r : Fin 10000) (k : Fin 16) : idx_main_call2_v7 (ix1 r) k = ix2 r k := funext fun a => by match a with | ⟨0, _⟩ => rfl | ⟨1, _⟩ => rfl

section
variable (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x16, .f32⟩ : BufTy).Contents (Elt Ideal)) (x7 : (⟨S16, .f32⟩ : BufTy).Contents (Elt Ideal))

/-! ## The first layer -/

theorem p1_eq : val_main_v0 (F := Ideal) x0 x2 = P1 x0 x2 := by
  funext i
  obtain ⟨r, c, rfl⟩ : ∃ (r : Fin 10000) (c : Fin 64), i = ix2 r c := ⟨i 0, i 1, eq_ix2 i⟩
  rw [val_main_v0_apply, P1_apply]
  refine Finset.sum_congr rfl fun k _ => ?_
  rw [lidx0, ridx0]

theorem bias1 (r : Fin 10000) (c : Fin 64) : val_main_v3 (F := Ideal) x3 (ix2 r c) = x3 (ix1 c) := by
  rw [val_main_v3_apply, val_main_v2_apply, bidx3]

theorem h1_eq : val_main_v4 (F := Ideal) x0 x1 x2 x3 = H1 x0 x1 x2 x3 := by
  funext i
  obtain ⟨r, c, rfl⟩ : ∃ (r : Fin 10000) (c : Fin 64), i = ix2 r c := ⟨i 0, i 1, eq_ix2 i⟩
  rw [val_main_v4_apply, val_main_v1_apply, bias1, p1_eq, Ideal.addf_def, H1_apply]
  refine congrArg (· + x3 (ix1 c)) (Finset.sum_congr rfl fun k _ => ?_)
  rw [lidx1, ridx1]

/-! ## The second layer -/

theorem relu1 (i : S10000x64.Idx) : val_main_v5 (F := Ideal) x0 x1 x2 x3 i = max (H1 x0 x1 x2 x3 i) 0 := by
  rw [val_main_v5_apply, val_main_call0_v0_apply, val_main_call0_cst_apply, h1_eq, Ideal.maximumf_def, Ideal.ofBits_def,
    Ideal.ofBits_zero_f32]

theorem p2_eq : val_main_v6 (F := Ideal) x0 x1 x2 x3 x4 = P2 x0 x1 x2 x3 x4 := by
  funext i
  obtain ⟨r, c, rfl⟩ : ∃ (r : Fin 10000) (c : Fin 64), i = ix2 r c := ⟨i 0, i 1, eq_ix2 i⟩
  rw [val_main_v6_apply, P2_apply]
  refine Finset.sum_congr rfl fun k _ => ?_
  rw [relu1, lidx6, ridx6]

theorem bias2 (r : Fin 10000) (c : Fin 64) : val_main_v9 (F := Ideal) x5 (ix2 r c) = x5 (ix1 c) := by
  rw [val_main_v9_apply, val_main_v8_apply, bidx9]

theorem h2_eq : val_main_v10 (F := Ideal) x0 x1 x2 x3 x4 x5 = H2 x0 x1 x2 x3 x4 x5 := by
  funext i
  obtain ⟨r, c, rfl⟩ : ∃ (r : Fin 10000) (c : Fin 64), i = ix2 r c := ⟨i 0, i 1, eq_ix2 i⟩
  rw [val_main_v10_apply, val_main_v7_apply, bias2, p2_eq, Ideal.addf_def, H2_apply]
  refine congrArg (· + x5 (ix1 c)) (Finset.sum_congr rfl fun k _ => ?_)
  rw [lidx7, ridx7]

/-! ## The third layer -/

theorem relu2 (i : S10000x64.Idx) : val_main_v11 (F := Ideal) x0 x1 x2 x3 x4 x5 i = max (H2 x0 x1 x2 x3 x4 x5 i) 0 := by
  rw [val_main_v11_apply, val_main_call1_v0_apply, val_main_call1_cst_apply, h2_eq, Ideal.maximumf_def, Ideal.ofBits_def,
    Ideal.ofBits_zero_f32]

theorem p3_eq : val_main_v12 (F := Ideal) x0 x1 x2 x3 x4 x5 x6 = P3 x0 x1 x2 x3 x4 x5 x6 := by
  funext i
  obtain ⟨r, c, rfl⟩ : ∃ (r : Fin 10000) (c : Fin 16), i = ix2 r c := ⟨i 0, i 1, eq_ix2 i⟩
  rw [val_main_v12_apply, P3_apply]
  refine Finset.sum_congr rfl fun k _ => ?_
  rw [relu2, lidx12, ridx12]

theorem bias3 (r : Fin 10000) (c : Fin 16) : val_main_v15 (F := Ideal) x7 (ix2 r c) = x7 (ix1 c) := by
  rw [val_main_v15_apply, val_main_v14_apply, bidx15]

theorem h3_eq : val_main_v16 (F := Ideal) x0 x1 x2 x3 x4 x5 x6 x7 = H3 x0 x1 x2 x3 x4 x5 x6 x7 := by
  funext i
  obtain ⟨r, c, rfl⟩ : ∃ (r : Fin 10000) (c : Fin 16), i = ix2 r c := ⟨i 0, i 1, eq_ix2 i⟩
  rw [val_main_v16_apply, val_main_v13_apply, bias3, p3_eq, Ideal.addf_def, H3_apply]
  refine congrArg (· + x7 (ix1 c)) (Finset.sum_congr rfl fun k _ => ?_)
  rw [lidx13, ridx13]

/-! ## The row maximum -/

/-- The row r with the column k put back is (r, k). -/
theorem lift_row (h : S10000x16.Reduces [1] S10000) (r : Fin 10000) (k : Fin (S10000x16.size 1)) :
    h.lift (ix1 r) k = ix2 r (⟨k.val, k.isLt⟩ : Fin 16) := by
  funext c; apply Fin.ext
  fin_cases c <;> rfl

/-- The reference's max-reduce of H3 over the columns, at row r, is the row maximum. -/
theorem rowmax_eq (r : Fin 10000) :
    val_main_call2_v0 (F := Ideal) x0 x1 x2 x3 x4 x5 x6 x7 (ix1 r) = rowMax (H3 x0 x1 x2 x3 x4 x5 x6 x7) r := by
  have hred : S10000x16.Reduces [1] S10000 := by decide
  unfold val_main_call2_v0
  rw [h3_eq, Host.reduce_eq_fold_single FloatOps.maximumf _ _ _ hred _, val_main_call2_cst_apply, Ideal.ofBits_def, ofBits_negInf]
  have hf : (H3 x0 x1 x2 x3 x4 x5 x6 x7 ∘ hred.lift (ix1 r)) = fun k : Fin 16 => H3 x0 x1 x2 x3 x4 x5 x6 x7 (ix2 r k) :=
    funext fun k => congrArg (H3 x0 x1 x2 x3 x4 x5 x6 x7) (lift_row hred r k)
  exact congrArg (fun f => Finset.fold max (⊥ : EReal) f (Finset.univ : Finset (Fin 16))) hf

/-- The maximum the reference subtracts (its max-reduce, then the maximum with -∞, broadcast along the row). -/
theorem mrow (r : Fin 10000) (c : Fin 16) :
    val_main_call2_v4 (F := Ideal) x0 x1 x2 x3 x4 x5 x6 x7 (ix2 r c) = rowMax (H3 x0 x1 x2 x3 x4 x5 x6 x7) r := by
  rw [val_main_call2_v4_apply, val_main_call2_v3_apply, val_main_call2_v2_apply, val_main_call2_v1_apply,
    val_main_call2_cst_0_apply, midx, rowmax_eq, Ideal.maximumf_def, Ideal.ofBits_def, ofBits_negInf, max_eq_right bot_le]

/-! ## The log-softmax -/

theorem shifted (r : Fin 10000) (c : Fin 16) :
    val_main_call2_v5 (F := Ideal) x0 x1 x2 x3 x4 x5 x6 x7 (ix2 r c)
      = H3 x0 x1 x2 x3 x4 x5 x6 x7 (ix2 r c) - rowMax (H3 x0 x1 x2 x3 x4 x5 x6 x7) r := by
  rw [val_main_call2_v5_apply, h3_eq, mrow, Ideal.subf_def]

theorem sumexp (r : Fin 10000) :
    val_main_call2_v7 (F := Ideal) x0 x1 x2 x3 x4 x5 x6 x7 (ix1 r)
      = ∑ k : Fin 16, Ideal.exp (H3 x0 x1 x2 x3 x4 x5 x6 x7 (ix2 r k) - rowMax (H3 x0 x1 x2 x3 x4 x5 x6 x7) r) := by
  rw [val_main_call2_v7_apply, val_main_call2_cst_1_apply, Ideal.ofBits_def, Ideal.ofBits_zero_f32, zero_add]
  refine Finset.sum_congr rfl fun k _ => ?_
  rw [val_main_call2_v6_apply, eidx, shifted, Ideal.hostUnary_exp_def]

theorem out_eq : val_main_v17 (F := Ideal) x0 x1 x2 x3 x4 x5 x6 x7 = OutR x0 x1 x2 x3 x4 x5 x6 x7 := by
  funext i
  obtain ⟨r, c, rfl⟩ : ∃ (r : Fin 10000) (c : Fin 16), i = ix2 r c := ⟨i 0, i 1, eq_ix2 i⟩
  rw [val_main_v17_apply, val_main_call2_v10_apply, val_main_call2_v9_apply, val_main_call2_v8_apply, sidx, sumexp, shifted,
    Ideal.hostUnary_log_def, Ideal.subf_def]
  exact (lsmR_apply (H3 x0 x1 x2 x3 x4 x5 x6 x7) r c).symm

end

/-! ## The reference's run, its four results the specification's functions -/

/-- Every weakly fair execution of the reference terminates with its four results at OutR, H1, H2, H3 of the arguments'
    launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = OutR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v4) = H1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v10) = H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v16) = H3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c =>
    ⟨(h c).1.trans ((val_main_v17_eq m c).trans (out_eq _ _ _ _ _ _ _ _)),
     (h c).2.1.trans ((val_main_v4_eq _ _ _ _).trans (h1_eq _ _ _ _)),
     (h c).2.2.1.trans ((val_main_v10_eq _ _ _ _ _ _).trans (h2_eq _ _ _ _ _ _)),
     (h c).2.2.2.1.trans ((val_main_v16_eq _ _ _ _ _ _ _ _).trans (h3_eq _ _ _ _ _ _ _ _)),
     (h c).2.2.2.2⟩)
    (Cert.ReferenceIdeal.ValueP.run (F := Ideal) m ρ)

end Cert.Gcn.RefValue

end
-- ==== Proof.Law.lean ====
/-
  The two arrangements of the row-wise log-softmax agree on real-valued arrays, and the third layer of the graph
  convolution is real-valued when the eight argument arrays are.

  Sums, products and maxima of reals are reals, so every entry of P1, H1, P2, H2, P3, H3 is the image of a real, and so is
  the maximum of a row of H3 (a fold of max from -∞ over 16 reals). For reals a, m and ANY extended real L,
    a - (L + m) = (a - m) - L
  (both sides are +∞ at L = -∞, -∞ at L = +∞, and the real a - m - L otherwise), which with L the logarithm of the row's
  sum of exponentials is the equality of the two arrangements.
-/
import proofs.«182206_g44306882625589_cont_8to1_c_1074_19_alg».proof.Proof.Spec

noncomputable section

namespace Cert.Gcn

open Idealize.ShloMosaic Idealize.ShloMosaic.ValueIdx

/-! ## Extended reals that are reals -/

/-- The extended real is the image of a real. -/
def IsReal (a : EReal) : Prop := ∃ r : ℝ, a = (r : EReal)

theorem IsReal.zero : IsReal (0 : EReal) := ⟨0, EReal.coe_zero.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb
  rcases le_total x y with h | h
  · exact ⟨y, max_eq_right (EReal.coe_le_coe_iff.2 h)⟩
  · exact ⟨x, max_eq_left (EReal.coe_le_coe_iff.2 h)⟩

/-- A finite sum of reals is a real. -/
theorem IsReal.sum {ι : Type} (s : Finset ι) (f : ι → EReal) (h : ∀ k ∈ s, IsReal (f k)) : IsReal (∑ k ∈ s, f k) := by
  classical
  induction s using Finset.induction_on with
  | empty => rw [Finset.sum_empty]; exact IsReal.zero
  | insert a s ha ih =>
    rw [Finset.sum_insert ha]
    exact (h a (Finset.mem_insert_self a s)).add (ih fun k hk => h k (Finset.mem_insert_of_mem hk))

/-- The maximum, folded from -∞, of a nonempty finite family of reals is a real. -/
theorem IsReal.fold_max {ι : Type} (s : Finset ι) (hs : s.Nonempty) (f : ι → EReal) (h : ∀ k ∈ s, IsReal (f k)) :
    IsReal (s.fold Max.max ⊥ f) := by
  refine hs.cons_induction (motive := fun s _ => (∀ k ∈ s, IsReal (f k)) → IsReal (s.fold Max.max ⊥ f)) ?_ ?_ h
  · intro a h
    rw [Finset.fold_singleton, max_eq_left bot_le]
    exact h a (Finset.mem_singleton_self a)
  · intro a s ha _ ih h
    rw [Finset.fold_cons]
    exact (h a (Finset.mem_cons_self a s)).max (ih fun k hk => h k (Finset.mem_cons.2 (Or.inr hk)))

/-! ## The three layers are real-valued on real arguments -/

section
variable {x : Sx.Idx → EReal} {adj : Sadj.Idx → EReal} {W1 : Sw1.Idx → EReal} {b1 : Sb64.Idx → EReal}
  {W2 : Sw2.Idx → EReal} {b2 : Sb64.Idx → EReal} {W3 : Sw3.Idx → EReal} {b3 : Sb16.Idx → EReal}

theorem P1_real (hx : ∀ i, IsReal (x i)) (hW1 : ∀ i, IsReal (W1 i)) (i : Sh.Idx) : IsReal (P1 x W1 i) :=
  IsReal.sum _ _ fun _ _ => (hx _).mul (hW1 _)

theorem H1_real (hx : ∀ i, IsReal (x i)) (hadj : ∀ i, IsReal (adj i)) (hW1 : ∀ i, IsReal (W1 i)) (hb1 : ∀ i, IsReal (b1 i))
    (i : Sh.Idx) : IsReal (H1 x adj W1 b1 i) :=
  (IsReal.sum _ _ fun _ _ => (hadj _).mul (P1_real hx hW1 _)).add (hb1 _)

theorem P2_real (hx : ∀ i, IsReal (x i)) (hadj : ∀ i, IsReal (adj i)) (hW1 : ∀ i, IsReal (W1 i)) (hb1 : ∀ i, IsReal (b1 i))
    (hW2 : ∀ i, IsReal (W2 i)) (i : Sh.Idx) : IsReal (P2 x adj W1 b1 W2 i) :=
  IsReal.sum _ _ fun _ _ => ((H1_real hx hadj hW1 hb1 _).max IsReal.zero).mul (hW2 _)

theorem H2_real (hx : ∀ i, IsReal (x i)) (hadj : ∀ i, IsReal (adj i)) (hW1 : ∀ i, IsReal (W1 i)) (hb1 : ∀ i, IsReal (b1 i))
    (hW2 : ∀ i, IsReal (W2 i)) (hb2 : ∀ i, IsReal (b2 i)) (i : Sh.Idx) : IsReal (H2 x adj W1 b1 W2 b2 i) :=
  (IsReal.sum _ _ fun _ _ => (hadj _).mul (P2_real hx hadj hW1 hb1 hW2 _)).add (hb2 _)

theorem P3_real (hx : ∀ i, IsReal (x i)) (hadj : ∀ i, IsReal (adj i)) (hW1 : ∀ i, IsReal (W1 i)) (hb1 : ∀ i, IsReal (b1 i))
    (hW2 : ∀ i, IsReal (W2 i)) (hb2 : ∀ i, IsReal (b2 i)) (hW3 : ∀ i, IsReal (W3 i)) (i : So.Idx) :
    IsReal (P3 x adj W1 b1 W2 b2 W3 i) :=
  IsReal.sum _ _ fun _ _ => ((H2_real hx hadj hW1 hb1 hW2 hb2 _).max IsReal.zero).mul (hW3 _)

theorem H3_real (hx : ∀ i, IsReal (x i)) (hadj : ∀ i, IsReal (adj i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i)) (i : So.Idx) :
    IsReal (H3 x adj W1 b1 W2 b2 W3 b3 i) :=
  (IsReal.sum _ _ fun _ _ => (hadj _).mul (P3_real hx hadj hW1 hb1 hW2 hb2 hW3 _)).add (hb3 _)

end

/-! ## The two arrangements of the log-softmax -/

/-- The maximum of a row of a real-valued array is a real. -/
theorem rowMax_real {h : So.Idx → EReal} (hh : ∀ i, IsReal (h i)) (r : Fin 10000) : IsReal (rowMax h r) :=
  IsReal.fold_max _ Finset.univ_nonempty _ fun _ _ => hh _

/-- For reals a and m and any extended real L: a - (L + m) = (a - m) - L. -/
theorem sub_add_eq_sub_sub_real (a m : ℝ) (L : EReal) : (a : EReal) - (L + (m : EReal)) = ((a : EReal) - (m : EReal)) - L := by
  induction L using EReal.rec with
  | bot => rw [EReal.bot_add, ← EReal.coe_sub, EReal.coe_sub_bot, EReal.coe_sub_bot]
  | coe l =>
    rw [← EReal.coe_add, ← EReal.coe_sub, ← EReal.coe_sub, ← EReal.coe_sub]
    exact congrArg _ (by ring)
  | top => rw [EReal.top_add_coe, EReal.sub_top, EReal.sub_top]

/-- On a real-valued array the two arrangements of the row-wise log-softmax are one function. -/
theorem lsmK_eq_lsmR {h : So.Idx → EReal} (hh : ∀ i, IsReal (h i)) : lsmK h = lsmR h := by
  funext i
  obtain ⟨a, ha⟩ := hh i
  obtain ⟨m, hm⟩ := rowMax_real hh (i 0)
  unfold lsmK lsmR
  rw [hm, ha]
  exact sub_add_eq_sub_sub_real a m _

/-- On real arguments the two forms of the first result agree. -/
theorem OutK_eq_OutR {x : Sx.Idx → EReal} {adj : Sadj.Idx → EReal} {W1 : Sw1.Idx → EReal} {b1 : Sb64.Idx → EReal}
    {W2 : Sw2.Idx → EReal} {b2 : Sb64.Idx → EReal} {W3 : Sw3.Idx → EReal} {b3 : Sb16.Idx → EReal}
    (hx : ∀ i, IsReal (x i)) (hadj : ∀ i, IsReal (adj i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i)) :
    OutK x adj W1 b1 W2 b2 W3 b3 = OutR x adj W1 b1 W2 b2 W3 b3 :=
  lsmK_eq_lsmR (H3_real hx hadj hW1 hb1 hW2 hb2 hW3 hb3)

end Cert.Gcn

end
-- ==== Proof.Finite.lean ====
/-
  From the precondition to reals: every entry of each of the eight argument arrays is the image of a real.

  The precondition says, for each argument array, that the conjunction over all its entries of |entry| < +∞ is true.
  A conjunction folded from "true" that comes out true met only true entries; an extended real a with
  max a (-a) < +∞ is neither +∞ nor -∞, hence a real.
-/
import proofs.«182206_g44306882625589_cont_8to1_c_1074_19_alg».proof.Defs
import proofs.«182206_g44306882625589_cont_8to1_c_1074_19_alg».proof.Proof.Law
import Idealize.ShloMosaic.Lib.ReduceAll
import Idealize.ShloMosaic.Lib.Pipeline.Value
import Idealize.ShloMosaic.Lib.ValueIdx

noncomputable section

namespace Cert.Gcn

open Idealize.ShloMosaic Idealize.ShloMosaic.ValueIdx Idealize.SL.Sem

/-- An extended real whose absolute value compares below the pattern of +∞ is a real. -/
theorem isReal_of_abs_lt_inf (a : EReal)
    (h : FloatOps.cmpf (F := Ideal) (φ := .f32) .olt (FloatOps.hostAbsf a) (Ideal.ofBits .f32 0x7F800000#32) = 1#1) : IsReal a := by
  have htop : Ideal.ofBits .f32 0x7F800000#32 = (⊤ : EReal) := by simp [Ideal.ofBits, Ideal.ieee]
  induction a using EReal.rec with
  | bot =>
    have h' : Ideal.cmp .olt (max (⊥ : EReal) (-⊥)) (Ideal.ofBits .f32 0x7F800000#32) = 1#1 := h
    rw [htop, EReal.neg_bot, max_eq_right bot_le] at h'
    simp [Ideal.cmp] at h'
  | coe r => exact ⟨r, rfl⟩
  | top =>
    have h' : Ideal.cmp .olt (max (⊤ : EReal) (-⊤)) (Ideal.ofBits .f32 0x7F800000#32) = 1#1 := h
    rw [htop, max_eq_left le_top] at h'
    simp [Ideal.cmp] at h'

/-- If the conjunction over every entry of "|entry| < +∞" is true, every entry is a real. -/
theorem all_real_of_reduce {s : Shape} {axes : List (Fin s.rank)} (x : FVec Ideal s .f32)
    (hb : (⟨0, ![]⟩ : Shape).BroadcastsInDim s (![] : Fin 0 → Fin s.rank)) (hred : s.ReducesTo axes (⟨0, ![]⟩ : Shape))
    (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hred hu ix0 = 1#1) (i : s.Idx) : IsReal (x i) := by
  haveI : Subsingleton (⟨0, ![]⟩ : Shape).Idx := ⟨fun a b => funext fun d => d.elim0⟩
  have h := Host.reduce_andi_all _ _ hred hu ix0 e i
  have hbc : broadcastInDim s ![] hb (constant (F := Ideal) (⟨0, ![]⟩ : Shape) .f32 0x7F800000#32) i
      = Ideal.ofBits .f32 0x7F800000#32 :=
    broadcastInDim_apply _ hb _ i ix0 (fun a => a.elim0)
  have h' : FloatOps.cmpf (F := Ideal) (φ := .f32) .olt (FloatOps.hostAbsf (x i))
      (broadcastInDim s ![] hb (constant (F := Ideal) (⟨0, ![]⟩ : Shape) .f32 0x7F800000#32) i) = 1#1 := h
  rw [hbc] at h'
  exact isReal_of_abs_lt_inf (x i) h'

/-- Under the precondition, on every device, every entry of each of the eight argument arrays is a real. -/
theorem args_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal ((m ((c.tc : Thread Cert.KernelIdeal.nD Cert.KernelIdeal.τ).loc Cert.KernelIdeal.main_arg0) : Sx.Idx → EReal) i))
    ∧ (∀ i, IsReal ((m ((c.tc : Thread Cert.KernelIdeal.nD Cert.KernelIdeal.τ).loc Cert.KernelIdeal.main_arg1) : Sadj.Idx → EReal) i))
    ∧ (∀ i, IsReal ((m ((c.tc : Thread Cert.KernelIdeal.nD Cert.KernelIdeal.τ).loc Cert.KernelIdeal.main_arg2) : Sw1.Idx → EReal) i))
    ∧ (∀ i, IsReal ((m ((c.tc : Thread Cert.KernelIdeal.nD Cert.KernelIdeal.τ).loc Cert.KernelIdeal.main_arg3) : Sb64.Idx → EReal) i))
    ∧ (∀ i, IsReal ((m ((c.tc : Thread Cert.KernelIdeal.nD Cert.KernelIdeal.τ).loc Cert.KernelIdeal.main_arg4) : Sw2.Idx → EReal) i))
    ∧ (∀ i, IsReal ((m ((c.tc : Thread Cert.KernelIdeal.nD Cert.KernelIdeal.τ).loc Cert.KernelIdeal.main_arg5) : Sb64.Idx → EReal) i))
    ∧ (∀ i, IsReal ((m ((c.tc : Thread Cert.KernelIdeal.nD Cert.KernelIdeal.τ).loc Cert.KernelIdeal.main_arg6) : Sw3.Idx → EReal) i))
    ∧ (∀ i, IsReal ((m ((c.tc : Thread Cert.KernelIdeal.nD Cert.KernelIdeal.τ).loc Cert.KernelIdeal.main_arg7) : Sb16.Idx → EReal) i)) := by
  have h0 := congrFun (hpre c) ix0
  dsimp only [Cert.Pre_finite_inputs.fn, Cert.Pre_finite_inputs.fn_part1, Cert.Pre_finite_inputs.fn_part2] at h0
  obtain ⟨h1, e7⟩ := IntOp.andi_eq_one.1 h0
  obtain ⟨h2, e6⟩ := IntOp.andi_eq_one.1 h1
  obtain ⟨h3, e5⟩ := IntOp.andi_eq_one.1 h2
  obtain ⟨h4, e4⟩ := IntOp.andi_eq_one.1 h3
  obtain ⟨h5, e3⟩ := IntOp.andi_eq_one.1 h4
  obtain ⟨h6, e2⟩ := IntOp.andi_eq_one.1 h5
  obtain ⟨e0, e1⟩ := IntOp.andi_eq_one.1 h6
  exact ⟨all_real_of_reduce _ _ _ _ e0, all_real_of_reduce _ _ _ _ e1, all_real_of_reduce _ _ _ _ e2,
    all_real_of_reduce _ _ _ _ e3, all_real_of_reduce _ _ _ _ e4, all_real_of_reduce _ _ _ _ e5,
    all_real_of_reduce _ _ _ _ e6, all_real_of_reduce _ _ _ _ e7⟩

end Cert.Gcn

end
-- ==== Proof.Algebraic.lean ====
/-
  The two programs end with equal results at the ideal instance.

  The kernel's second call leaves in its three arrays the targets its points write back — the second layer, the third layer
  and the third layer's row-wise log-softmax in the arrangement  h - (log Σ exp (h - m) + m)  — and its first call leaves the
  first layer; each of these is the specification's H1, H2, H3, OutK of the eight arguments. The reference ends at H1, H2,
  H3 and OutR, the log-softmax in the arrangement  (h - m) - log Σ exp (h - m).  Under the precondition every entry of every
  argument is a real, so H3 is real-valued and the two arrangements are one function; memories that agree on the
  arguments therefore end with the same four results.
-/
import proofs.«182206_g44306882625589_cont_8to1_c_1074_19_alg».proof.Defs
import proofs.«182206_g44306882625589_cont_8to1_c_1074_19_alg».proof.Proof.ExactRun
import proofs.«182206_g44306882625589_cont_8to1_c_1074_19_alg».proof.Proof.LayerOne.Values
import proofs.«182206_g44306882625589_cont_8to1_c_1074_19_alg».proof.Proof.LayerTwoThree.Values
import proofs.«182206_g44306882625589_cont_8to1_c_1074_19_alg».proof.Proof.Bridge
import proofs.«182206_g44306882625589_cont_8to1_c_1074_19_alg».proof.Proof.RefValue
import proofs.«182206_g44306882625589_cont_8to1_c_1074_19_alg».proof.Proof.Law
import proofs.«182206_g44306882625589_cont_8to1_c_1074_19_alg».proof.Proof.Finite
import proofs.«182206_g44306882625589_cont_8to1_c_1074_19_alg».proof.Proof.Gen.Pre_finite_inputs
import proofs.«182206_g44306882625589_cont_8to1_c_1074_19_alg».proof.Proof.Gen.KernelIdeal
import proofs.«182206_g44306882625589_cont_8to1_c_1074_19_alg».proof.Proof.Gen.ReferenceIdeal

set_option maxRecDepth 16384

noncomputable section

namespace Cert.Proof

open Idealize.ShloMosaic Idealize.ShloMosaic.TcCoe Idealize.SL.Sem

/-- The kernel's run, its four results the specification's functions of the arguments (the log-softmax in the kernel's own
    arrangement): the second call's three arrays are the targets its points' write-backs leave, the first call's array the
    first layer, and each target is the specification's layer of the arguments. -/
theorem kernel_values (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v6_2) = Cert.Gcn.OutK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v2_0) = Cert.Gcn.H1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v6_0) = Cert.Gcn.H2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v6_1) = Cert.Gcn.H3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run (Cert.KernelIdeal.defs (F := Ideal)) _ _).mono (fun r h c =>
    ⟨((h c _ (Cert.KernelIdeal.ExactRun.mem_uc Cert.KernelIdeal.main_v6_2 (by decide))).trans (Cert.KernelIdeal.ExactRun.W4_v6_2 m _ _ _ _ c)).trans (Cert.Gcn.Bridge.bL m c),
     ((h c _ (Cert.KernelIdeal.ExactRun.mem_uc Cert.KernelIdeal.main_v2_0 (by decide))).trans (Cert.KernelIdeal.ExactRun.W4_v2_0 m _ _ _ _ c)).trans
       ((Cert.KernelIdeal.LayerOne.final5 (Cert.KernelIdeal.Frames.V1 m) c).trans (Cert.Gcn.Bridge.b1 m c)),
     ((h c _ (Cert.KernelIdeal.ExactRun.mem_uc Cert.KernelIdeal.main_v6_0 (by decide))).trans (Cert.KernelIdeal.ExactRun.W4_v6_0 m _ _ _ _ c)).trans (Cert.Gcn.Bridge.b2 m c),
     ((h c _ (Cert.KernelIdeal.ExactRun.mem_uc Cert.KernelIdeal.main_v6_1 (by decide))).trans (Cert.KernelIdeal.ExactRun.W4_v6_1 m _ _ _ _ c)).trans (Cert.Gcn.Bridge.b3 m c),
     (h c _ (Cert.KernelIdeal.ExactRun.mem_uc Cert.KernelIdeal.main_arg0 (by decide))).trans (Cert.KernelIdeal.ExactRun.W4_main_arg0 m _ _ _ _ c),
     (h c _ (Cert.KernelIdeal.ExactRun.mem_uc Cert.KernelIdeal.main_arg1 (by decide))).trans (Cert.KernelIdeal.ExactRun.W4_main_arg1 m _ _ _ _ c),
     (h c _ (Cert.KernelIdeal.ExactRun.mem_uc Cert.KernelIdeal.main_arg2 (by decide))).trans (Cert.KernelIdeal.ExactRun.W4_main_arg2 m _ _ _ _ c),
     (h c _ (Cert.KernelIdeal.ExactRun.mem_uc Cert.KernelIdeal.main_arg3 (by decide))).trans (Cert.KernelIdeal.ExactRun.W4_main_arg3 m _ _ _ _ c),
     (h c _ (Cert.KernelIdeal.ExactRun.mem_uc Cert.KernelIdeal.main_arg4 (by decide))).trans (Cert.KernelIdeal.ExactRun.W4_main_arg4 m _ _ _ _ c),
     (h c _ (Cert.KernelIdeal.ExactRun.mem_uc Cert.KernelIdeal.main_arg5 (by decide))).trans (Cert.KernelIdeal.ExactRun.W4_main_arg5 m _ _ _ _ c),
     (h c _ (Cert.KernelIdeal.ExactRun.mem_uc Cert.KernelIdeal.main_arg6 (by decide))).trans (Cert.KernelIdeal.ExactRun.W4_main_arg6 m _ _ _ _ c),
     (h c _ (Cert.KernelIdeal.ExactRun.mem_uc Cert.KernelIdeal.main_arg7 (by decide))).trans (Cert.KernelIdeal.ExactRun.W4_main_arg7 m _ _ _ _ c)⟩)
    (Cert.KernelIdeal.ExactRun.run (F := Ideal) m ρ (Cert.KernelIdeal.LayerTwoThree.tgt2 (Cert.KernelIdeal.Frames.V3 m)) (Cert.KernelIdeal.LayerTwoThree.tgt3 (Cert.KernelIdeal.Frames.V3 m))
      (Cert.KernelIdeal.LayerTwoThree.tgtL (Cert.KernelIdeal.Frames.V3 m)) (Cert.KernelIdeal.LayerTwoThree.projZ (Cert.KernelIdeal.Frames.V3 m)) (Cert.KernelIdeal.LayerTwoThree.runFacts (Cert.KernelIdeal.Frames.V3 m)))

/-- At the ideal instance, from memories agreeing on the eight arguments, the kernel and the reference end with equal
    results: both end at the specification's H1, H2, H3 and the log-softmax of H3, the kernel's arrangement of it being the
    reference's because the precondition makes every argument entry a real. -/
theorem algebraic : Cert.algebraic_KernelIdeal_ReferenceIdeal := by
  intro m ρ m' ρ' hpre hagree
  refine ⟨fun c => Cert.Gcn.OutR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Gcn.H1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Gcn.H2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Gcn.H3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run (Cert.KernelIdeal.defs (F := Ideal)) _ _).mono (fun r h c => ?_) (kernel_values m ρ)
    obtain ⟨h0, h1, h2, h3, hargs⟩ := h c
    obtain ⟨r0, r1, r2, r3, r4, r5, r6, r7⟩ := Cert.Gcn.args_real m hpre c
    exact ⟨h0.trans (Cert.Gcn.OutK_eq_OutR r0 r1 r2 r3 r4 r5 r6 r7), h1, h2, h3, hargs⟩
  · refine (θ_run (Cert.ReferenceIdeal.defs (F := Ideal)) _ _).mono (fun r h c => ?_) (Cert.Gcn.RefValue.run m' ρ')
    obtain ⟨h0, h1, h2, h3, hargs⟩ := h c
    obtain ⟨g0, g1, g2, g3, g4, g5, g6, g7⟩ := hagree c
    refine ⟨?_, ?_, ?_, ?_, hargs⟩
    · rw [h0, g0, g1, g2, g3, g4, g5, g6, g7]
    · rw [h1, g0, g1, g2, g3]
    · rw [h2, g0, g1, g2, g3, g4, g5]
    · rw [h3, g0, g1, g2, g3, g4, g5, g6, g7]

end Cert.Proof

end
-- ==== Proof.lean ====
/-
  The claim: both printed kernel programs and the reference run to the end without a fault and leave the eight argument
  arrays unchanged; the idealized kernel is the printed kernel's own text read at the ideal instance (no rewrite was
  applied); and at the ideal instance the kernel and the reference end with equal results.
  The kernel is a three-layer graph convolution h ↦ adj·(relu(h)·W) + b over a dense 10000×10000 adjacency in two
  pallas_calls, followed by a row-wise log-softmax. Each kernel frame is the run of @main as host stretch, call, host
  stretch, call (Frames.lean for the idealized text, Word/Frames.lean for the printed one). For the equal results the
  idealized kernel's run is followed exactly (ExactRun.lean): every result array ends at one function of the arguments,
  index by index — sums of products in the order the blocks compute them, which is the reference's order — and the two
  arrangements of the log-softmax, h − (log Σ exp(h − m) + m) and (h − m) − log Σ exp(h − m), agree because a finite
  input makes every h a real number (Algebraic.lean).
-/
import proofs.«182206_g44306882625589_cont_8to1_c_1074_19_alg».proof.Defs
import proofs.«182206_g44306882625589_cont_8to1_c_1074_19_alg».proof.Proof.Gen.Kernel
import proofs.«182206_g44306882625589_cont_8to1_c_1074_19_alg».proof.Proof.Gen.KernelIdeal
import proofs.«182206_g44306882625589_cont_8to1_c_1074_19_alg».proof.Proof.Gen.ReferenceIdeal
import proofs.«182206_g44306882625589_cont_8to1_c_1074_19_alg».proof.Proof.Gen.Pre_finite_inputs
import proofs.«182206_g44306882625589_cont_8to1_c_1074_19_alg».proof.Proof.Frames
import proofs.«182206_g44306882625589_cont_8to1_c_1074_19_alg».proof.Proof.Word.Frames
import proofs.«182206_g44306882625589_cont_8to1_c_1074_19_alg».proof.Proof.RunP
import proofs.«182206_g44306882625589_cont_8to1_c_1074_19_alg».proof.Proof.Algebraic
import Idealize.ShloMosaic.Adequacy
import Idealize.ShloMosaic.Init

noncomputable section

namespace Cert.Proof

open Idealize.ShloMosaic Idealize.SL.Sem

/-- The printed kernel's frame: the several-segment run at the word-level instance. -/
theorem frame_p : Cert.frame_Kernel := fun m ρ _ => Cert.Kernel.Frames.frame (F := Bits) m ρ

/-- The idealized kernel's frame: the same run at the ideal instance. -/
theorem frame_pi : Cert.frame_KernelIdeal := fun m ρ _ => Cert.KernelIdeal.Frames.frame (F := Ideal) m ρ

/-- The reference has no kernel: its frame is its run with the four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- No rewrite was applied when the idealized text was printed: nothing to preserve. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_p, frame_pi, frame_ri, preserves, Cert.Proof.algebraic⟩

end Cert.Proof

end
